-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x16384 : Shape := ⟨3, ![4, 3, 16384]⟩
abbrev S4x3x2048 : Shape := ⟨3, ![4, 3, 2048]⟩
abbrev S4x64x16384 : Shape := ⟨3, ![4, 64, 16384]⟩
abbrev S_ : Shape := ⟨0, ![]⟩

class Facts : Prop where
  bcast_S_S4x3x16384 : S_.BroadcastsInDim S4x3x16384 (![] : Fin 0 → Fin S4x3x16384.rank)
  reducesTo_S4x3x16384_S_d0_1_2 : S4x3x16384.ReducesTo [0, 1, 2] S_
  h_S_ : 0 < S_.numel
  bcast_S_S4x3x2048 : S_.BroadcastsInDim S4x3x2048 (![] : Fin 0 → Fin S4x3x2048.rank)
  reducesTo_S4x3x2048_S_d0_1_2 : S4x3x2048.ReducesTo [0, 1, 2] S_
  bcast_S_S4x64x16384 : S_.BroadcastsInDim S4x64x16384 (![] : Fin 0 → Fin S4x64x16384.rank)
  reducesTo_S4x64x16384_S_d0_1_2 : S4x64x16384.ReducesTo [0, 1, 2] S_

variable [Facts]

def fn {F : FTy → Type} [FloatOps F] (main_arg0 : FVec F S4x3x16384 .f32) (main_arg1 : FVec F S4x3x2048 .f32) (main_arg2 : FVec F S4x64x16384 .f32) : IVec S_ 1 :=
  let main_v0 : FVec F S4x3x16384 .f32 := Host.absf main_arg0
  let main_cst : FVec F S_ .f32 := constant S_ .f32 0x7F800000#32
  let main_v1 : FVec F S4x3x16384 .f32 := broadcastInDim S4x3x16384 ![] bcast_S_S4x3x16384 main_cst
  let main_v2 : IVec S4x3x16384 1 := cmpf .olt main_v0 main_v1
  let main_c : IVec S_ 1 := constantI S_ 1 1#1
  let main_v3 : IVec S_ 1 := (fun x v => Host.reduce IntOp.andi x v reducesTo_S4x3x16384_S_d0_1_2 h_S_) main_v2 main_c
  let main_v4 : FVec F S4x3x2048 .f32 := Host.absf main_arg1
  let main_cst_0 : FVec F S_ .f32 := constant S_ .f32 0x7F800000#32
  let main_v5 : FVec F S4x3x2048 .f32 := broadcastInDim S4x3x2048 ![] bcast_S_S4x3x2048 main_cst_0
  let main_v6 : IVec S4x3x2048 1 := cmpf .olt main_v4 main_v5
  let main_c_1 : IVec S_ 1 := constantI S_ 1 1#1
  let main_v7 : IVec S_ 1 := (fun x v => Host.reduce IntOp.andi x v reducesTo_S4x3x2048_S_d0_1_2 h_S_) main_v6 main_c_1
  let main_v8 : IVec S_ 1 := andi main_v3 main_v7
  let main_v9 : FVec F S4x64x16384 .f32 := Host.absf main_arg2
  let main_cst_2 : FVec F S_ .f32 := constant S_ .f32 0x7F800000#32
  let main_v10 : FVec F S4x64x16384 .f32 := broadcastInDim S4x64x16384 ![] bcast_S_S4x64x16384 main_cst_2
  let main_v11 : IVec S4x64x16384 1 := cmpf .olt main_v9 main_v10
  let main_c_3 : IVec S_ 1 := constantI S_ 1 1#1
  let main_v12 : IVec S_ 1 := (fun x v => Host.reduce IntOp.andi x v reducesTo_S4x64x16384_S_d0_1_2 h_S_) main_v11 main_c_3
  let main_v13 : IVec S_ 1 := andi main_v8 main_v12
  main_v13
-- ==== Kernel.lean ====
abbrev S4x3x16384 : Shape := ⟨3, ![4, 3, 16384]⟩
abbrev S4x3x2048 : Shape := ⟨3, ![4, 3, 2048]⟩
abbrev S4x64x16384 : Shape := ⟨3, ![4, 64, 16384]⟩
abbrev S4x2048x3 : Shape := ⟨3, ![4, 2048, 3]⟩
abbrev S4x2048x16384 : Shape := ⟨3, ![4, 2048, 16384]⟩
abbrev S1x256x3 : Shape := ⟨3, ![1, 256, 3]⟩
abbrev S1x3x2048 : Shape := ⟨3, ![1, 3, 2048]⟩
abbrev S1x256x2048 : Shape := ⟨3, ![1, 256, 2048]⟩
abbrev S256x3 : Shape := ⟨2, ![256, 3]⟩
abbrev S3x2048 : Shape := ⟨2, ![3, 2048]⟩
abbrev S256x2048 : Shape := ⟨2, ![256, 2048]⟩
abbrev S256x1 : Shape := ⟨2, ![256, 1]⟩
abbrev S1x2048 : Shape := ⟨2, ![1, 2048]⟩
abbrev S4x2048x32 : Shape := ⟨3, ![4, 2048, 32]⟩
abbrev S4x2048x1 : Shape := ⟨3, ![4, 2048, 1]⟩
abbrev S_ : Shape := ⟨0, ![]⟩
abbrev S4x1x65536 : Shape := ⟨3, ![4, 1, 65536]⟩
abbrev S4x3x65536 : Shape := ⟨3, ![4, 3, 65536]⟩
abbrev S4x3x65536x1 : Shape := ⟨4, ![4, 3, 65536, 1]⟩
abbrev S1 : Shape := ⟨1, ![1]⟩
abbrev S1x1x1x1 : Shape := ⟨4, ![1, 1, 1, 1]⟩
abbrev S4x3x2048x32 : Shape := ⟨4, ![4, 3, 2048, 32]⟩
abbrev S4x3x2048x1 : Shape := ⟨4, ![4, 3, 2048, 1]⟩
abbrev S4x64x65536 : Shape := ⟨3, ![4, 64, 65536]⟩
abbrev S4x64x65536x1 : Shape := ⟨4, ![4, 64, 65536, 1]⟩
abbrev S4x64x2048x32 : Shape := ⟨4, ![4, 64, 2048, 32]⟩
abbrev S4x67x2048x32 : Shape := ⟨4, ![4, 67, 2048, 32]⟩

abbrev nBuf : Space → Nat
  | .hbm => 74
  | .vmem => 6
  | .smem => 0
  | _ => 0

abbrev bufTy : (tb : Table) → Fin (tcTables nBuf tb) → BufTy
  | .hbm, ⟨0, _⟩ => ⟨S4x3x16384, .f32⟩
  | .hbm, ⟨1, _⟩ => ⟨S4x3x2048, .f32⟩
  | .hbm, ⟨2, _⟩ => ⟨S4x64x16384, .f32⟩
  | .hbm, ⟨3, _⟩ => ⟨S4x2048x3, .f32⟩
  | .hbm, ⟨4, _⟩ => ⟨S4x2048x16384, .i32⟩
  | .hbm, ⟨5, _⟩ => ⟨S4x2048x16384, .i32⟩
  | .hbm, ⟨6, _⟩ => ⟨S4x2048x32, .i32⟩
  | .hbm, ⟨7, _⟩ => ⟨S4x2048x1, .i32⟩
  | .hbm, ⟨8, _⟩ => ⟨S_, .i32⟩
  | .hbm, ⟨9, _⟩ => ⟨S4x2048x1, .i32⟩
  | .hbm, ⟨10, _⟩ => ⟨S4x2048x1, .i1⟩
  | .hbm, ⟨11, _⟩ => ⟨S_, .i32⟩
  | .hbm, ⟨12, _⟩ => ⟨S_, .i32⟩
  | .hbm, ⟨13, _⟩ => ⟨S4x2048x1, .i32⟩
  | .hbm, ⟨14, _⟩ => ⟨S4x2048x1, .i32⟩
  | .hbm, ⟨15, _⟩ => ⟨S_, .i32⟩
  | .hbm, ⟨16, _⟩ => ⟨S4x2048x32, .i32⟩
  | .hbm, ⟨17, _⟩ => ⟨S4x2048x32, .i1⟩
  | .hbm, ⟨18, _⟩ => ⟨S4x2048x32, .i32⟩
  | .hbm, ⟨19, _⟩ => ⟨S4x2048x32, .i32⟩
  | .hbm, ⟨20, _⟩ => ⟨S4x1x65536, .i32⟩
  | .hbm, ⟨21, _⟩ => ⟨S4x3x65536, .i32⟩
  | .hbm, ⟨22, _⟩ => ⟨S_, .i32⟩
  | .hbm, ⟨23, _⟩ => ⟨S4x3x65536, .i32⟩
  | .hbm, ⟨24, _⟩ => ⟨S4x3x65536, .i1⟩
  | .hbm, ⟨25, _⟩ => ⟨S_, .i32⟩
  | .hbm, ⟨26, _⟩ => ⟨S4x3x65536, .i32⟩
  | .hbm, ⟨27, _⟩ => ⟨S4x3x65536, .i32⟩
  | .hbm, ⟨28, _⟩ => ⟨S4x3x65536, .i32⟩
  | .hbm, ⟨29, _⟩ => ⟨S4x3x65536x1, .i32⟩
  | .hbm, ⟨30, _⟩ => ⟨S1, .i32⟩
  | .hbm, ⟨31, _⟩ => ⟨S_, .i32⟩
  | .hbm, ⟨32, _⟩ => ⟨S4x3x65536x1, .i32⟩
  | .hbm, ⟨33, _⟩ => ⟨S4x3x65536x1, .i1⟩
  | .hbm, ⟨34, _⟩ => ⟨S1x1x1x1, .i32⟩
  | .hbm, ⟨35, _⟩ => ⟨S4x3x65536x1, .i32⟩
  | .hbm, ⟨36, _⟩ => ⟨S4x3x65536x1, .i1⟩
  | .hbm, ⟨37, _⟩ => ⟨S4x3x65536x1, .i1⟩
  | .hbm, ⟨38, _⟩ => ⟨S_, .i1⟩
  | .hbm, ⟨39, _⟩ => ⟨S4x3x65536, .i1⟩
  | .hbm, ⟨40, _⟩ => ⟨S4x3x65536, .f32⟩
  | .hbm, ⟨41, _⟩ => ⟨S_, .f32⟩
  | .hbm, ⟨42, _⟩ => ⟨S4x3x65536, .f32⟩
  | .hbm, ⟨43, _⟩ => ⟨S4x3x65536, .f32⟩
  | .hbm, ⟨44, _⟩ => ⟨S4x3x2048x32, .f32⟩
  | .hbm, ⟨45, _⟩ => ⟨S4x3x2048x1, .f32⟩
  | .hbm, ⟨46, _⟩ => ⟨S4x3x2048x32, .f32⟩
  | .hbm, ⟨47, _⟩ => ⟨S4x3x2048x32, .f32⟩
  | .hbm, ⟨48, _⟩ => ⟨S4x1x65536, .i32⟩
  | .hbm, ⟨49, _⟩ => ⟨S4x64x65536, .i32⟩
  | .hbm, ⟨50, _⟩ => ⟨S_, .i32⟩
  | .hbm, ⟨51, _⟩ => ⟨S4x64x65536, .i32⟩
  | .hbm, ⟨52, _⟩ => ⟨S4x64x65536, .i1⟩
  | .hbm, ⟨53, _⟩ => ⟨S_, .i32⟩
  | .hbm, ⟨54, _⟩ => ⟨S4x64x65536, .i32⟩
  | .hbm, ⟨55, _⟩ => ⟨S4x64x65536, .i32⟩
  | .hbm, ⟨56, _⟩ => ⟨S4x64x65536, .i32⟩
  | .hbm, ⟨57, _⟩ => ⟨S4x64x65536x1, .i32⟩
  | .hbm, ⟨58, _⟩ => ⟨S1, .i32⟩
  | .hbm, ⟨59, _⟩ => ⟨S_, .i32⟩
  | .hbm, ⟨60, _⟩ => ⟨S4x64x65536x1, .i32⟩
  | .hbm, ⟨61, _⟩ => ⟨S4x64x65536x1, .i1⟩
  | .hbm, ⟨62, _⟩ => ⟨S1x1x1x1, .i32⟩
  | .hbm, ⟨63, _⟩ => ⟨S4x64x65536x1, .i32⟩
  | .hbm, ⟨64, _⟩ => ⟨S4x64x65536x1, .i1⟩
  | .hbm, ⟨65, _⟩ => ⟨S4x64x65536x1, .i1⟩
  | .hbm, ⟨66, _⟩ => ⟨S_, .i1⟩
  | .hbm, ⟨67, _⟩ => ⟨S4x64x65536, .i1⟩
  | .hbm, ⟨68, _⟩ => ⟨S4x64x65536, .f32⟩
  | .hbm, ⟨69, _⟩ => ⟨S_, .f32⟩
  | .hbm, ⟨70, _⟩ => ⟨S4x64x65536, .f32⟩
  | .hbm, ⟨71, _⟩ => ⟨S4x64x65536, .f32⟩
  | .hbm, ⟨72, _⟩ => ⟨S4x64x2048x32, .f32⟩
  | .hbm, ⟨73, _⟩ => ⟨S4x67x2048x32, .f32⟩
  | .local _ .vmem, ⟨0, _⟩ => ⟨S1x256x3, .f32⟩
  | .local _ .vmem, ⟨1, _⟩ => ⟨S1x256x3, .f32⟩
  | .local _ .vmem, ⟨2, _⟩ => ⟨S1x3x2048, .f32⟩
  | .local _ .vmem, ⟨3, _⟩ => ⟨S1x3x2048, .f32⟩
  | .local _ .vmem, ⟨4, _⟩ => ⟨S1x256x2048, .i32⟩
  | .local _ .vmem, ⟨5, _⟩ => ⟨S1x256x2048, .i32⟩
  | _, _ => ⟨S4x3x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call3_c : Ref sig .tc := ⟨.hbm, 22, rfl⟩
abbrev main_call3_v0 : Ref sig .tc := ⟨.hbm, 23, rfl⟩
abbrev main_call3_v1 : Ref sig .tc := ⟨.hbm, 24, rfl⟩
abbrev main_call3_c_0 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_call3_v5 : Ref sig .tc := ⟨.hbm, 29, rfl⟩
abbrev main_call3_c_1 : Ref sig .tc := ⟨.hbm, 30, rfl⟩
abbrev main_call3_c_2 : Ref sig .tc := ⟨.hbm, 31, rfl⟩
abbrev main_call3_v6 : Ref sig .tc := ⟨.hbm, 32, rfl⟩
abbrev main_call3_v7 : Ref sig .tc := ⟨.hbm, 33, rfl⟩
abbrev main_call3_v8 : Ref sig .tc := ⟨.hbm, 34, rfl⟩
abbrev main_call3_v9 : Ref sig .tc := ⟨.hbm, 35, rfl⟩
abbrev main_call3_v10 : Ref sig .tc := ⟨.hbm, 36, rfl⟩
abbrev main_call3_v11 : Ref sig .tc := ⟨.hbm, 37, rfl⟩
abbrev main_call3_c_3 : Ref sig .tc := ⟨.hbm, 38, rfl⟩
abbrev main_call3_v12 : Ref sig .tc := ⟨.hbm, 39, rfl⟩
abbrev main_call3_v13 : Ref sig .tc := ⟨.hbm, 40, rfl⟩
abbrev main_call3_cst : Ref sig .tc := ⟨.hbm, 41, rfl⟩
abbrev main_call3_v14 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call4_c : Ref sig .tc := ⟨.hbm, 50, rfl⟩
abbrev main_call4_v0 : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_v5 : Ref sig .tc := ⟨.hbm, 57, rfl⟩
abbrev main_call4_c_1 : Ref sig .tc := ⟨.hbm, 58, rfl⟩
abbrev main_call4_c_2 : Ref sig .tc := ⟨.hbm, 59, rfl⟩
abbrev main_call4_v6 : Ref sig .tc := ⟨.hbm, 60, rfl⟩
abbrev main_call4_v7 : Ref sig .tc := ⟨.hbm, 61, rfl⟩
abbrev main_call4_v8 : Ref sig .tc := ⟨.hbm, 62, rfl⟩
abbrev main_call4_v9 : Ref sig .tc := ⟨.hbm, 63, rfl⟩
abbrev main_call4_v10 : Ref sig .tc := ⟨.hbm, 64, rfl⟩
abbrev main_call4_v11 : Ref sig .tc := ⟨.hbm, 65, rfl⟩
abbrev main_call4_c_3 : Ref sig .tc := ⟨.hbm, 66, rfl⟩
abbrev main_call4_v12 : Ref sig .tc := ⟨.hbm, 67, rfl⟩
abbrev main_call4_v13 : Ref sig .tc := ⟨.hbm, 68, rfl⟩
abbrev main_call4_cst : Ref sig .tc := ⟨.hbm, 69, rfl⟩
abbrev main_call4_v14 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S4x3x2048_S4x2048x3_0_2_1 : S4x3x2048.Transposes [0, 2, 1] S4x2048x3
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S256x3_o0_0_S256x1 : S256x3.Slices ![0, 0] S256x1
  slices_S3x2048_o0_0_S1x2048 : S3x2048.Slices ![0, 0] S1x2048
  broadcasts_S256x1_S256x2048 : S256x1.Broadcasts S256x2048
  broadcasts_S1x2048_S256x2048 : S1x2048.Broadcasts S256x2048
  slices_S256x3_o0_1_S256x1 : S256x3.Slices ![0, 1] S256x1
  slices_S3x2048_o1_0_S1x2048 : S3x2048.Slices ![1, 0] S1x2048
  slices_S256x3_o0_2_S256x1 : S256x3.Slices ![0, 2] S256x1
  slices_S3x2048_o2_0_S1x2048 : S3x2048.Slices ![2, 0] S1x2048
  iota_S256x2048_d1_w32 : S256x2048.Iotas .tc 32 [1]
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  slices_S4x2048x16384_S4x2048x32_0_0_0 : S4x2048x16384.Slices ![0, 0, 0] S4x2048x32
  slices_S4x2048x32_S4x2048x1_0_0_0 : S4x2048x32.Slices ![0, 0, 0] S4x2048x1
  bcast_S_S4x2048x1 : S_.BroadcastsInDim S4x2048x1 (![] : Fin 0 → Fin S4x2048x1.rank)
  bcast_S_S4x2048x32 : S_.BroadcastsInDim S4x2048x32 (![] : Fin 0 → Fin S4x2048x32.rank)
  bcast_S4x2048x1_S4x2048x32_0_1_2 : S4x2048x1.BroadcastsInDim S4x2048x32 (![0, 1, 2] : Fin 3 → Fin S4x2048x32.rank)
  shapeCasts_S4x2048x32_S4x1x65536 : S4x2048x32.ShapeCasts S4x1x65536
  bcast_S4x1x65536_S4x3x65536_0_1_2 : S4x1x65536.BroadcastsInDim S4x3x65536 (![0, 1, 2] : Fin 3 → Fin S4x3x65536.rank)
  bcast_S_S4x3x65536 : S_.BroadcastsInDim S4x3x65536 (![] : Fin 0 → Fin S4x3x65536.rank)
  shapeCasts_S4x3x65536_S4x3x65536x1 : S4x3x65536.ShapeCasts S4x3x65536x1
  bcast_S_S4x3x65536x1 : S_.BroadcastsInDim S4x3x65536x1 (![] : Fin 0 → Fin S4x3x65536x1.rank)
  bcast_S1_S1x1x1x1_3 : S1.BroadcastsInDim S1x1x1x1 (![3] : Fin 1 → Fin S1x1x1x1.rank)
  bcast_S1x1x1x1_S4x3x65536x1_0_1_2_3 : S1x1x1x1.BroadcastsInDim S4x3x65536x1 (![0, 1, 2, 3] : Fin 4 → Fin S4x3x65536x1.rank)
  reducesTo_S4x3x65536x1_S4x3x65536_d3 : S4x3x65536x1.ReducesTo [3] S4x3x65536
  h_S_ : 0 < S_.numel
  shapeCasts_S4x3x65536_S4x3x2048x32 : S4x3x65536.ShapeCasts S4x3x2048x32
  bcast_S4x3x2048_S4x3x2048x1_0_1_2 : S4x3x2048.BroadcastsInDim S4x3x2048x1 (![0, 1, 2] : Fin 3 → Fin S4x3x2048x1.rank)
  bcast_S4x3x2048x1_S4x3x2048x32_0_1_2_3 : S4x3x2048x1.BroadcastsInDim S4x3x2048x32 (![0, 1, 2, 3] : Fin 4 → Fin S4x3x2048x32.rank)
  bcast_S4x1x65536_S4x64x65536_0_1_2 : S4x1x65536.BroadcastsInDim S4x64x65536 (![0, 1, 2] : Fin 3 → Fin S4x64x65536.rank)
  bcast_S_S4x64x65536 : S_.BroadcastsInDim S4x64x65536 (![] : Fin 0 → Fin S4x64x65536.rank)
  shapeCasts_S4x64x65536_S4x64x65536x1 : S4x64x65536.ShapeCasts S4x64x65536x1
  bcast_S_S4x64x65536x1 : S_.BroadcastsInDim S4x64x65536x1 (![] : Fin 0 → Fin S4x64x65536x1.rank)
  bcast_S1x1x1x1_S4x64x65536x1_0_1_2_3 : S1x1x1x1.BroadcastsInDim S4x64x65536x1 (![0, 1, 2, 3] : Fin 4 → Fin S4x64x65536x1.rank)
  reducesTo_S4x64x65536x1_S4x64x65536_d3 : S4x64x65536x1.ReducesTo [3] S4x64x65536
  shapeCasts_S4x64x65536_S4x64x2048x32 : S4x64x65536.ShapeCasts S4x64x2048x32
  concatenates_S4x3x2048x32_S4x64x2048x32_S4x67x2048x32_d1 : Shape.Concatenates [S4x3x2048x32, S4x64x2048x32] S4x67x2048x32 1
  gather_S4x3x16384_S4x3x65536x1_S4x3x65536_n_2_01_01_2_3_111_wf : GatherDims.WF S4x3x16384 S4x3x65536x1 S4x3x65536 [] [2] [0, 1] [2] [0, 1] 3 ![1, 1, 1]
  gather_S4x64x16384_S4x64x65536x1_S4x64x65536_n_2_01_01_2_3_111_wf : GatherDims.WF S4x64x16384 S4x64x65536x1 S4x64x65536 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S4x2048x3.size a
  hwx0_0 : ∀ i : grid0.Coords, EltTy.bits .f32 = 32 ∨ (Rect.block (s := S4x2048x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S4x3x16384.size a
  hwx0_1 : ∀ i : grid0.Coords, EltTy.bits .f32 = 32 ∨ (Rect.block (s := S4x3x16384) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S4x2048x16384.size a
  hwx0_2 : ∀ i : grid0.Coords, EltTy.bits .i32 = 32 ∨ (Rect.block (s := S4x2048x16384) S1x256x2048.size (cc0_transform_2 i) (hinb0_2 i)).WholeWords (EltTy.packing .i32)

variable [Facts₀]

def comparator_i32_d2 : BitVec 32 → BitVec 32 → BitVec 1 :=
  fun l r =>
    let v1 := IntOp.cmpi .slt l r
    v1
def gather_S4x3x16384_S4x3x65536x1_S4x3x65536_n_2_01_01_2_3_111 : GatherDims S4x3x16384 S4x3x65536x1 S4x3x65536 where
  offsetDims := []
  collapsedSliceDims := [2]
  operandBatchingDims := [0, 1]
  startIndicesBatchingDims := [0, 1]
  startIndexMap := [2]
  indexVectorDim := 3
  sliceSizes := ![1, 1, 1]
  wf := gather_S4x3x16384_S4x3x65536x1_S4x3x65536_n_2_01_01_2_3_111_wf
def gather_S4x64x16384_S4x64x65536x1_S4x64x65536_n_2_01_01_2_3_111 : GatherDims S4x64x16384 S4x64x65536x1 S4x64x65536 where
  offsetDims := []
  collapsedSliceDims := [2]
  operandBatchingDims := [0, 1]
  startIndicesBatchingDims := [0, 1]
  startIndexMap := [2]
  indexVectorDim := 3
  sliceSizes := ![1, 1, 1]
  wf := gather_S4x64x16384_S4x64x65536x1_S4x64x65536_n_2_01_01_2_3_111_wf

abbrev win0_0 : Pipeline.Window sig grid0 :=
  Pipeline.Window.ofSpec (Memref.whole main_v0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x16384 : Shape := ⟨3, ![4, 3, 16384]⟩
abbrev S4x3x2048 : Shape := ⟨3, ![4, 3, 2048]⟩
abbrev S4x64x16384 : Shape := ⟨3, ![4, 64, 16384]⟩
abbrev S_ : Shape := ⟨0, ![]⟩
abbrev S4x16384 : Shape := ⟨2, ![4, 16384]⟩
abbrev S4x2048 : Shape := ⟨2, ![4, 2048]⟩
abbrev S4x2048x16384 : Shape := ⟨3, ![4, 2048, 16384]⟩
abbrev S4x2048x1 : Shape := ⟨3, ![4, 2048, 1]⟩
abbrev S4x1x16384 : Shape := ⟨3, ![4, 1, 16384]⟩
abbrev S16384 : Shape := ⟨1, ![16384]⟩
abbrev S1x1x16384 : Shape := ⟨3, ![1, 1, 16384]⟩
abbrev S4x2048x32 : Shape := ⟨3, ![4, 2048, 32]⟩
abbrev S4x1x65536 : Shape := ⟨3, ![4, 1, 65536]⟩
abbrev S4x3x65536 : Shape := ⟨3, ![4, 3, 65536]⟩
abbrev S4x3x65536x1 : Shape := ⟨4, ![4, 3, 65536, 1]⟩
abbrev S1 : Shape := ⟨1, ![1]⟩
abbrev S1x1x1x1 : Shape := ⟨4, ![1, 1, 1, 1]⟩
abbrev S4x3x2048x32 : Shape := ⟨4, ![4, 3, 2048, 32]⟩
abbrev S4x3x2048x1 : Shape := ⟨4, ![4, 3, 2048, 1]⟩
abbrev S4x64x65536 : Shape := ⟨3, ![4, 64, 65536]⟩
abbrev S4x64x65536x1 : Shape := ⟨4, ![4, 64, 65536, 1]⟩
abbrev S4x64x2048x32 : Shape := ⟨4, ![4, 64, 2048, 32]⟩
abbrev S4x67x2048x32 : Shape := ⟨4, ![4, 67, 2048, 32]⟩

abbrev nBuf : Space → Nat
  | .hbm => 98
  | .vmem => 0
  | .smem => 0
  | _ => 0

abbrev bufTy : (tb : Table) → Fin (tcTables nBuf tb) → BufTy
  | .hbm, ⟨0, _⟩ => ⟨S4x3x16384, .f32⟩
  | .hbm, ⟨1, _⟩ => ⟨S4x3x2048, .f32⟩
  | .hbm, ⟨2, _⟩ => ⟨S4x64x16384, .f32⟩
  | .hbm, ⟨3, _⟩ => ⟨S4x3x16384, .f32⟩
  | .hbm, ⟨4, _⟩ => ⟨S_, .f32⟩
  | .hbm, ⟨5, _⟩ => ⟨S4x16384, .f32⟩
  | .hbm, ⟨6, _⟩ => ⟨S4x3x2048, .f32⟩
  | .hbm, ⟨7, _⟩ => ⟨S_, .f32⟩
  | .hbm, ⟨8, _⟩ => ⟨S4x2048, .f32⟩
  | .hbm, ⟨9, _⟩ => ⟨S4x2048x16384, .f32⟩
  | .hbm, ⟨10, _⟩ => ⟨S4x2048x1, .f32⟩
  | .hbm, ⟨11, _⟩ => ⟨S4x1x16384, .f32⟩
  | .hbm, ⟨12, _⟩ => ⟨S4x2048x16384, .f32⟩
  | .hbm, ⟨13, _⟩ => ⟨S4x2048x16384, .f32⟩
  | .hbm, ⟨14, _⟩ => ⟨S4x2048x16384, .f32⟩
  | .hbm, ⟨15, _⟩ => ⟨S_, .f32⟩
  | .hbm, ⟨16, _⟩ => ⟨S4x2048x16384, .f32⟩
  | .hbm, ⟨17, _⟩ => ⟨S4x2048x16384, .f32⟩
  | .hbm, ⟨18, _⟩ => ⟨S4x2048x16384, .f32⟩
  | .hbm, ⟨19, _⟩ => ⟨S_, .f32⟩
  | .hbm, ⟨20, _⟩ => ⟨S4x2048x16384, .f32⟩
  | .hbm, ⟨21, _⟩ => ⟨S4x2048x16384, .i1⟩
  | .hbm, ⟨22, _⟩ => ⟨S16384, .i32⟩
  | .hbm, ⟨23, _⟩ => ⟨S1x1x16384, .i32⟩
  | .hbm, ⟨24, _⟩ => ⟨S_, .i32⟩
  | .hbm, ⟨25, _⟩ => ⟨S_, .i32⟩
  | .hbm, ⟨26, _⟩ => ⟨S4x2048x16384, .i32⟩
  | .hbm, ⟨27, _⟩ => ⟨S4x2048x16384, .i32⟩
  | .hbm, ⟨28, _⟩ => ⟨S4x2048x16384, .i32⟩
  | .hbm, ⟨29, _⟩ => ⟨S4x2048x16384, .i32⟩
  | .hbm, ⟨30, _⟩ => ⟨S4x2048x32, .i32⟩
  | .hbm, ⟨31, _⟩ => ⟨S4x2048x1, .i32⟩
  | .hbm, ⟨32, _⟩ => ⟨S_, .i32⟩
  | .hbm, ⟨33, _⟩ => ⟨S4x2048x1, .i32⟩
  | .hbm, ⟨34, _⟩ => ⟨S4x2048x1, .i1⟩
  | .hbm, ⟨35, _⟩ => ⟨S_, .i32⟩
  | .hbm, ⟨36, _⟩ => ⟨S_, .i32⟩
  | .hbm, ⟨37, _⟩ => ⟨S4x2048x1, .i32⟩
  | .hbm, ⟨38, _⟩ => ⟨S4x2048x1, .i32⟩
  | .hbm, ⟨39, _⟩ => ⟨S_, .i32⟩
  | .hbm, ⟨40, _⟩ => ⟨S4x2048x32, .i32⟩
  | .hbm, ⟨41, _⟩ => ⟨S4x2048x32, .i1⟩
  | .hbm, ⟨42, _⟩ => ⟨S4x2048x32, .i32⟩
  | .hbm, ⟨43, _⟩ => ⟨S4x2048x32, .i32⟩
  | .hbm, ⟨44, _⟩ => ⟨S4x1x65536, .i32⟩
  | .hbm, ⟨45, _⟩ => ⟨S4x3x65536, .i32⟩
  | .hbm, ⟨46, _⟩ => ⟨S_, .i32⟩
  | .hbm, ⟨47, _⟩ => ⟨S4x3x65536, .i32⟩
  | .hbm, ⟨48, _⟩ => ⟨S4x3x65536, .i1⟩
  | .hbm, ⟨49, _⟩ => ⟨S_, .i32⟩
  | .hbm, ⟨50, _⟩ => ⟨S4x3x65536, .i32⟩
  | .hbm, ⟨51, _⟩ => ⟨S4x3x65536, .i32⟩
  | .hbm, ⟨52, _⟩ => ⟨S4x3x65536, .i32⟩
  | .hbm, ⟨53, _⟩ => ⟨S4x3x65536x1, .i32⟩
  | .hbm, ⟨54, _⟩ => ⟨S1, .i32⟩
  | .hbm, ⟨55, _⟩ => ⟨S_, .i32⟩
  | .hbm, ⟨56, _⟩ => ⟨S4x3x65536x1, .i32⟩
  | .hbm, ⟨57, _⟩ => ⟨S4x3x65536x1, .i1⟩
  | .hbm, ⟨58, _⟩ => ⟨S1x1x1x1, .i32⟩
  | .hbm, ⟨59, _⟩ => ⟨S4x3x65536x1, .i32⟩
  | .hbm, ⟨60, _⟩ => ⟨S4x3x65536x1, .i1⟩
  | .hbm, ⟨61, _⟩ => ⟨S4x3x65536x1, .i1⟩
  | .hbm, ⟨62, _⟩ => ⟨S_, .i1⟩
  | .hbm, ⟨63, _⟩ => ⟨S4x3x65536, .i1⟩
  | .hbm, ⟨64, _⟩ => ⟨S4x3x65536, .f32⟩
  | .hbm, ⟨65, _⟩ => ⟨S_, .f32⟩
  | .hbm, ⟨66, _⟩ => ⟨S4x3x65536, .f32⟩
  | .hbm, ⟨67, _⟩ => ⟨S4x3x65536, .f32⟩
  | .hbm, ⟨68, _⟩ => ⟨S4x3x2048x32, .f32⟩
  | .hbm, ⟨69, _⟩ => ⟨S4x3x2048x1, .f32⟩
  | .hbm, ⟨70, _⟩ => ⟨S4x3x2048x32, .f32⟩
  | .hbm, ⟨71, _⟩ => ⟨S4x3x2048x32, .f32⟩
  | .hbm, ⟨72, _⟩ => ⟨S4x1x65536, .i32⟩
  | .hbm, ⟨73, _⟩ => ⟨S4x64x65536, .i32⟩
  | .hbm, ⟨74, _⟩ => ⟨S_, .i32⟩
  | .hbm, ⟨75, _⟩ => ⟨S4x64x65536, .i32⟩
  | .hbm, ⟨76, _⟩ => ⟨S4x64x65536, .i1⟩
  | .hbm, ⟨77, _⟩ => ⟨S_, .i32⟩
  | .hbm, ⟨78, _⟩ => ⟨S4x64x65536, .i32⟩
  | .hbm, ⟨79, _⟩ => ⟨S4x64x65536, .i32⟩
  | .hbm, ⟨80, _⟩ => ⟨S4x64x65536, .i32⟩
  | .hbm, ⟨81, _⟩ => ⟨S4x64x65536x1, .i32⟩
  | .hbm, ⟨82, _⟩ => ⟨S1, .i32⟩
  | .hbm, ⟨83, _⟩ => ⟨S_, .i32⟩
  | .hbm, ⟨84, _⟩ => ⟨S4x64x65536x1, .i32⟩
  | .hbm, ⟨85, _⟩ => ⟨S4x64x65536x1, .i1⟩
  | .hbm, ⟨86, _⟩ => ⟨S1x1x1x1, .i32⟩
  | .hbm, ⟨87, _⟩ => ⟨S4x64x65536x1, .i32⟩
  | .hbm, ⟨88, _⟩ => ⟨S4x64x65536x1, .i1⟩
  | .hbm, ⟨89, _⟩ => ⟨S4x64x65536x1, .i1⟩
  | .hbm, ⟨90, _⟩ => ⟨S_, .i1⟩
  | .hbm, ⟨91, _⟩ => ⟨S4x64x65536, .i1⟩
  | .hbm, ⟨92, _⟩ => ⟨S4x64x65536, .f32⟩
  | .hbm, ⟨93, _⟩ => ⟨S_, .f32⟩
  | .hbm, ⟨94, _⟩ => ⟨S4x64x65536, .f32⟩
  | .hbm, ⟨95, _⟩ => ⟨S4x64x65536, .f32⟩
  | .hbm, ⟨96, _⟩ => ⟨S4x64x2048x32, .f32⟩
  | .hbm, ⟨97, _⟩ => ⟨S4x67x2048x32, .f32⟩
  | _, _ => ⟨S4x3x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_call2_v0 : Ref sig .tc := ⟨.hbm, 36, rfl⟩
abbrev main_call2_v1 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_call3_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call4_c : Ref sig .tc := ⟨.hbm, 46, rfl⟩
abbrev main_call4_v0 : Ref sig .tc := ⟨.hbm, 47, rfl⟩
abbrev main_call4_v1 : Ref sig .tc := ⟨.hbm, 48, rfl⟩
abbrev main_call4_c_0 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_call4_v5 : Ref sig .tc := ⟨.hbm, 53, rfl⟩
abbrev main_call4_c_1 : Ref sig .tc := ⟨.hbm, 54, rfl⟩
abbrev main_call4_c_2 : Ref sig .tc := ⟨.hbm, 55, rfl⟩
abbrev main_call4_v6 : Ref sig .tc := ⟨.hbm, 56, rfl⟩
abbrev main_call4_v7 : Ref sig .tc := ⟨.hbm, 57, rfl⟩
abbrev main_call4_v8 : Ref sig .tc := ⟨.hbm, 58, rfl⟩
abbrev main_call4_v9 : Ref sig .tc := ⟨.hbm, 59, rfl⟩
abbrev main_call4_v10 : Ref sig .tc := ⟨.hbm, 60, rfl⟩
abbrev main_call4_v11 : Ref sig .tc := ⟨.hbm, 61, rfl⟩
abbrev main_call4_c_3 : Ref sig .tc := ⟨.hbm, 62, rfl⟩
abbrev main_call4_v12 : Ref sig .tc := ⟨.hbm, 63, rfl⟩
abbrev main_call4_v13 : Ref sig .tc := ⟨.hbm, 64, rfl⟩
abbrev main_call4_cst : Ref sig .tc := ⟨.hbm, 65, rfl⟩
abbrev main_call4_v14 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_call5_c : Ref sig .tc := ⟨.hbm, 74, rfl⟩
abbrev main_call5_v0 : Ref sig .tc := ⟨.hbm, 75, rfl⟩
abbrev main_call5_v1 : Ref sig .tc := ⟨.hbm, 76, rfl⟩
abbrev main_call5_c_0 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_v5 : Ref sig .tc := ⟨.hbm, 81, rfl⟩
abbrev main_call5_c_1 : Ref sig .tc := ⟨.hbm, 82, rfl⟩
abbrev main_call5_c_2 : Ref sig .tc := ⟨.hbm, 83, rfl⟩
abbrev main_call5_v6 : Ref sig .tc := ⟨.hbm, 84, rfl⟩
abbrev main_call5_v7 : Ref sig .tc := ⟨.hbm, 85, rfl⟩
abbrev main_call5_v8 : Ref sig .tc := ⟨.hbm, 86, rfl⟩
abbrev main_call5_v9 : Ref sig .tc := ⟨.hbm, 87, rfl⟩
abbrev main_call5_v10 : Ref sig .tc := ⟨.hbm, 88, rfl⟩
abbrev main_call5_v11 : Ref sig .tc := ⟨.hbm, 89, rfl⟩
abbrev main_call5_c_3 : Ref sig .tc := ⟨.hbm, 90, rfl⟩
abbrev main_call5_v12 : Ref sig .tc := ⟨.hbm, 91, rfl⟩
abbrev main_call5_v13 : Ref sig .tc := ⟨.hbm, 92, rfl⟩
abbrev main_call5_cst : Ref sig .tc := ⟨.hbm, 93, rfl⟩
abbrev main_call5_v14 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩

abbrev nD : Nat := 1
abbrev τ : Topo := Topo.v7x

variable {F : FTy → Type} [FloatOps F]

class Facts₀ : Prop where
  reducesTo_S4x3x16384_S4x16384_d1 : S4x3x16384.ReducesTo [1] S4x16384
  h_S_ : 0 < S_.numel
  reducesTo_S4x3x2048_S4x2048_d1 : S4x3x2048.ReducesTo [1] S4x2048
  bcast_S4x2048_S4x2048x1_0_1 : S4x2048.BroadcastsInDim S4x2048x1 (![0, 1] : Fin 2 → Fin S4x2048x1.rank)
  bcast_S4x16384_S4x1x16384_0_2 : S4x16384.BroadcastsInDim S4x1x16384 (![0, 2] : Fin 2 → Fin S4x1x16384.rank)
  bcast_S4x2048x1_S4x2048x16384_0_1_2 : S4x2048x1.BroadcastsInDim S4x2048x16384 (![0, 1, 2] : Fin 3 → Fin S4x2048x16384.rank)
  bcast_S4x1x16384_S4x2048x16384_0_1_2 : S4x1x16384.BroadcastsInDim S4x2048x16384 (![0, 1, 2] : Fin 3 → Fin S4x2048x16384.rank)
  bcast_S_S4x2048x16384 : S_.BroadcastsInDim S4x2048x16384 (![] : Fin 0 → Fin S4x2048x16384.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  slices_S4x2048x16384_S4x2048x32_0_0_0 : S4x2048x16384.Slices ![0, 0, 0] S4x2048x32
  slices_S4x2048x32_S4x2048x1_0_0_0 : S4x2048x32.Slices ![0, 0, 0] S4x2048x1
  bcast_S_S4x2048x1 : S_.BroadcastsInDim S4x2048x1 (![] : Fin 0 → Fin S4x2048x1.rank)
  bcast_S_S4x2048x32 : S_.BroadcastsInDim S4x2048x32 (![] : Fin 0 → Fin S4x2048x32.rank)
  bcast_S4x2048x1_S4x2048x32_0_1_2 : S4x2048x1.BroadcastsInDim S4x2048x32 (![0, 1, 2] : Fin 3 → Fin S4x2048x32.rank)
  shapeCasts_S4x2048x32_S4x1x65536 : S4x2048x32.ShapeCasts S4x1x65536
  bcast_S4x1x65536_S4x3x65536_0_1_2 : S4x1x65536.BroadcastsInDim S4x3x65536 (![0, 1, 2] : Fin 3 → Fin S4x3x65536.rank)
  bcast_S_S4x3x65536 : S_.BroadcastsInDim S4x3x65536 (![] : Fin 0 → Fin S4x3x65536.rank)
  shapeCasts_S4x3x65536_S4x3x65536x1 : S4x3x65536.ShapeCasts S4x3x65536x1
  bcast_S_S4x3x65536x1 : S_.BroadcastsInDim S4x3x65536x1 (![] : Fin 0 → Fin S4x3x65536x1.rank)
  bcast_S1_S1x1x1x1_3 : S1.BroadcastsInDim S1x1x1x1 (![3] : Fin 1 → Fin S1x1x1x1.rank)
  bcast_S1x1x1x1_S4x3x65536x1_0_1_2_3 : S1x1x1x1.BroadcastsInDim S4x3x65536x1 (![0, 1, 2, 3] : Fin 4 → Fin S4x3x65536x1.rank)
  reducesTo_S4x3x65536x1_S4x3x65536_d3 : S4x3x65536x1.ReducesTo [3] S4x3x65536
  shapeCasts_S4x3x65536_S4x3x2048x32 : S4x3x65536.ShapeCasts S4x3x2048x32
  bcast_S4x3x2048_S4x3x2048x1_0_1_2 : S4x3x2048.BroadcastsInDim S4x3x2048x1 (![0, 1, 2] : Fin 3 → Fin S4x3x2048x1.rank)
  bcast_S4x3x2048x1_S4x3x2048x32_0_1_2_3 : S4x3x2048x1.BroadcastsInDim S4x3x2048x32 (![0, 1, 2, 3] : Fin 4 → Fin S4x3x2048x32.rank)
  bcast_S4x1x65536_S4x64x65536_0_1_2 : S4x1x65536.BroadcastsInDim S4x64x65536 (![0, 1, 2] : Fin 3 → Fin S4x64x65536.rank)
  bcast_S_S4x64x65536 : S_.BroadcastsInDim S4x64x65536 (![] : Fin 0 → Fin S4x64x65536.rank)
  shapeCasts_S4x64x65536_S4x64x65536x1 : S4x64x65536.ShapeCasts S4x64x65536x1
  bcast_S_S4x64x65536x1 : S_.BroadcastsInDim S4x64x65536x1 (![] : Fin 0 → Fin S4x64x65536x1.rank)
  bcast_S1x1x1x1_S4x64x65536x1_0_1_2_3 : S1x1x1x1.BroadcastsInDim S4x64x65536x1 (![0, 1, 2, 3] : Fin 4 → Fin S4x64x65536x1.rank)
  reducesTo_S4x64x65536x1_S4x64x65536_d3 : S4x64x65536x1.ReducesTo [3] S4x64x65536
  shapeCasts_S4x64x65536_S4x64x2048x32 : S4x64x65536.ShapeCasts S4x64x2048x32
  concatenates_S4x3x2048x32_S4x64x2048x32_S4x67x2048x32_d1 : Shape.Concatenates [S4x3x2048x32, S4x64x2048x32] S4x67x2048x32 1
  dot_S4x3x2048_S4x3x16384_S4x2048x16384_1_1_2_2_0_0_wf : DotDims.WF S4x3x2048 S4x3x16384 S4x2048x16384 [1] [1] [2] [2] [0] [0]
  gather_S4x3x16384_S4x3x65536x1_S4x3x65536_n_2_01_01_2_3_111_wf : GatherDims.WF S4x3x16384 S4x3x65536x1 S4x3x65536 [] [2] [0, 1] [2] [0, 1] 3 ![1, 1, 1]
  gather_S4x64x16384_S4x64x65536x1_S4x64x65536_n_2_01_01_2_3_111_wf : GatherDims.WF S4x64x16384 S4x64x65536x1 S4x64x65536 [] [2] [0, 1] [2] [0, 1] 3 ![1, 1, 1]

variable [Facts₀]

def dot_S4x3x2048_S4x3x16384_S4x2048x16384_1_1_2_2_0_0 : DotDims S4x3x2048 S4x3x16384 S4x2048x16384 where
  lhsContracting := [1]
  rhsContracting := [1]
  lhsNonContracting := [2]
  rhsNonContracting := [2]
  lhsBatch := [0]
  rhsBatch := [0]
  wf := dot_S4x3x2048_S4x3x16384_S4x2048x16384_1_1_2_2_0_0_wf
def comparator_i32_d2 : BitVec 32 → BitVec 32 → BitVec 1 :=
  fun l r =>
    let v1 := IntOp.cmpi .slt l r
    v1
def gather_S4x3x16384_S4x3x65536x1_S4x3x65536_n_2_01_01_2_3_111 : GatherDims S4x3x16384 S4x3x65536x1 S4x3x65536 where
  offsetDims := []
  collapsedSliceDims := [2]
  operandBatchingDims := [0, 1]
  startIndicesBatchingDims := [0, 1]
  startIndexMap := [2]
  indexVectorDim := 3
  sliceSizes := ![1, 1, 1]
  wf := gather_S4x3x16384_S4x3x65536x1_S4x3x65536_n_2_01_01_2_3_111_wf
def gather_S4x64x16384_S4x64x65536x1_S4x64x65536_n_2_01_01_2_3_111 : GatherDims S4x64x16384 S4x64x65536x1 S4x64x65536 where
  offsetDims := []
  collapsedSliceDims := [2]
  operandBatchingDims := [0, 1]
  startIndicesBatchingDims := [0, 1]
  startIndexMap := [2]
  indexVectorDim := 3
  sliceSizes := ![1, 1, 1]
  wf := gather_S4x64x16384_S4x64x65536x1_S4x64x65536_n_2_01_01_2_3_111_wf

class Facts : Prop extends Facts₀ where

variable [Facts]
-- ==== Proof.AroundBits.lean ====
/-
  The ball-query kernel's run, at any float instance: the program transposes the centres, launches ONE pipelined
  region over the grid 4 x 8 x 8 (batch, tile of 256 centres, tile of 2048 points) and goes on with the host
  operations that sort the candidate indices and gather the neighbours.

  At a grid point the body loads its block of centres (256 x 3) and its block of points (3 x 2048), computes for
  every pair the squared distance and stores, whole, a 256 x 2048 block of candidate indices: the point's global
  index where the pair lies inside the ball, the sentinel 16384 elsewhere.  It keeps nothing between points and
  touches no buffer but its three windows, so after the region every array of the pipeline holds what the blocks
  written back put in it, and every other buffer what the host operations that follow compute from those.
  The argument arrays are written by no operation: they end as they began.
-/
import proofs.«178756_j43714177139075_1_alg».proof.Proof.Gen.Kernel.Launch
import proofs.«178756_j43714177139075_1_alg».proof.Proof.Gen.Kernel.Skeleton
import proofs.«178756_j43714177139075_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: the launch contents after the transposition of the centres. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch: the sort, the first 32 candidates and the replacement of
    sentinels, the two gathers, the subtraction of the centres and the concatenation. -/
abbrev tailOps : List (List (HloOp τ sig (Elt F))) :=
  [hostOps1, hostOps1_1, hostOps1_2, hostOps1_3, hostOps1_4, hostOps1_5, hostOps1_6, hostOps1_7, hostOps1_8, hostOps1_9]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor

/-- The program is: the transposition, the region, the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Each stretch after the region is one of the ten. -/
theorem mem_tailOps {ops : List (HloOp τ sig (Elt F))} (h : ops ∈ (tailOps (F := F))) :
    ops = hostOps1 ∨ ops = hostOps1_1 ∨ ops = hostOps1_2 ∨ ops = hostOps1_3 ∨ ops = hostOps1_4 ∨ ops = hostOps1_5 ∨ ops = hostOps1_6 ∨ ops = hostOps1_7 ∨ ops = hostOps1_8 ∨ ops = hostOps1_9 := by
  simpa only [tailOps, List.mem_cons, List.mem_nil_iff, or_false] using h

/-- The later operations touch unscoped TensorCore buffers only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  have hs : ops.Forall fun op => op.bufs ⊆ StableHlo.tcRefs τ sig := by
    rcases mem_tailOps hops with rfl | rfl | rfl | rfl | rfl | rfl | rfl | rfl | rfl | rfl
    exacts [hostOps1_sub, hostOps1_1_sub, hostOps1_2_sub, hostOps1_3_sub, hostOps1_4_sub, hostOps1_5_sub, hostOps1_6_sub, hostOps1_7_sub, hostOps1_8_sub, hostOps1_9_sub]
  exact Pipeline.sub_ucRefs op ((List.forall_iff_forall_mem.mp hs) op hop)

/-- They allocate nothing. -/
theorem sfx_fresh : ∀ ops ∈ (tailOps (F := F)), ∀ op ∈ ops, op.fresh = ∅ := by
  intro ops hops op hop
  have hs : ops.Forall fun op => op.fresh = ∅ := by
    rcases mem_tailOps hops with rfl | rfl | rfl | rfl | rfl | rfl | rfl | rfl | rfl | rfl
    exacts [hostOps1_fresh, hostOps1_1_fresh, hostOps1_2_fresh, hostOps1_3_fresh, hostOps1_4_fresh, hostOps1_5_fresh, hostOps1_6_fresh, hostOps1_7_fresh, hostOps1_8_fresh, hostOps1_9_fresh]
  exact (List.forall_iff_forall_mem.mp hs) op hop

/-- None of the later operations writes one of the five buffers the frame speaks of — the three argument arrays, the
    transposed centres and the candidate array: each writes its own result only. -/
theorem tail_keeps (b : Ref sig .tc) (hb : b = main_arg0 ∨ b = main_arg1 ∨ b = main_arg2 ∨ b = main_v0 ∨ b = main_v1) :
    ∀ op ∈ (tailOps (F := F)).flatten, Proc.devRef .tc b ∉ op.writes := by
  rcases hb with rfl | rfl | rfl | rfl | rfl
  all_goals
    refine List.forall_iff_forall_mem.mp ?_
    simp only [tailOps, hostOps1, hostOps1_1, hostOps1_2, hostOps1_3, hostOps1_4, hostOps1_5, hostOps1_6, hostOps1_7, hostOps1_8, hostOps1_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- And none writes an array of the pipeline. -/
theorem sfx_keeps : ∀ ops ∈ (tailOps (F := F)), ∀ op ∈ ops,
    ∀ w, Proc.devRef .tc (Pipeline.arrRef spec0 w) ∉ op.writes := by
  intro ops hops op hop w
  have hmem : op ∈ (tailOps (F := F)).flatten := List.mem_flatten.mpr ⟨ops, hops, hop⟩
  fin_cases w
  · exact tail_keeps main_v0 (by simp) op hmem
  · exact tail_keeps main_arg0 (by simp) op hmem
  · exact tail_keeps main_v1 (by simp) op hmem

/-- The transposition writes the transposed centres only: an argument array is found by the region as launched. -/
theorem V_arg (c : Dev nD) (b : Ref sig .tc) (hb : b = main_arg0 ∨ b = main_arg1 ∨ b = main_arg2) :
    V m c b = m ((c : Thread nD τ).loc b) := by
  rcases hb with rfl | rfl | rfl
  all_goals
    exact StableHlo.after_of_forall_not_mem (b := Proc.devRef .tc _) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))

/-- An argument array no window stages ends, after the later operations, as launched. -/
theorem W_arg (dats : (p : Fin _) → (c : Dev nD) → Dat τ (Elt F) Unit ℕ (UR sig nD τ) ℕ (cfgs p) c) (c : Dev nD)
    (b : Ref sig .tc) (hb : b = main_arg1 ∨ b = main_arg2) :
    Pipeline.afterTail₀ cfgs dats 0 (V0 m) tailOps c b = m ((c : Thread nD τ).loc b) := by
  unfold Pipeline.afterTail₀
  rcases hb with rfl | rfl
  · rw [StableHlo.after_of_forall_not_mem (b := Proc.devRef .tc main_arg1) _ _ (tail_keeps main_arg1 (by simp)),
      Pipeline.withArrays_of_ne _ c (V0 m c) _ main_arg1 (by decide : ∀ w, Pipeline.arrRef spec0 w ≠ main_arg1)]
    exact V_arg m c main_arg1 (by simp)
  · rw [StableHlo.after_of_forall_not_mem (b := Proc.devRef .tc main_arg2) _ _ (tail_keeps main_arg2 (by simp)),
      Pipeline.withArrays_of_ne _ c (V0 m c) _ main_arg2 (by decide : ∀ w, Pipeline.arrRef spec0 w ≠ main_arg2)]
    exact V_arg m c main_arg2 (by simp)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The centres' window holds its block at every point — it is fetched only when the tile of centres changes, and in
    between the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The points' window holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the candidates' buffer -/

abbrev rC : Rect S1x256x3 := Rect.unit (s := S1x256x3) ![0, 0, 0] S1x256x3.size inb_S1x256x3_S1x256x3_0_0_0
abbrev rP : Rect S1x3x2048 := Rect.unit (s := S1x3x2048) ![0, 0, 0] S1x3x2048.size inb_S1x3x2048_S1x3x2048_0_0_0
abbrev rO : Rect S1x256x2048 := Rect.unit (s := S1x256x2048) ![0, 0, 0] S1x256x2048.size inb_S1x256x2048_S1x256x2048_0_0_0

/-- The block of candidates the body stores at grid coordinates `i`, from its block of centres `x0` and its block of
    points `x1`: one store of the whole block. -/
def outCand (i : grid0.Coords) (x0 : Vec F S1x256x3 .f32) (x1 : Vec F S1x3x2048 .f32) : Vec F S1x256x2048 .i32 :=
  View.canon [⟨rO, k0_pay1 (BitVec.ofNat 32 (i 2).val) (k0_pay2 (View.ld x0 rC) (View.ld x1 rP)) (iota .tc S256x2048 32 [1] iota_S256x2048_d1_w32)⟩]

/-- The one store covers the buffer. -/
theorem coverCand (p0 : Vec F S1x256x2048 .i32) (y : S1x256x2048.Idx) :
    ∃ pc ∈ ([⟨rO, p0⟩] : List (View.Piece (Elt F) S1x256x2048 .i32)), y ∈ pc.1.set :=
  View.cover_of_tiled [⟨rO, p0⟩] S1x256x2048.size (by rfl) y

/-! ## The body's triple -/

set_option maxHeartbeats 1000000 in
/-- The body on whole staging buffers — the two inputs at contents `x0`, `x1`, the output at anything — runs to its
    continuation with the inputs as they were and the output at `outCand`. -/
theorem sound_kernel (c : Dev nD) (E : Set ℕ) (i : grid0.Coords) (arg3 : Memref sig .tc .vmem S1x256x3 .f32) (harg3 : arg3.IsWhole)
    (arg4 : Memref sig .tc .vmem S1x3x2048 .f32) (harg4 : arg4.IsWhole) (arg5 : Memref sig .tc .vmem S1x256x2048 .i32) (harg5 : arg5.IsWhole)
    (x0 : Vec F S1x256x3 .f32) (x1 : Vec F S1x3x2048 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outCand i x0 x1)) -∗ K ⟨⟩))
      ⊢ wp frame (wpE (defs₀ (F := F)) Variants.none c none) E (cc0_kernel i arg3 harg3 arg4 harg4 arg5 harg5) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (coverCand _)

/-! ## The proof data -/

/-- The arrays as the region finds them; after the body at point `t` each input's buffer at its block and the
    candidates' buffer at `outCand` of the two blocks; nothing of its own kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outCand (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outCand (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, nothing faulting; every array of the pipeline then holds what
    the blocks written back put in it, and every other unscoped buffer what the later operations compute. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 1).trans ((((dats m) 0 c).arrAt_in 1 rfl _).trans ((A_eq m c 1).trans (V_arg m c main_arg0 (by simp)))),
     ((h c).2 main_arg1 (Pipeline.mem_restRefs_of main_arg1 (by decide) (by decide))).trans (W_arg m (dats m) c main_arg1 (by simp)),
     ((h c).2 main_arg2 (Pipeline.mem_restRefs_of main_arg2 (by decide) (by decide))).trans (W_arg m (dats m) c main_arg2 (by simp))⟩)
    (run_main m ρ)

end Cert.Kernel.Around

end
-- ==== Proof.AroundIdeal.lean ====
/-
  The ball-query kernel's run, at any float instance: the program transposes the centres, launches ONE pipelined
  region over the grid 4 x 8 x 8 (batch, tile of 256 centres, tile of 2048 points) and goes on with the host
  operations that sort the candidate indices and gather the neighbours.

  At a grid point the body loads its block of centres (256 x 3) and its block of points (3 x 2048), computes for
  every pair the squared distance and stores, whole, a 256 x 2048 block of candidate indices: the point's global
  index where the pair lies inside the ball, the sentinel 16384 elsewhere.  It keeps nothing between points and
  touches no buffer but its three windows, so after the region every array of the pipeline holds what the blocks
  written back put in it, and every other buffer what the host operations that follow compute from those.
  The argument arrays are written by no operation: they end as they began.
-/
import proofs.«178756_j43714177139075_1_alg».proof.Proof.Gen.KernelIdeal.Launch
import proofs.«178756_j43714177139075_1_alg».proof.Proof.Gen.KernelIdeal.Skeleton
import proofs.«178756_j43714177139075_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: the launch contents after the transposition of the centres. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch: the sort, the first 32 candidates and the replacement of
    sentinels, the two gathers, the subtraction of the centres and the concatenation. -/
abbrev tailOps : List (List (HloOp τ sig (Elt F))) :=
  [hostOps1, hostOps1_1, hostOps1_2, hostOps1_3, hostOps1_4, hostOps1_5, hostOps1_6, hostOps1_7, hostOps1_8, hostOps1_9]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor

/-- The program is: the transposition, the region, the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Each stretch after the region is one of the ten. -/
theorem mem_tailOps {ops : List (HloOp τ sig (Elt F))} (h : ops ∈ (tailOps (F := F))) :
    ops = hostOps1 ∨ ops = hostOps1_1 ∨ ops = hostOps1_2 ∨ ops = hostOps1_3 ∨ ops = hostOps1_4 ∨ ops = hostOps1_5 ∨ ops = hostOps1_6 ∨ ops = hostOps1_7 ∨ ops = hostOps1_8 ∨ ops = hostOps1_9 := by
  simpa only [tailOps, List.mem_cons, List.mem_nil_iff, or_false] using h

/-- The later operations touch unscoped TensorCore buffers only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  have hs : ops.Forall fun op => op.bufs ⊆ StableHlo.tcRefs τ sig := by
    rcases mem_tailOps hops with rfl | rfl | rfl | rfl | rfl | rfl | rfl | rfl | rfl | rfl
    exacts [hostOps1_sub, hostOps1_1_sub, hostOps1_2_sub, hostOps1_3_sub, hostOps1_4_sub, hostOps1_5_sub, hostOps1_6_sub, hostOps1_7_sub, hostOps1_8_sub, hostOps1_9_sub]
  exact Pipeline.sub_ucRefs op ((List.forall_iff_forall_mem.mp hs) op hop)

/-- They allocate nothing. -/
theorem sfx_fresh : ∀ ops ∈ (tailOps (F := F)), ∀ op ∈ ops, op.fresh = ∅ := by
  intro ops hops op hop
  have hs : ops.Forall fun op => op.fresh = ∅ := by
    rcases mem_tailOps hops with rfl | rfl | rfl | rfl | rfl | rfl | rfl | rfl | rfl | rfl
    exacts [hostOps1_fresh, hostOps1_1_fresh, hostOps1_2_fresh, hostOps1_3_fresh, hostOps1_4_fresh, hostOps1_5_fresh, hostOps1_6_fresh, hostOps1_7_fresh, hostOps1_8_fresh, hostOps1_9_fresh]
  exact (List.forall_iff_forall_mem.mp hs) op hop

/-- None of the later operations writes one of the five buffers the frame speaks of — the three argument arrays, the
    transposed centres and the candidate array: each writes its own result only. -/
theorem tail_keeps (b : Ref sig .tc) (hb : b = main_arg0 ∨ b = main_arg1 ∨ b = main_arg2 ∨ b = main_v0 ∨ b = main_v1) :
    ∀ op ∈ (tailOps (F := F)).flatten, Proc.devRef .tc b ∉ op.writes := by
  rcases hb with rfl | rfl | rfl | rfl | rfl
  all_goals
    refine List.forall_iff_forall_mem.mp ?_
    simp only [tailOps, hostOps1, hostOps1_1, hostOps1_2, hostOps1_3, hostOps1_4, hostOps1_5, hostOps1_6, hostOps1_7, hostOps1_8, hostOps1_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- And none writes an array of the pipeline. -/
theorem sfx_keeps : ∀ ops ∈ (tailOps (F := F)), ∀ op ∈ ops,
    ∀ w, Proc.devRef .tc (Pipeline.arrRef spec0 w) ∉ op.writes := by
  intro ops hops op hop w
  have hmem : op ∈ (tailOps (F := F)).flatten := List.mem_flatten.mpr ⟨ops, hops, hop⟩
  fin_cases w
  · exact tail_keeps main_v0 (by simp) op hmem
  · exact tail_keeps main_arg0 (by simp) op hmem
  · exact tail_keeps main_v1 (by simp) op hmem

/-- The transposition writes the transposed centres only: an argument array is found by the region as launched. -/
theorem V_arg (c : Dev nD) (b : Ref sig .tc) (hb : b = main_arg0 ∨ b = main_arg1 ∨ b = main_arg2) :
    V m c b = m ((c : Thread nD τ).loc b) := by
  rcases hb with rfl | rfl | rfl
  all_goals
    exact StableHlo.after_of_forall_not_mem (b := Proc.devRef .tc _) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))

/-- An argument array no window stages ends, after the later operations, as launched. -/
theorem W_arg (dats : (p : Fin _) → (c : Dev nD) → Dat τ (Elt F) Unit ℕ (UR sig nD τ) ℕ (cfgs p) c) (c : Dev nD)
    (b : Ref sig .tc) (hb : b = main_arg1 ∨ b = main_arg2) :
    Pipeline.afterTail₀ cfgs dats 0 (V0 m) tailOps c b = m ((c : Thread nD τ).loc b) := by
  unfold Pipeline.afterTail₀
  rcases hb with rfl | rfl
  · rw [StableHlo.after_of_forall_not_mem (b := Proc.devRef .tc main_arg1) _ _ (tail_keeps main_arg1 (by simp)),
      Pipeline.withArrays_of_ne _ c (V0 m c) _ main_arg1 (by decide : ∀ w, Pipeline.arrRef spec0 w ≠ main_arg1)]
    exact V_arg m c main_arg1 (by simp)
  · rw [StableHlo.after_of_forall_not_mem (b := Proc.devRef .tc main_arg2) _ _ (tail_keeps main_arg2 (by simp)),
      Pipeline.withArrays_of_ne _ c (V0 m c) _ main_arg2 (by decide : ∀ w, Pipeline.arrRef spec0 w ≠ main_arg2)]
    exact V_arg m c main_arg2 (by simp)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The centres' window holds its block at every point — it is fetched only when the tile of centres changes, and in
    between the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The points' window holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the candidates' buffer -/

abbrev rC : Rect S1x256x3 := Rect.unit (s := S1x256x3) ![0, 0, 0] S1x256x3.size inb_S1x256x3_S1x256x3_0_0_0
abbrev rP : Rect S1x3x2048 := Rect.unit (s := S1x3x2048) ![0, 0, 0] S1x3x2048.size inb_S1x3x2048_S1x3x2048_0_0_0
abbrev rO : Rect S1x256x2048 := Rect.unit (s := S1x256x2048) ![0, 0, 0] S1x256x2048.size inb_S1x256x2048_S1x256x2048_0_0_0

/-- The block of candidates the body stores at grid coordinates `i`, from its block of centres `x0` and its block of
    points `x1`: one store of the whole block. -/
def outCand (i : grid0.Coords) (x0 : Vec F S1x256x3 .f32) (x1 : Vec F S1x3x2048 .f32) : Vec F S1x256x2048 .i32 :=
  View.canon [⟨rO, k0_pay1 (BitVec.ofNat 32 (i 2).val) (k0_pay2 (View.ld x0 rC) (View.ld x1 rP)) (iota .tc S256x2048 32 [1] iota_S256x2048_d1_w32)⟩]

/-- The one store covers the buffer. -/
theorem coverCand (p0 : Vec F S1x256x2048 .i32) (y : S1x256x2048.Idx) :
    ∃ pc ∈ ([⟨rO, p0⟩] : List (View.Piece (Elt F) S1x256x2048 .i32)), y ∈ pc.1.set :=
  View.cover_of_tiled [⟨rO, p0⟩] S1x256x2048.size (by rfl) y

/-! ## The body's triple -/

set_option maxHeartbeats 1000000 in
/-- The body on whole staging buffers — the two inputs at contents `x0`, `x1`, the output at anything — runs to its
    continuation with the inputs as they were and the output at `outCand`. -/
theorem sound_kernel (c : Dev nD) (E : Set ℕ) (i : grid0.Coords) (arg3 : Memref sig .tc .vmem S1x256x3 .f32) (harg3 : arg3.IsWhole)
    (arg4 : Memref sig .tc .vmem S1x3x2048 .f32) (harg4 : arg4.IsWhole) (arg5 : Memref sig .tc .vmem S1x256x2048 .i32) (harg5 : arg5.IsWhole)
    (x0 : Vec F S1x256x3 .f32) (x1 : Vec F S1x3x2048 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outCand i x0 x1)) -∗ K ⟨⟩))
      ⊢ wp frame (wpE (defs₀ (F := F)) Variants.none c none) E (cc0_kernel i arg3 harg3 arg4 harg4 arg5 harg5) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (coverCand _)

/-! ## The proof data -/

/-- The arrays as the region finds them; after the body at point `t` each input's buffer at its block and the
    candidates' buffer at `outCand` of the two blocks; nothing of its own kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outCand (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outCand (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, nothing faulting; every array of the pipeline then holds what
    the blocks written back put in it, and every other unscoped buffer what the later operations compute. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 1).trans ((((dats m) 0 c).arrAt_in 1 rfl _).trans ((A_eq m c 1).trans (V_arg m c main_arg0 (by simp)))),
     ((h c).2 main_arg1 (Pipeline.mem_restRefs_of main_arg1 (by decide) (by decide))).trans (W_arg m (dats m) c main_arg1 (by simp)),
     ((h c).2 main_arg2 (Pipeline.mem_restRefs_of main_arg2 (by decide) (by decide))).trans (W_arg m (dats m) c main_arg2 (by simp))⟩)
    (run_main m ρ)

end Cert.KernelIdeal.Around

end
-- ==== Proof.Grouping.lean ====
/-
  What the program does with the candidate indices, as pure functions of arrays, at any float instance.

  For each batch and centre the candidates — one word per point: the point's index if it lies in the ball, the
  sentinel 16384 if not — are sorted increasingly, so the indices of the points in the ball come first, in order.
  The first 32 are kept; a sentinel among them (fewer than 32 points in the ball) is replaced by the first kept
  index, itself replaced by 0 when no point is in the ball at all (`nearest`).
  The coordinates and the features of the selected points are then gathered along the points' axis (a negative
  index wrapped once, an index out of range answered by the fill word), the centre's coordinates are subtracted from
  the gathered coordinates, and the 3 coordinate channels are joined with the 64 feature channels (`grouped`).

  These definitions restate the printed host operations, operation by operation.
-/
import proofs.«178756_j43714177139075_1_alg».proof.Proof.Gen.ReferenceIdeal

noncomputable section

namespace Cert.BallQuery

open Idealize.ShloMosaic Cert.ReferenceIdeal Cert.ReferenceIdeal.Gen

variable {F : FTy → Type} [FloatOps F]

/-- |c|² per batch and centre: the sum over the three channels of the squared coordinate. -/
def ctrSq (ctr : FVec F S4x3x2048 .f32) : FVec F S4x2048 .f32 :=
  Host.reduceAdd (mulf ctr ctr) (constant (F := F) S_ .f32 0x00000000#32) reducesTo_S4x3x2048_S4x2048_d1 h_S_

/-- |p|² per batch and point. -/
def ptsSq (pts : FVec F S4x3x16384 .f32) : FVec F S4x16384 .f32 :=
  Host.reduceAdd (mulf pts pts) (constant (F := F) S_ .f32 0x00000000#32) reducesTo_S4x3x16384_S4x16384_d1 h_S_

/-- ⟨c, p⟩ per batch, centre and point: the contraction over the channel axis. -/
def inner (pts : FVec F S4x3x16384 .f32) (ctr : FVec F S4x3x2048 .f32) : FVec F S4x2048x16384 .f32 :=
  Host.dotGeneral dot_S4x3x2048_S4x3x16384_S4x2048x16384_1_1_2_2_0_0 none ctr pts

/-- |c|² + |p|² − 2 ⟨c, p⟩ over the [4, 2048, 16384] box, as the reference spells it. -/
def refDist2 (pts : FVec F S4x3x16384 .f32) (ctr : FVec F S4x3x2048 .f32) : FVec F S4x2048x16384 .f32 :=
  subf
    (addf
      (broadcastInDim S4x2048x16384 ![0, 1, 2] bcast_S4x2048x1_S4x2048x16384_0_1_2
        (broadcastInDim S4x2048x1 ![0, 1] bcast_S4x2048_S4x2048x1_0_1 (ctrSq ctr)))
      (broadcastInDim S4x2048x16384 ![0, 1, 2] bcast_S4x1x16384_S4x2048x16384_0_1_2
        (broadcastInDim S4x1x16384 ![0, 2] bcast_S4x16384_S4x1x16384_0_2 (ptsSq pts))))
    (mulf (broadcastInDim S4x2048x16384 ![] bcast_S_S4x2048x16384 (constant (F := F) S_ .f32 0x40000000#32)) (inner pts ctr))

/-- The reference's candidate array: the point's index where the squared distance is below the squared radius, the
    sentinel 16384 elsewhere. -/
def candRef (pts : FVec F S4x3x16384 .f32) (ctr : FVec F S4x3x2048 .f32) : IVec S4x2048x16384 32 :=
  select (cmpf .olt (refDist2 pts ctr) (broadcastInDim S4x2048x16384 ![] bcast_S_S4x2048x16384 (constant (F := F) S_ .f32 0x3C23D70A#32)))
    (broadcastInDim S4x2048x16384 ![0, 1, 2] bcast_S1x1x16384_S4x2048x16384_0_1_2
      (broadcastInDim S1x1x16384 ![2] bcast_S16384_S1x1x16384_2 (iotaInDim S16384 32 0)))
    (broadcastInDim S4x2048x16384 ![] bcast_S_S4x2048x16384 (id (constantI S_ 32 16384#32)))

/-- Each centre's candidates sorted increasingly, the first 32 kept. -/
def firstK (cand : IVec S4x2048x16384 32) : IVec S4x2048x32 32 :=
  extractStridedSlice S4x2048x32 ![0, 0, 0] (Host.sort S4x2048x16384 2 comparator_i32_d2 cand) slices_S4x2048x16384_S4x2048x32_0_0_0

/-- Each centre's smallest candidate. -/
def firstOne (cand : IVec S4x2048x16384 32) : IVec S4x2048x1 32 :=
  extractStridedSlice S4x2048x1 ![0, 0, 0] (firstK cand) slices_S4x2048x32_S4x2048x1_0_0_0

/-- The 32 neighbour indices of each centre: a kept sentinel replaced by the first index, and that by 0 when it is
    itself the sentinel. -/
def nearest (cand : IVec S4x2048x16384 32) : IVec S4x2048x32 32 :=
  select (cmpi .eq (firstK cand) (broadcastInDim S4x2048x32 ![] bcast_S_S4x2048x32 (constantI S_ 32 16384#32)))
    (broadcastInDim S4x2048x32 ![0, 1, 2] bcast_S4x2048x1_S4x2048x32_0_1_2
      (select (cmpi .eq (firstOne cand) (broadcastInDim S4x2048x1 ![] bcast_S_S4x2048x1 (constantI S_ 32 16384#32)))
        (broadcastInDim S4x2048x1 ![] bcast_S_S4x2048x1 (id (constantI S_ 32 0#32)))
        (firstOne cand)))
    (firstK cand)

/-- The neighbour indices laid flat (2048 · 32 per batch) and repeated over 3 channels. -/
def spread3 (near : IVec S4x2048x32 32) : IVec S4x3x65536 32 :=
  broadcastInDim S4x3x65536 ![0, 1, 2] bcast_S4x1x65536_S4x3x65536_0_1_2 (shapeCast _ near shapeCasts_S4x2048x32_S4x1x65536)

/-- The same over 64 channels. -/
def spread64 (near : IVec S4x2048x32 32) : IVec S4x64x65536 32 :=
  broadcastInDim S4x64x65536 ![0, 1, 2] bcast_S4x1x65536_S4x64x65536_0_1_2 (shapeCast _ near shapeCasts_S4x2048x32_S4x1x65536)

/-- A negative index counted from the end of the points' axis, as a column of start indices. -/
def wrap3 (idx : IVec S4x3x65536 32) : IVec S4x3x65536x1 32 :=
  shapeCast _ (select (cmpi .slt idx (broadcastInDim S4x3x65536 ![] bcast_S_S4x3x65536 (constantI S_ 32 0#32)))
      (addi idx (broadcastInDim S4x3x65536 ![] bcast_S_S4x3x65536 (constantI S_ 32 16384#32))) idx)
    shapeCasts_S4x3x65536_S4x3x65536x1

def wrap64 (idx : IVec S4x64x65536 32) : IVec S4x64x65536x1 32 :=
  shapeCast _ (select (cmpi .slt idx (broadcastInDim S4x64x65536 ![] bcast_S_S4x64x65536 (constantI S_ 32 0#32)))
      (addi idx (broadcastInDim S4x64x65536 ![] bcast_S_S4x64x65536 (constantI S_ 32 16384#32))) idx)
    shapeCasts_S4x64x65536_S4x64x65536x1

/-- Where the wrapped index lies in 0 … 16383 (over 3 channels). -/
def inRange3 (idx : IVec S4x3x65536 32) : IVec S4x3x65536 1 :=
  Host.reduce IntOp.andi
    (andi (cmpi .sge (wrap3 idx) (broadcastInDim S4x3x65536x1 ![] bcast_S_S4x3x65536x1 (constantI S_ 32 0#32)))
      (cmpi .sle (wrap3 idx) (broadcastInDim S4x3x65536x1 ![0, 1, 2, 3] bcast_S1x1x1x1_S4x3x65536x1_0_1_2_3
        (broadcastInDim S1x1x1x1 ![3] bcast_S1_S1x1x1x1_3 (constantI S1 32 16383#32)))))
    (constantI S_ 1 1#1) reducesTo_S4x3x65536x1_S4x3x65536_d3 h_S_

/-- The elements of `x` along its last axis at the wrapped indices, channel by channel. -/
def picked3 (x : FVec F S4x3x16384 .f32) (idx : IVec S4x3x65536 32) : FVec F S4x3x65536 .f32 :=
  Host.gather gather_S4x3x16384_S4x3x65536x1_S4x3x65536_n_2_01_01_2_3_111 x (wrap3 idx)

/-- The fill word spread over the gathered array. -/
def fill3 : FVec F S4x3x65536 .f32 :=
  broadcastInDim S4x3x65536 ![] bcast_S_S4x3x65536 (constant (F := F) S_ .f32 0x7FC00000#32)

/-- The elements of `x` along its last axis at the indices `idx`, channel by channel; where the wrapped index is
    outside 0 … 16383 the fill word. -/
def take3 (x : FVec F S4x3x16384 .f32) (idx : IVec S4x3x65536 32) : FVec F S4x3x65536 .f32 :=
  select (inRange3 idx) (picked3 x idx) fill3

/-- The same over 64 channels. -/
def inRange64 (idx : IVec S4x64x65536 32) : IVec S4x64x65536 1 :=
  Host.reduce IntOp.andi
    (andi (cmpi .sge (wrap64 idx) (broadcastInDim S4x64x65536x1 ![] bcast_S_S4x64x65536x1 (constantI S_ 32 0#32)))
      (cmpi .sle (wrap64 idx) (broadcastInDim S4x64x65536x1 ![0, 1, 2, 3] bcast_S1x1x1x1_S4x64x65536x1_0_1_2_3
        (broadcastInDim S1x1x1x1 ![3] bcast_S1_S1x1x1x1_3 (constantI S1 32 16383#32)))))
    (constantI S_ 1 1#1) reducesTo_S4x64x65536x1_S4x64x65536_d3 h_S_

def picked64 (x : FVec F S4x64x16384 .f32) (idx : IVec S4x64x65536 32) : FVec F S4x64x65536 .f32 :=
  Host.gather gather_S4x64x16384_S4x64x65536x1_S4x64x65536_n_2_01_01_2_3_111 x (wrap64 idx)

def fill64 : FVec F S4x64x65536 .f32 :=
  broadcastInDim S4x64x65536 ![] bcast_S_S4x64x65536 (constant (F := F) S_ .f32 0x7FC00000#32)

def take64 (x : FVec F S4x64x16384 .f32) (idx : IVec S4x64x65536 32) : FVec F S4x64x65536 .f32 :=
  select (inRange64 idx) (picked64 x idx) fill64

/-- The gathered coordinates, laid out per centre and neighbour, relative to the centre. -/
def relCoords (g : FVec F S4x3x65536 .f32) (ctr : FVec F S4x3x2048 .f32) : FVec F S4x3x2048x32 .f32 :=
  subf (shapeCast _ g shapeCasts_S4x3x65536_S4x3x2048x32)
    (broadcastInDim S4x3x2048x32 ![0, 1, 2, 3] bcast_S4x3x2048x1_S4x3x2048x32_0_1_2_3
      (broadcastInDim S4x3x2048x1 ![0, 1, 2] bcast_S4x3x2048_S4x3x2048x1_0_1_2 ctr))

/-- The 3 coordinate channels joined with the 64 gathered feature channels, laid out per centre and neighbour. -/
def joinBoth (a : FVec F S4x3x2048x32 .f32) (g : FVec F S4x64x65536 .f32) : FVec F S4x67x2048x32 .f32 :=
  concatenate S4x67x2048x32 1
    [⟨S4x3x2048x32, a⟩, ⟨S4x64x2048x32, shapeCast _ g shapeCasts_S4x64x65536_S4x64x2048x32⟩]
    concatenates_S4x3x2048x32_S4x64x2048x32_S4x67x2048x32_d1

/-- The grouped output from the neighbour indices: per batch, centre and neighbour, the neighbour's coordinates relative
    to the centre (3 channels) joined with the neighbour's features (64 channels). -/
def groupedFrom (near : IVec S4x2048x32 32) (pts : FVec F S4x3x16384 .f32) (ctr : FVec F S4x3x2048 .f32)
    (feat : FVec F S4x64x16384 .f32) : FVec F S4x67x2048x32 .f32 :=
  joinBoth (relCoords (take3 pts (spread3 near)) ctr) (take64 feat (spread64 near))

/-- The grouped output from the candidate array. -/
def grouped (cand : IVec S4x2048x16384 32) (pts : FVec F S4x3x16384 .f32) (ctr : FVec F S4x3x2048 .f32)
    (feat : FVec F S4x64x16384 .f32) : FVec F S4x67x2048x32 .f32 :=
  groupedFrom (nearest cand) pts ctr feat

end Cert.BallQuery

end
-- ==== Proof.Candidates.lean ====
/-
  The candidate indices as one function of the two coordinate arrays, over the extended reals.

  For batch `b`, centre `i` and point `n` the squared distance is computed as |c|² + |p|² − 2 ⟨c, p⟩ over the three
  coordinate channels; the candidate word is `n` when that is below the squared radius (the f32 word 0x3C23D70A) and the
  sentinel 16384 otherwise (`candOf`).  The reference computes exactly this: two sums of squares over the channel axis
  (each started from the zero word, which is the real 0), one contraction over it, all three spread over the
  [4, 2048, 16384] box, compared with the radius word, and selected against an iota along the points.
-/
import proofs.«178756_j43714177139075_1_alg».proof.Proof.Grouping
import Idealize.ShloMosaic.Lib.Pipeline.Value
import Idealize.ShloMosaic.Lib.ValueIdx
import Idealize.ShloMosaic.PureOps.Ideal.Laws

noncomputable section

namespace Cert.BallQuery

open Idealize.ShloMosaic Idealize.ShloMosaic.ValueIdx Cert.ReferenceIdeal

/-- |c|² + |p|² − 2 ⟨c, p⟩ for two triples of extended reals. -/
def dist2 (c p : Fin 3 → EReal) : EReal :=
  ((c 0 * c 0 + c 1 * c 1 + c 2 * c 2) + (p 0 * p 0 + p 1 * p 1 + p 2 * p 2))
    - Ideal.ofBits .f32 0x40000000#32 * (c 0 * p 0 + c 1 * p 1 + c 2 * p 2)

/-- The candidate word of (batch, centre, point): the point's index inside the ball, 16384 outside. -/
def candOf (pts : S4x3x16384.Idx → EReal) (ctr : S4x3x2048.Idx → EReal) : S4x2048x16384.Idx → BitVec 32 := fun j =>
  Scalar.select
    (FloatOps.cmpf (F := Ideal) .olt
      (dist2 (fun k => ctr (ix3 (j 0) k (j 1))) (fun k => pts (ix3 (j 0) k (j 2))))
      (Ideal.ofBits .f32 0x3C23D70A#32))
    (BitVec.ofNat 32 (j 2).val) 16384#32

open Cert.ReferenceIdeal.Gen

/-! ## The host's sums over the channel axis -/

/-- The centres' sum over the channel axis, from any initial value, at (batch, centre). -/
theorem sum_channels_ctr (y : FVec Ideal S4x3x2048 .f32) (init : FVec Ideal S_ .f32) (b : Fin 4) (i : Fin 2048) :
    Host.reduceAdd (F := Ideal) y init reducesTo_S4x3x2048_S4x2048_d1 h_S_ (ix2 b i : S4x2048.Idx)
      = init (Shape.Idx.first h_S_) + ∑ k : Fin 3, y (ix3 b k i) := by
  simp only [Host.reduceAdd, Ideal.hostReduceAdd_def]
  rw [Ideal.hostReduceAdd_single reducesTo_S4x3x2048_S4x2048_d1 (by decide)]
  refine congrArg (_ + ·) (Finset.sum_congr rfl fun k _ => ?_)
  exact congrArg y (funext fun a => Fin.ext (by match a with | ⟨0, _⟩ => rfl | ⟨1, _⟩ => rfl | ⟨2, _⟩ => rfl))

/-- The points' sum over the channel axis, at (batch, point). -/
theorem sum_channels_pts (y : FVec Ideal S4x3x16384 .f32) (init : FVec Ideal S_ .f32) (b : Fin 4) (n : Fin 16384) :
    Host.reduceAdd (F := Ideal) y init reducesTo_S4x3x16384_S4x16384_d1 h_S_ (ix2 b n : S4x16384.Idx)
      = init (Shape.Idx.first h_S_) + ∑ k : Fin 3, y (ix3 b k n) := by
  simp only [Host.reduceAdd, Ideal.hostReduceAdd_def]
  rw [Ideal.hostReduceAdd_single reducesTo_S4x3x16384_S4x16384_d1 (by decide)]
  refine congrArg (_ + ·) (Finset.sum_congr rfl fun k _ => ?_)
  exact congrArg y (funext fun a => Fin.ext (by match a with | ⟨0, _⟩ => rfl | ⟨1, _⟩ => rfl | ⟨2, _⟩ => rfl))

/-- |c|² at (batch, centre): the zero word is the real 0. -/
theorem ctrSq_at (ctr : FVec Ideal S4x3x2048 .f32) (b : Fin 4) (i : Fin 2048) :
    ctrSq (F := Ideal) ctr (ix2 b i : S4x2048.Idx)
      = ctr (ix3 b 0 i) * ctr (ix3 b 0 i) + ctr (ix3 b 1 i) * ctr (ix3 b 1 i) + ctr (ix3 b 2 i) * ctr (ix3 b 2 i) := by
  unfold ctrSq
  rw [sum_channels_ctr, Fin.sum_univ_three]
  simp only [mulf_apply, constant_apply, Ideal.ofBits_zero_f32, zero_add]

/-- |p|² at (batch, point). -/
theorem ptsSq_at (pts : FVec Ideal S4x3x16384 .f32) (b : Fin 4) (n : Fin 16384) :
    ptsSq (F := Ideal) pts (ix2 b n : S4x16384.Idx)
      = pts (ix3 b 0 n) * pts (ix3 b 0 n) + pts (ix3 b 1 n) * pts (ix3 b 1 n) + pts (ix3 b 2 n) * pts (ix3 b 2 n) := by
  unfold ptsSq
  rw [sum_channels_pts, Fin.sum_univ_three]
  simp only [mulf_apply, constant_apply, Ideal.ofBits_zero_f32, zero_add]

/-- The same at any index of the [4, 2048] array. -/
theorem ctrSq_apply (ctr : FVec Ideal S4x3x2048 .f32) (i : S4x2048.Idx) :
    ctrSq (F := Ideal) ctr i
      = ctr (ix3 (i 0) 0 (i 1)) * ctr (ix3 (i 0) 0 (i 1)) + ctr (ix3 (i 0) 1 (i 1)) * ctr (ix3 (i 0) 1 (i 1))
        + ctr (ix3 (i 0) 2 (i 1)) * ctr (ix3 (i 0) 2 (i 1)) := by
  exact (congrArg (ctrSq (F := Ideal) ctr) (eq_ix2 i)).trans (ctrSq_at ctr (i 0) (i 1))

/-- The same at any index of the [4, 16384] array. -/
theorem ptsSq_apply (pts : FVec Ideal S4x3x16384 .f32) (i : S4x16384.Idx) :
    ptsSq (F := Ideal) pts i
      = pts (ix3 (i 0) 0 (i 1)) * pts (ix3 (i 0) 0 (i 1)) + pts (ix3 (i 0) 1 (i 1)) * pts (ix3 (i 0) 1 (i 1))
        + pts (ix3 (i 0) 2 (i 1)) * pts (ix3 (i 0) 2 (i 1)) := by
  exact (congrArg (ptsSq (F := Ideal) pts) (eq_ix2 i)).trans (ptsSq_at pts (i 0) (i 1))

/-! ## The contraction over the channel axis -/

theorem lhs_batch (j : S4x2048x16384.Idx) (q : dot_S4x3x2048_S4x3x16384_S4x2048x16384_1_1_2_2_0_0.contr.Idx) : (dot_S4x3x2048_S4x3x16384_S4x2048x16384_1_1_2_2_0_0.lhsIdx j q 0).val = (j 0).val := by
  unfold DotDims.lhsIdx
  rw [dif_pos (show (0 : Fin S4x3x2048.rank) ∈ dot_S4x3x2048_S4x3x16384_S4x2048x16384_1_1_2_2_0_0.lhsBatch by decide)]
  rfl
theorem lhs_channel (j : S4x2048x16384.Idx) (q : dot_S4x3x2048_S4x3x16384_S4x2048x16384_1_1_2_2_0_0.contr.Idx) : (dot_S4x3x2048_S4x3x16384_S4x2048x16384_1_1_2_2_0_0.lhsIdx j q 1).val = (q ⟨0, by decide⟩).val :=
  dot_S4x3x2048_S4x3x16384_S4x2048x16384_1_1_2_2_0_0.lhsIdx_val_of_single rfl j q
theorem lhs_centre (j : S4x2048x16384.Idx) (q : dot_S4x3x2048_S4x3x16384_S4x2048x16384_1_1_2_2_0_0.contr.Idx) : (dot_S4x3x2048_S4x3x16384_S4x2048x16384_1_1_2_2_0_0.lhsIdx j q 2).val = (j 1).val := by
  unfold DotDims.lhsIdx
  rw [dif_neg (show ¬(2 : Fin S4x3x2048.rank) ∈ dot_S4x3x2048_S4x3x16384_S4x2048x16384_1_1_2_2_0_0.lhsBatch by decide), dif_pos (show (2 : Fin S4x3x2048.rank) ∈ dot_S4x3x2048_S4x3x16384_S4x2048x16384_1_1_2_2_0_0.lhsNonContracting by decide)]
  rfl
theorem rhs_batch (j : S4x2048x16384.Idx) (q : dot_S4x3x2048_S4x3x16384_S4x2048x16384_1_1_2_2_0_0.contr.Idx) : (dot_S4x3x2048_S4x3x16384_S4x2048x16384_1_1_2_2_0_0.rhsIdx j q 0).val = (j 0).val := by
  unfold DotDims.rhsIdx
  rw [dif_pos (show (0 : Fin S4x3x16384.rank) ∈ dot_S4x3x2048_S4x3x16384_S4x2048x16384_1_1_2_2_0_0.rhsBatch by decide)]
  rfl
theorem rhs_channel (j : S4x2048x16384.Idx) (q : dot_S4x3x2048_S4x3x16384_S4x2048x16384_1_1_2_2_0_0.contr.Idx) : (dot_S4x3x2048_S4x3x16384_S4x2048x16384_1_1_2_2_0_0.rhsIdx j q 1).val = (q ⟨0, by decide⟩).val :=
  dot_S4x3x2048_S4x3x16384_S4x2048x16384_1_1_2_2_0_0.rhsIdx_val_of_single rfl j q
theorem rhs_point (j : S4x2048x16384.Idx) (q : dot_S4x3x2048_S4x3x16384_S4x2048x16384_1_1_2_2_0_0.contr.Idx) : (dot_S4x3x2048_S4x3x16384_S4x2048x16384_1_1_2_2_0_0.rhsIdx j q 2).val = (j 2).val := by
  unfold DotDims.rhsIdx
  rw [dif_neg (show ¬(2 : Fin S4x3x16384.rank) ∈ dot_S4x3x2048_S4x3x16384_S4x2048x16384_1_1_2_2_0_0.rhsBatch by decide), dif_pos (show (2 : Fin S4x3x16384.rank) ∈ dot_S4x3x2048_S4x3x16384_S4x2048x16384_1_1_2_2_0_0.rhsNonContracting by decide)]
  rfl

/-- ⟨c, p⟩ at (batch, centre, point): the sum over the three channels. -/
theorem inner_apply (pts : FVec Ideal S4x3x16384 .f32) (ctr : FVec Ideal S4x3x2048 .f32) (j : S4x2048x16384.Idx) :
    inner (F := Ideal) pts ctr j
      = ctr (ix3 (j 0) 0 (j 1)) * pts (ix3 (j 0) 0 (j 2)) + ctr (ix3 (j 0) 1 (j 1)) * pts (ix3 (j 0) 1 (j 2))
        + ctr (ix3 (j 0) 2 (j 1)) * pts (ix3 (j 0) 2 (j 2)) := by
  unfold inner
  simp only [Host.dotGeneral]
  rw [Ideal.dotGeneral_apply, ← Equiv.sum_comp (ValueIdx.contrEquiv1 dot_S4x3x2048_S4x3x16384_S4x2048x16384_1_1_2_2_0_0 3 rfl rfl).symm, Fin.sum_univ_three]
  have key : ∀ k : Fin 3, ctr (dot_S4x3x2048_S4x3x16384_S4x2048x16384_1_1_2_2_0_0.lhsIdx j ((ValueIdx.contrEquiv1 dot_S4x3x2048_S4x3x16384_S4x2048x16384_1_1_2_2_0_0 3 rfl rfl).symm k))
        * pts (dot_S4x3x2048_S4x3x16384_S4x2048x16384_1_1_2_2_0_0.rhsIdx j ((ValueIdx.contrEquiv1 dot_S4x3x2048_S4x3x16384_S4x2048x16384_1_1_2_2_0_0 3 rfl rfl).symm k))
      = ctr (ix3 (j 0) k (j 1)) * pts (ix3 (j 0) k (j 2)) := fun k => by
    have hk := ValueIdx.contrEquiv1_symm_val dot_S4x3x2048_S4x3x16384_S4x2048x16384_1_1_2_2_0_0 3 rfl rfl k
    have el : dot_S4x3x2048_S4x3x16384_S4x2048x16384_1_1_2_2_0_0.lhsIdx j ((ValueIdx.contrEquiv1 dot_S4x3x2048_S4x3x16384_S4x2048x16384_1_1_2_2_0_0 3 rfl rfl).symm k) = ix3 (j 0) k (j 1) := funext fun a => Fin.ext (by
      match a with
      | ⟨0, _⟩ => exact lhs_batch _ _
      | ⟨1, _⟩ => exact (lhs_channel _ _).trans hk
      | ⟨2, _⟩ => exact lhs_centre _ _)
    have er : dot_S4x3x2048_S4x3x16384_S4x2048x16384_1_1_2_2_0_0.rhsIdx j ((ValueIdx.contrEquiv1 dot_S4x3x2048_S4x3x16384_S4x2048x16384_1_1_2_2_0_0 3 rfl rfl).symm k) = ix3 (j 0) k (j 2) := funext fun a => Fin.ext (by
      match a with
      | ⟨0, _⟩ => exact rhs_batch _ _
      | ⟨1, _⟩ => exact (rhs_channel _ _).trans hk
      | ⟨2, _⟩ => exact rhs_point _ _)
    rw [el, er]
    try rfl
  rw [key 0, key 1, key 2]
  try rfl

/-! ## The spreads over the [4, 2048, 16384] box -/

/-- A per-(batch, centre) array spread along the points. -/
theorem spread_ctr {α : Type} (y : S4x2048.Idx → α) (j : S4x2048x16384.Idx) :
    broadcastInDim S4x2048x16384 ![0, 1, 2] bcast_S4x2048x1_S4x2048x16384_0_1_2
      (broadcastInDim S4x2048x1 ![0, 1] bcast_S4x2048_S4x2048x1_0_1 y) j = y (ix2 (j 0) (j 1)) := by
  rw [broadcastInDim_apply _ bcast_S4x2048x1_S4x2048x16384_0_1_2 _ j (ix3 (j 0) (j 1) (0 : Fin 1) : S4x2048x1.Idx) (fun a => match a with
      | ⟨0, _⟩ => by show (j 0).val = if (4 : Nat) = 1 then 0 else (j 0).val; rw [if_neg (by decide)]
      | ⟨1, _⟩ => by show (j 1).val = if (2048 : Nat) = 1 then 0 else (j 1).val; rw [if_neg (by decide)]
      | ⟨2, _⟩ => by show 0 = if (1 : Nat) = 1 then 0 else (j 2).val; rw [if_pos rfl])]
  exact broadcastInDim_apply _ bcast_S4x2048_S4x2048x1_0_1 y _ (ix2 (j 0) (j 1) : S4x2048.Idx) (fun a => match a with
      | ⟨0, _⟩ => by show (j 0).val = if (4 : Nat) = 1 then 0 else (j 0).val; rw [if_neg (by decide)]
      | ⟨1, _⟩ => by show (j 1).val = if (2048 : Nat) = 1 then 0 else (j 1).val; rw [if_neg (by decide)])

/-- A per-(batch, point) array spread along the centres. -/
theorem spread_pts {α : Type} (y : S4x16384.Idx → α) (j : S4x2048x16384.Idx) :
    broadcastInDim S4x2048x16384 ![0, 1, 2] bcast_S4x1x16384_S4x2048x16384_0_1_2
      (broadcastInDim S4x1x16384 ![0, 2] bcast_S4x16384_S4x1x16384_0_2 y) j = y (ix2 (j 0) (j 2)) := by
  rw [broadcastInDim_apply _ bcast_S4x1x16384_S4x2048x16384_0_1_2 _ j (ix3 (j 0) (0 : Fin 1) (j 2) : S4x1x16384.Idx) (fun a => match a with
      | ⟨0, _⟩ => by show (j 0).val = if (4 : Nat) = 1 then 0 else (j 0).val; rw [if_neg (by decide)]
      | ⟨1, _⟩ => by show 0 = if (1 : Nat) = 1 then 0 else (j 1).val; rw [if_pos rfl]
      | ⟨2, _⟩ => by show (j 2).val = if (16384 : Nat) = 1 then 0 else (j 2).val; rw [if_neg (by decide)])]
  exact broadcastInDim_apply _ bcast_S4x16384_S4x1x16384_0_2 y _ (ix2 (j 0) (j 2) : S4x16384.Idx) (fun a => match a with
      | ⟨0, _⟩ => by show (j 0).val = if (4 : Nat) = 1 then 0 else (j 0).val; rw [if_neg (by decide)]
      | ⟨1, _⟩ => by show (j 2).val = if (16384 : Nat) = 1 then 0 else (j 2).val; rw [if_neg (by decide)])

/-- A single word spread over the box. -/
theorem spread_word {α : Type} (y : S_.Idx → α) (j : S4x2048x16384.Idx) :
    broadcastInDim S4x2048x16384 ![] bcast_S_S4x2048x16384 y j = y ix0 :=
  broadcastInDim_apply _ bcast_S_S4x2048x16384 y j ix0 (fun a => a.elim0)

/-- The iota along the points spread over batches and centres: the point's index. -/
theorem spread_iota (j : S4x2048x16384.Idx) :
    broadcastInDim S4x2048x16384 ![0, 1, 2] bcast_S1x1x16384_S4x2048x16384_0_1_2
      (broadcastInDim S1x1x16384 ![2] bcast_S16384_S1x1x16384_2 (iotaInDim S16384 32 0)) j = BitVec.ofNat 32 (j 2).val := by
  rw [broadcastInDim_apply _ bcast_S1x1x16384_S4x2048x16384_0_1_2 _ j (ix3 (0 : Fin 1) (0 : Fin 1) (j 2) : S1x1x16384.Idx) (fun a => match a with
      | ⟨0, _⟩ => by show 0 = if (1 : Nat) = 1 then 0 else (j 0).val; rw [if_pos rfl]
      | ⟨1, _⟩ => by show 0 = if (1 : Nat) = 1 then 0 else (j 1).val; rw [if_pos rfl]
      | ⟨2, _⟩ => by show (j 2).val = if (16384 : Nat) = 1 then 0 else (j 2).val; rw [if_neg (by decide)])]
  exact broadcastInDim_apply _ bcast_S16384_S1x1x16384_2 (iotaInDim S16384 32 0) _ (ix1 (j 2) : S16384.Idx) (fun a => match a with
      | ⟨0, _⟩ => by show (j 2).val = if (16384 : Nat) = 1 then 0 else (j 2).val; rw [if_neg (by decide)])

/-! ## The reference's candidates -/

/-- The reference's candidate array is `candOf` of the two coordinate arrays. -/
theorem candRef_eq (pts : FVec Ideal S4x3x16384 .f32) (ctr : FVec Ideal S4x3x2048 .f32) :
    candRef (F := Ideal) pts ctr = candOf pts ctr := by
  funext j
  unfold candRef refDist2 candOf dist2
  rw [select_apply, cmpf_apply, subf_apply, addf_apply, mulf_apply, spread_ctr, spread_pts, spread_iota,
    spread_word, spread_word, spread_word, ctrSq_apply, ptsSq_apply, inner_apply]
  rfl

end Cert.BallQuery

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibRows.lean ====
/-
  A row of a matrix with a short first axis, read at an index.

  A kernel that needs one row of a packed `[a, n]` array slices it out as a `[1, n]` row (which it then broadcasts
  along the rows of an `[m, n]` block). Read at column `c`, the slice is the packed array at `(row, c)`.
-/
import Idealize.ShloMosaic.Lib.ValueIdx
import Idealize.ShloMosaic.Lib.Pipeline.Value

noncomputable section

namespace Idealize.ShloMosaic.ValueIdx

open Idealize.ShloMosaic

variable {α : Type}

/-- A unit-stride slice taking row `row` of an `[a, n]` array as a `[1, n]` row: at column `c` it reads `(row, c)`. -/
theorem extractStridedSlice_row_apply {a n : ℕ} (off : Fin 2 → ℕ) (row : Fin a) (h0 : off 0 = row.val) (h1 : off 1 = 0)
    (v : (⟨2, ![a, n]⟩ : Shape).Idx → α) (h : (⟨2, ![a, n]⟩ : Shape).Slices off ⟨2, ![1, n]⟩) (z : Fin 1) (c : Fin n) :
    extractStridedSlice ⟨2, ![1, n]⟩ off v h (ix2 z c) = v (ix2 row c) := by
  refine extractStridedSlice_apply off v h (ix2 z c) (ix2 row c) fun ax => ?_
  match ax with
  | ⟨0, _⟩ => show row.val = off 0 + z.val; have := z.isLt; omega
  | ⟨1, _⟩ => show c.val = off 1 + c.val; omega

end Idealize.ShloMosaic.ValueIdx

end
-- ==== Proof.KernelCand.lean ====
/-
  The kernel's candidate array after the run, at the ideal values: the same function `candOf` of the coordinate arrays.

  At grid point (batch b, tile mi of 256 centres, tile ni of 2048 points) the body holds the centres' block
  x0[r, k] = centre (mi·256 + r), channel k — the block is cut from the TRANSPOSED centres, [4, 2048, 3] — and the points'
  block x1[k, q] = point (ni·2048 + q), channel k.  It slices the three channels out as columns of x0 and rows of x1,
  spreads them over the 256 × 2048 tile, accumulates the three products from zero (⟨c, p⟩, |c|², |p|²), forms
  |c|² + |p|² − 2 ⟨c, p⟩ and compares with the radius word; the word stored at (r, q) is the iota along q plus
  ni · 2048 — the point's global index — inside the ball, 16384 outside.  That is block (b, mi, ni) of `candOf`; the 256
  blocks tile the [4, 2048, 16384] array, so after the last write-back the array is `candOf`.
-/
import proofs.«178756_j43714177139075_1_alg».proof.Proof.AroundIdeal
import proofs.«178756_j43714177139075_1_alg».proof.Proof.Candidates
import proofs.«178756_j43714177139075_1_alg».proof.Proof.LibColumns
import proofs.«178756_j43714177139075_1_alg».proof.Proof.LibRows
import Idealize.ShloMosaic.Lib.ValueLayout
import Idealize.ShloMosaic.Lib.ValueIdx
import Idealize.ShloMosaic.Lib.Pipeline.Value
import Idealize.ShloMosaic.Lib.StableHlo.Run

set_option maxRecDepth 16384

noncomputable section

namespace Cert.KernelIdeal.Cand

open Cert.KernelIdeal Cert.KernelIdeal.Gen Cert.KernelIdeal.Around
open Idealize.ShloMosaic Idealize.ShloMosaic.TcCoe Idealize.ShloMosaic.ValueIdx Idealize.SL.Sem
open Idealize.ShloMosaic.Pipeline (Dat)

/-! ## The body's arithmetic at an index -/

/-- Channel `k` of the centres' block, sliced out as a column. -/
theorem ctr_col (x : FVec Ideal S256x3 .f32) (k : Fin 3) (off : Fin 2 → ℕ) (hs : S256x3.Slices off S256x1)
    (h0 : off 0 = 0) (h1 : off 1 = k.val) (r : Fin 256) (z : Fin 1) :
    extractStridedSlice S256x1 off x hs (ix2 r z) = x (ix2 r k) :=
  extractStridedSlice_column_apply off k h0 h1 x hs r z

/-- Channel `k` of the points' block, sliced out as a row. -/
theorem pts_row (x : FVec Ideal S3x2048 .f32) (k : Fin 3) (off : Fin 2 → ℕ) (hs : S3x2048.Slices off S1x2048)
    (h0 : off 0 = k.val) (h1 : off 1 = 0) (z : Fin 1) (q : Fin 2048) :
    extractStridedSlice S1x2048 off x hs (ix2 z q) = x (ix2 k q) :=
  extractStridedSlice_row_apply off k h0 h1 x hs z q

theorem ctr_col0 (x : FVec Ideal S256x3 .f32) (hs : S256x3.Slices ![0, 0] S256x1) (r : Fin 256) (z : Fin 1) :
    extractStridedSlice S256x1 ![0, 0] x hs (ix2 r z) = x (ix2 r 0) := ctr_col x 0 _ hs rfl rfl r z
theorem ctr_col1 (x : FVec Ideal S256x3 .f32) (hs : S256x3.Slices ![0, 1] S256x1) (r : Fin 256) (z : Fin 1) :
    extractStridedSlice S256x1 ![0, 1] x hs (ix2 r z) = x (ix2 r 1) := ctr_col x 1 _ hs rfl rfl r z
theorem ctr_col2 (x : FVec Ideal S256x3 .f32) (hs : S256x3.Slices ![0, 2] S256x1) (r : Fin 256) (z : Fin 1) :
    extractStridedSlice S256x1 ![0, 2] x hs (ix2 r z) = x (ix2 r 2) := ctr_col x 2 _ hs rfl rfl r z
theorem pts_row0 (x : FVec Ideal S3x2048 .f32) (hs : S3x2048.Slices ![0, 0] S1x2048) (z : Fin 1) (q : Fin 2048) :
    extractStridedSlice S1x2048 ![0, 0] x hs (ix2 z q) = x (ix2 0 q) := pts_row x 0 _ hs rfl rfl z q
theorem pts_row1 (x : FVec Ideal S3x2048 .f32) (hs : S3x2048.Slices ![1, 0] S1x2048) (z : Fin 1) (q : Fin 2048) :
    extractStridedSlice S1x2048 ![1, 0] x hs (ix2 z q) = x (ix2 1 q) := pts_row x 1 _ hs rfl rfl z q
theorem pts_row2 (x : FVec Ideal S3x2048 .f32) (hs : S3x2048.Slices ![2, 0] S1x2048) (z : Fin 1) (q : Fin 2048) :
    extractStridedSlice S1x2048 ![2, 0] x hs (ix2 z q) = x (ix2 2 q) := pts_row x 2 _ hs rfl rfl z q

/-- The comparison's bit at row `r` (a centre of the tile) and column `q` (a point of the tile). -/
theorem mask_apply (x0 : Vec Ideal S1x256x3 .f32) (x1 : Vec Ideal S1x3x2048 .f32) (r : Fin 256) (q : Fin 2048) :
    k0_pay2 (F := Ideal) x0 x1 (ix2 r q)
      = FloatOps.cmpf (F := Ideal) .olt
          (Cert.BallQuery.dist2 (fun k => x0 (ix3 (0 : Fin 1) r k)) (fun k => x1 (ix3 (0 : Fin 1) k q)))
          (Ideal.ofBits .f32 0x3C23D70A#32) := by
  unfold k0_pay2 Cert.BallQuery.dist2
  simp only [cmpf_apply, subf_apply, addf_apply, mulf_apply, broadcast_apply, broadcastTo_a1_ab_apply, broadcastTo_1b_ab_apply,
    ctr_col0, ctr_col1, ctr_col2, pts_row0, pts_row1, pts_row2, shapeCast_1ab_ab_apply]
  simp only [Ideal.ofBits_def, Ideal.ofBits_zero_f32, zero_add]

/-- The iota along the tile's points plus the tile's first point: the point's global index. -/
theorem global_index (ni q : ℕ) :
    IntOp.addi (BitVec.ofNat 32 q) (Scalar.muli (BitVec.ofNat 32 ni) 2048#32) = BitVec.ofNat 32 (ni * 2048 + q) := by
  show BitVec.ofNat 32 q + BitVec.ofNat 32 ni * BitVec.ofNat 32 2048 = _
  rw [Nat.add_comm, BitVec.ofNat_add, BitVec.ofNat_mul]

/-- The word the body stores at (r, q) of its tile. -/
theorem payload_apply (a : BitVec 32) (x0 : Vec Ideal S1x256x3 .f32) (x1 : Vec Ideal S1x3x2048 .f32)
    (u : Fin 1) (r : Fin 256) (q : Fin 2048) :
    k0_pay1 a (k0_pay2 (F := Ideal) x0 x1) (iota .tc S256x2048 32 [1] iota_S256x2048_d1_w32) (ix3 u r q)
      = Scalar.select
          (FloatOps.cmpf (F := Ideal) .olt
            (Cert.BallQuery.dist2 (fun k => x0 (ix3 (0 : Fin 1) r k)) (fun k => x1 (ix3 (0 : Fin 1) k q)))
            (Ideal.ofBits .f32 0x3C23D70A#32))
          (IntOp.addi (BitVec.ofNat 32 q.val) (Scalar.muli a 2048#32)) 16384#32 := by
  unfold k0_pay1
  simp only [shapeCast_ab_1ab_apply, select_apply, mask_apply, broadcast_apply]
  rw [show ∀ (x y : IVec S256x2048 32) (i : S256x2048.Idx), addi x y i = IntOp.addi (x i) (y i) from fun _ _ _ => rfl,
    iota_single_apply, broadcast_apply]

/-- What the body stores is the candidate word of the index the tile's (r, q) stands for — given that its two blocks
    hold the centre's and the point's coordinates, and that the stored index is the point's. -/
theorem point_eq (pts : Cert.ReferenceIdeal.S4x3x16384.Idx → EReal) (ctr : Cert.ReferenceIdeal.S4x3x2048.Idx → EReal)
    (a : BitVec 32) (x0 : Vec Ideal S1x256x3 .f32) (x1 : Vec Ideal S1x3x2048 .f32)
    (y : S1x256x2048.Idx) (i : Cert.ReferenceIdeal.S4x2048x16384.Idx)
    (hx0 : ∀ k : Fin 3, x0 (ix3 (0 : Fin 1) (y 1) k) = ctr (ix3 (i 0) k (i 1)))
    (hx1 : ∀ k : Fin 3, x1 (ix3 (0 : Fin 1) k (y 2)) = pts (ix3 (i 0) k (i 2)))
    (ha : IntOp.addi (BitVec.ofNat 32 (y 2).val) (Scalar.muli a 2048#32) = BitVec.ofNat 32 (i 2).val) :
    k0_pay1 a (k0_pay2 (F := Ideal) x0 x1) (iota .tc S256x2048 32 [1] iota_S256x2048_d1_w32) y
      = Cert.BallQuery.candOf pts ctr i := by
  have e := (congrArg (k0_pay1 a (k0_pay2 (F := Ideal) x0 x1) (iota .tc S256x2048 32 [1] iota_S256x2048_d1_w32)) (eq_ix3 y)).trans
    (payload_apply a x0 x1 (y 0) (y 1) (y 2))
  rw [e, funext hx0, funext hx1, ha]
  rfl

/-! ## The arrays the region finds -/

variable (m : (ℓ : Loc nD τ sig) → Buf (Elt Ideal) ℓ) (ρ : Dev nD → PrngReg)

/-- The region finds the centres transposed. -/
theorem V_centres (c : Dev nD) :
    V m c main_v0 = transpose S4x2048x3 [0, 2, 1] (m ((c : Thread nD τ).loc main_arg1)) transposes_S4x3x2048_S4x2048x3_0_2_1 := by
  show StableHlo.after hostOps0 (fun b => m (c, b)) (Proc.devRef .tc main_v0) = _
  after_results <;> rfl

/-- The transposed centres at (batch, centre, channel) are the centres at (batch, channel, centre). -/
theorem centres_read (c : Dev nD) (z : S4x2048x3.Idx) :
    V m c main_v0 z = m ((c : Thread nD τ).loc main_arg1) (ix3 (z 0) (z 2) (z 1)) := by
  rw [V_centres]
  exact transpose_apply [0, 2, 1] _ transposes_S4x3x2048_S4x2048x3_0_2_1 z (ix3 (z 0) (z 2) (z 1))
    (fun b => match b with | ⟨0, _⟩ => rfl | ⟨1, _⟩ => rfl | ⟨2, _⟩ => rfl)

/-- The candidate array as a function of the launch contents of the two coordinate arguments. -/
abbrev G (c : Dev nD) : S4x2048x16384.Idx → BitVec 32 :=
  Cert.BallQuery.candOf (m ((c : Thread nD τ).loc main_arg0)) (m ((c : Thread nD τ).loc main_arg1))

/-! ## The grid's index maps -/

theorem hz3 : (![0, 0, 0] : Fin 3 → Nat) = fun _ => 0 := funext fun a => by fin_cases a <;> rfl

/-- The centres' window moves with the output's batch and centre tile, the points' window with its batch and point tile;
    the body's third coordinate is the point tile; the output's block indices stay in their ranges. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = win0_2.index t (2 : Fin 3)
    ∧ ((grid0.coords t) (2 : Fin 3)).val = win0_2.index t (2 : Fin 3)
    ∧ win0_2.index t (0 : Fin 3) < 4 ∧ win0_2.index t (1 : Fin 3) < 8 ∧ win0_2.index t (2 : Fin 3) < 8 :=
  (by decide +kernel : ∀ t : Fin grid0.N, _)

/-- Every block of the array is some point's. -/
theorem idx_onto : ∀ (q0 : Fin 4) (q1 : Fin 8) (q2 : Fin 8), ∃ t : Fin cfg0.N, win0_2.index t = ![q0.val, q1.val, q2.val] :=
  (by decide +kernel : ∀ (q0 : Fin 4) (q1 : Fin 8) (q2 : Fin 8), ∃ t : Fin grid0.N, win0_2.index t = ![q0.val, q1.val, q2.val])

/-! ## What a point writes back -/

/-- Point `t` writes back block `t` of `G`. -/
theorem flushed_cand (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold outCand
  rw [View.canon_unit_zero hz3]
  simp only [View.ld_unit_zero (S := S1x256x3) hz3, View.ld_unit_zero (S := S1x3x2048) hz3]
  obtain ⟨e00, e01, e02, e10, e11, e12, eg, b0, b1, b2⟩ := idx_facts t
  funext y
  refine point_eq (m ((c : Thread nD τ).loc main_arg0)) (m ((c : Thread nD τ).loc main_arg1)) _ (iblk m c 0 t) (iblk m c 1 t) y
    (((cfg0.win 2).blk t).view.emb y) (fun k => ?_) (fun k => ?_) ?_
  · -- the centres' block at (0, y 1, k) is the centre's channel k
    show V m c main_v0 (((cfg0.win 0).blk t).view.emb (ix3 (0 : Fin 1) (y 1) k)) = _
    rw [centres_read]
    refine congrArg (m ((c : Thread nD τ).loc main_arg1)) (funext fun a => Fin.ext ?_)
    match a with
    | ⟨0, _⟩ => show win0_0.index t (0 : Fin 3) * 1 + 1 * 0 = win0_2.index t (0 : Fin 3) * 1 + 1 * (y 0).val; have : (y 0).val < 1 := (y 0).isLt; omega
    | ⟨1, _⟩ => show win0_0.index t (2 : Fin 3) * 3 + 1 * k.val = k.val; omega
    | ⟨2, _⟩ => show win0_0.index t (1 : Fin 3) * 256 + 1 * (y 1).val = win0_2.index t (1 : Fin 3) * 256 + 1 * (y 1).val; omega
  · -- the points' block at (0, k, y 2) is the point's channel k
    show V m c main_arg0 (((cfg0.win 1).blk t).view.emb (ix3 (0 : Fin 1) k (y 2))) = _
    rw [V_arg m c main_arg0 (by simp)]
    refine congrArg (m ((c : Thread nD τ).loc main_arg0)) (funext fun a => Fin.ext ?_)
    match a with
    | ⟨0, _⟩ => show win0_1.index t (0 : Fin 3) * 1 + 1 * 0 = win0_2.index t (0 : Fin 3) * 1 + 1 * (y 0).val; have : (y 0).val < 1 := (y 0).isLt; omega
    | ⟨1, _⟩ => show win0_1.index t (1 : Fin 3) * 3 + 1 * k.val = k.val; omega
    | ⟨2, _⟩ => show win0_1.index t (2 : Fin 3) * 2048 + 1 * (y 2).val = win0_2.index t (2 : Fin 3) * 2048 + 1 * (y 2).val; omega
  · -- the stored index is the point's global index
    rw [global_index]
    show BitVec.ofNat 32 (((grid0.coords t) (2 : Fin 3)).val * 2048 + (y 2).val) = BitVec.ofNat 32 (win0_2.index t (2 : Fin 3) * 2048 + 1 * (y 2).val)
    rw [eg, Nat.one_mul]

/-! ## The blocks tile the array -/

theorem mem_blk (t : Fin cfg0.N) (i : S4x2048x16384.Idx) :
    i ∈ ((cfg0.win 2).blk t).view.set ↔ ∀ a : Fin 3, win0_2.index t a * S1x256x2048.size a ≤ (i a).val ∧ (i a).val < win0_2.index t a * S1x256x2048.size a + S1x256x2048.size a := by
  show i ∈ ((View.whole main_v1).slice (win0_2.rect t)).set ↔ _
  rw [View.set_slice_whole, Rect.mem_set_unit]
  exact Iff.rfl

/-- Every index of the candidate array lies in the block of the point (batch, its centre's tile, its point's tile). -/
theorem cover (i : S4x2048x16384.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 16384 := (i 2).isLt
  obtain ⟨t, ht⟩ := idx_onto ⟨(i 0).val, h0⟩ ⟨(i 1).val / 256, by omega⟩ ⟨(i 2).val / 2048, by omega⟩
  have q0 : win0_2.index t (0 : Fin 3) = (i 0).val := congrFun ht 0
  have q1 : win0_2.index t (1 : Fin 3) = (i 1).val / 256 := congrFun ht 1
  have q2 : win0_2.index t (2 : Fin 3) = (i 2).val / 2048 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- After the run the candidate array is `G`. -/
theorem final_cand (c : Dev nD) : (dats m 0 c).arrAt 2 cfg0.N = G m c :=
  (dats m 0 c).arrAt_eq_of_cover 2 (G m c) (fun t _ => flushed_cand m c t) cover

end Cert.KernelIdeal.Cand

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.KernelTail.lean ====
/-
  The kernel program's result, at the ideal values.

  After the region the program sorts the candidate array, selects the 32 neighbour indices of each centre, lays them
  flat over 3 (then 64) channels, gathers the neighbours' coordinates (then features) — the in-range mask, the gathered
  values and the fill, then the choice between them —, subtracts the centres and joins: the same operations the
  reference ends with.  Read from any buffer contents, stretch by stretch, each stretch leaves its function of what it
  reads; each buffer is written by one operation only, and none of them writes an argument array.  The region leaves the
  candidate array at `candOf` of the two coordinate arrays (the block-by-block value of the kernel), every argument as
  launched.
-/
import proofs.«178756_j43714177139075_1_alg».proof.Proof.KernelCand
import proofs.«178756_j43714177139075_1_alg».proof.Proof.Grouping
import proofs.«178756_j43714177139075_1_alg».proof.Proof.LibJoinedPair

set_option maxRecDepth 16384

noncomputable section

namespace Cert.KernelIdeal.Tail

open Cert.KernelIdeal Cert.KernelIdeal.Gen Cert.KernelIdeal.Around
open Idealize.ShloMosaic Idealize.ShloMosaic.TcCoe Idealize.SL.Sem
open Idealize.ShloMosaic.Pipeline (Dat)

variable {F : FTy → Type} [FloatOps F]

/-! ## The operations after the region, stretch by stretch -/

/-- The sort and the selection of the 32 neighbour indices. -/
abbrev kNear : List (HloOp τ sig (Elt F)) :=
  [ StableHlo.TRef.unary (.of main_v1 : StableHlo.TRef sig ⟨S4x2048x16384, .i32⟩) (.of main_v2 : StableHlo.TRef sig ⟨S4x2048x16384, .i32⟩) (fun x => Host.sort S4x2048x16384 2 comparator_i32_d2 x),
    StableHlo.unary main_v2 main_v3 ((extractStridedSlice S4x2048x32 ![0, 0, 0] · slices_S4x2048x16384_S4x2048x32_0_0_0) : (⟨S4x2048x16384, .i32⟩ : BufTy).Contents (Elt F) → (⟨S4x2048x32, .i32⟩ : BufTy).Contents (Elt F)),
    StableHlo.unary main_v3 main_v4 ((extractStridedSlice S4x2048x1 ![0, 0, 0] · slices_S4x2048x32_S4x2048x1_0_0_0) : (⟨S4x2048x32, .i32⟩ : BufTy).Contents (Elt F) → (⟨S4x2048x1, .i32⟩ : BufTy).Contents (Elt F)),
    StableHlo.nullary main_c (constantI S_ 32 16384#32),
    StableHlo.unary main_c main_v5 (broadcastInDim S4x2048x1 ![] bcast_S_S4x2048x1 : (⟨S_, .i32⟩ : BufTy).Contents (Elt F) → (⟨S4x2048x1, .i32⟩ : BufTy).Contents (Elt F)),
    StableHlo.binary main_v4 main_v5 main_v6 (cmpi .eq : (⟨S4x2048x1, .i32⟩ : BufTy).Contents (Elt F) → (⟨S4x2048x1, .i32⟩ : BufTy).Contents (Elt F) → (⟨S4x2048x1, .i1⟩ : BufTy).Contents (Elt F)),
    StableHlo.nullary main_c_0 (constantI S_ 32 0#32),
    StableHlo.TRef.unary (.of main_c_0 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S4x2048x1, .i32⟩) (broadcastInDim S4x2048x1 ![] bcast_S_S4x2048x1),
    StableHlo.TRef.ternary (.of main_v6 : StableHlo.TRef sig ⟨S4x2048x1, .i1⟩) (.of main_call1_v1 : StableHlo.TRef sig ⟨S4x2048x1, .i32⟩) (.of main_v4 : StableHlo.TRef sig ⟨S4x2048x1, .i32⟩) (.of main_v7 : StableHlo.TRef sig ⟨S4x2048x1, .i32⟩) select,
    StableHlo.nullary main_c_1 (constantI S_ 32 16384#32),
    StableHlo.unary main_c_1 main_v8 (broadcastInDim S4x2048x32 ![] bcast_S_S4x2048x32 : (⟨S_, .i32⟩ : BufTy).Contents (Elt F) → (⟨S4x2048x32, .i32⟩ : BufTy).Contents (Elt F)),
    StableHlo.binary main_v3 main_v8 main_v9 (cmpi .eq : (⟨S4x2048x32, .i32⟩ : BufTy).Contents (Elt F) → (⟨S4x2048x32, .i32⟩ : BufTy).Contents (Elt F) → (⟨S4x2048x32, .i1⟩ : BufTy).Contents (Elt F)),
    StableHlo.TRef.unary (.of main_v7 : StableHlo.TRef sig ⟨S4x2048x1, .i32⟩) (.of main_call2_v0 : StableHlo.TRef sig ⟨S4x2048x32, .i32⟩) (broadcastInDim S4x2048x32 ![0, 1, 2] bcast_S4x2048x1_S4x2048x32_0_1_2),
    StableHlo.TRef.ternary (.of main_v9 : StableHlo.TRef sig ⟨S4x2048x32, .i1⟩) (.of main_call2_v0 : StableHlo.TRef sig ⟨S4x2048x32, .i32⟩) (.of main_v3 : StableHlo.TRef sig ⟨S4x2048x32, .i32⟩) (.of main_v10 : StableHlo.TRef sig ⟨S4x2048x32, .i32⟩) select ]

/-- The neighbour indices laid flat and repeated over 3 channels. -/
abbrev kSpread3 : List (HloOp τ sig (Elt F)) :=
  [ StableHlo.reshape main_v10 main_v11 rfl shapeCasts_S4x2048x32_S4x1x65536,
    StableHlo.unary main_v11 main_v12 (broadcastInDim S4x3x65536 ![0, 1, 2] bcast_S4x1x65536_S4x3x65536_0_1_2 : (⟨S4x1x65536, .i32⟩ : BufTy).Contents (Elt F) → (⟨S4x3x65536, .i32⟩ : BufTy).Contents (Elt F)) ]

/-- The gather of the neighbours' coordinates, up to the choice between gathered value and fill. -/
abbrev kTake3 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S4x3x65536, .i32⟩) (broadcastInDim S4x3x65536 ![] bcast_S_S4x3x65536),
    StableHlo.TRef.binary (.of main_v12 : StableHlo.TRef sig ⟨S4x3x65536, .i32⟩) (.of main_call3_v0 : StableHlo.TRef sig ⟨S4x3x65536, .i32⟩) (.of main_call3_v1 : StableHlo.TRef sig ⟨S4x3x65536, .i1⟩) (cmpi .slt),
    StableHlo.TRef.nullary (.of main_call3_c_0 : StableHlo.TRef sig ⟨S_, .i32⟩) (constantI S_ 32 16384#32),
    StableHlo.TRef.unary (.of main_call3_c_0 : StableHlo.TRef sig ⟨S_, .i32⟩) (.of main_call3_v2 : StableHlo.TRef sig ⟨S4x3x65536, .i32⟩) (broadcastInDim S4x3x65536 ![] bcast_S_S4x3x65536),
    StableHlo.TRef.binary (.of main_v12 : StableHlo.TRef sig ⟨S4x3x65536, .i32⟩) (.of main_call3_v2 : StableHlo.TRef sig ⟨S4x3x65536, .i32⟩) (.of main_call3_v3 : StableHlo.TRef sig ⟨S4x3x65536, .i32⟩) addi,
    StableHlo.TRef.ternary (.of main_call3_v1 : StableHlo.TRef sig ⟨S4x3x65536, .i1⟩) (.of main_call3_v3 : StableHlo.TRef sig ⟨S4x3x65536, .i32⟩) (.of main_v12 : StableHlo.TRef sig ⟨S4x3x65536, .i32⟩) (.of main_call3_v4 : StableHlo.TRef sig ⟨S4x3x65536, .i32⟩) select,
    StableHlo.TRef.reshape (.of main_call3_v4 : StableHlo.TRef sig ⟨S4x3x65536, .i32⟩) (.of main_call3_v5 : StableHlo.TRef sig ⟨S4x3x65536x1, .i32⟩) rfl shapeCasts_S4x3x65536_S4x3x65536x1,
    StableHlo.TRef.nullary (.of main_call3_c_1 : StableHlo.TRef sig ⟨S1, .i32⟩) (constantI S1 32 16383#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S4x3x65536x1, .i32⟩) (broadcastInDim S4x3x65536x1 ![] bcast_S_S4x3x65536x1),
    StableHlo.TRef.binary (.of main_call3_v5 : StableHlo.TRef sig ⟨S4x3x65536x1, .i32⟩) (.of main_call3_v6 : StableHlo.TRef sig ⟨S4x3x65536x1, .i32⟩) (.of main_call3_v7 : StableHlo.TRef sig ⟨S4x3x65536x1, .i1⟩) (cmpi .sge),
    StableHlo.TRef.unary (.of main_call3_c_1 : StableHlo.TRef sig ⟨S1, .i32⟩) (.of main_call3_v8 : StableHlo.TRef sig ⟨S1x1x1x1, .i32⟩) (broadcastInDim S1x1x1x1 ![3] bcast_S1_S1x1x1x1_3),
    StableHlo.TRef.unary (.of main_call3_v8 : StableHlo.TRef sig ⟨S1x1x1x1, .i32⟩) (.of main_call3_v9 : StableHlo.TRef sig ⟨S4x3x65536x1, .i32⟩) (broadcastInDim S4x3x65536x1 ![0, 1, 2, 3] bcast_S1x1x1x1_S4x3x65536x1_0_1_2_3),
    StableHlo.TRef.binary (.of main_call3_v5 : StableHlo.TRef sig ⟨S4x3x65536x1, .i32⟩) (.of main_call3_v9 : StableHlo.TRef sig ⟨S4x3x65536x1, .i32⟩) (.of main_call3_v10 : StableHlo.TRef sig ⟨S4x3x65536x1, .i1⟩) (cmpi .sle),
    StableHlo.TRef.binary (.of main_call3_v7 : StableHlo.TRef sig ⟨S4x3x65536x1, .i1⟩) (.of main_call3_v10 : StableHlo.TRef sig ⟨S4x3x65536x1, .i1⟩) (.of main_call3_v11 : StableHlo.TRef sig ⟨S4x3x65536x1, .i1⟩) andi,
    StableHlo.TRef.nullary (.of main_call3_c_3 : StableHlo.TRef sig ⟨S_, .i1⟩) (constantI S_ 1 1#1),
    StableHlo.TRef.binary (.of main_call3_v11 : StableHlo.TRef sig ⟨S4x3x65536x1, .i1⟩) (.of main_call3_c_3 : StableHlo.TRef sig ⟨S_, .i1⟩) (.of main_call3_v12 : StableHlo.TRef sig ⟨S4x3x65536, .i1⟩) (fun x v => Host.reduce IntOp.andi x v reducesTo_S4x3x65536x1_S4x3x65536_d3 h_S_),
    StableHlo.TRef.binary (.of main_arg0 : StableHlo.TRef sig ⟨S4x3x16384, .f32⟩) (.of main_call3_v5 : StableHlo.TRef sig ⟨S4x3x65536x1, .i32⟩) (.of main_call3_v13 : StableHlo.TRef sig ⟨S4x3x65536, .f32⟩) (fun x i => Host.gather gather_S4x3x16384_S4x3x65536x1_S4x3x65536_n_2_01_01_2_3_111 x i),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S4x3x65536, .f32⟩) (broadcastInDim S4x3x65536 ![] bcast_S_S4x3x65536) ]

/-- That choice. -/
abbrev kSel3 : List (HloOp τ sig (Elt F)) :=
  [ StableHlo.TRef.ternary (.of main_call3_v12 : StableHlo.TRef sig ⟨S4x3x65536, .i1⟩) (.of main_call3_v13 : StableHlo.TRef sig ⟨S4x3x65536, .f32⟩) (.of main_call3_v14 : StableHlo.TRef sig ⟨S4x3x65536, .f32⟩) (.of main_v13 : StableHlo.TRef sig ⟨S4x3x65536, .f32⟩) select ]

/-- The gathered coordinates per centre and neighbour, less the centre. -/
abbrev kRel : List (HloOp τ sig (Elt F)) :=
  [ StableHlo.reshape main_v13 main_v14 rfl shapeCasts_S4x3x65536_S4x3x2048x32,
    StableHlo.unary main_arg1 main_v15 (broadcastInDim S4x3x2048x1 ![0, 1, 2] bcast_S4x3x2048_S4x3x2048x1_0_1_2 : (⟨S4x3x2048, .f32⟩ : BufTy).Contents (Elt F) → (⟨S4x3x2048x1, .f32⟩ : BufTy).Contents (Elt F)),
    StableHlo.unary main_v15 main_v16 (broadcastInDim S4x3x2048x32 ![0, 1, 2, 3] bcast_S4x3x2048x1_S4x3x2048x32_0_1_2_3 : (⟨S4x3x2048x1, .f32⟩ : BufTy).Contents (Elt F) → (⟨S4x3x2048x32, .f32⟩ : BufTy).Contents (Elt F)),
    StableHlo.binary main_v14 main_v16 main_v17 (subf : (⟨S4x3x2048x32, .f32⟩ : BufTy).Contents (Elt F) → (⟨S4x3x2048x32, .f32⟩ : BufTy).Contents (Elt F) → (⟨S4x3x2048x32, .f32⟩ : BufTy).Contents (Elt F)) ]

/-- The neighbour indices laid flat and repeated over 64 channels. -/
abbrev kSpread64 : List (HloOp τ sig (Elt F)) :=
  [ StableHlo.reshape main_v10 main_v18 rfl shapeCasts_S4x2048x32_S4x1x65536,
    StableHlo.unary main_v18 main_v19 (broadcastInDim S4x64x65536 ![0, 1, 2] bcast_S4x1x65536_S4x64x65536_0_1_2 : (⟨S4x1x65536, .i32⟩ : BufTy).Contents (Elt F) → (⟨S4x64x65536, .i32⟩ : BufTy).Contents (Elt F)) ]

/-- The gather of the neighbours' features, up to the choice between gathered value and fill. -/
abbrev kTake64 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S4x64x65536, .i32⟩) (broadcastInDim S4x64x65536 ![] bcast_S_S4x64x65536),
    StableHlo.TRef.binary (.of main_v19 : StableHlo.TRef sig ⟨S4x64x65536, .i32⟩) (.of main_call4_v0 : StableHlo.TRef sig ⟨S4x64x65536, .i32⟩) (.of main_call4_v1 : StableHlo.TRef sig ⟨S4x64x65536, .i1⟩) (cmpi .slt),
    StableHlo.TRef.nullary (.of main_call4_c_0 : StableHlo.TRef sig ⟨S_, .i32⟩) (constantI S_ 32 16384#32),
    StableHlo.TRef.unary (.of main_call4_c_0 : StableHlo.TRef sig ⟨S_, .i32⟩) (.of main_call4_v2 : StableHlo.TRef sig ⟨S4x64x65536, .i32⟩) (broadcastInDim S4x64x65536 ![] bcast_S_S4x64x65536),
    StableHlo.TRef.binary (.of main_v19 : StableHlo.TRef sig ⟨S4x64x65536, .i32⟩) (.of main_call4_v2 : StableHlo.TRef sig ⟨S4x64x65536, .i32⟩) (.of main_call4_v3 : StableHlo.TRef sig ⟨S4x64x65536, .i32⟩) addi,
    StableHlo.TRef.ternary (.of main_call4_v1 : StableHlo.TRef sig ⟨S4x64x65536, .i1⟩) (.of main_call4_v3 : StableHlo.TRef sig ⟨S4x64x65536, .i32⟩) (.of main_v19 : StableHlo.TRef sig ⟨S4x64x65536, .i32⟩) (.of main_call4_v4 : StableHlo.TRef sig ⟨S4x64x65536, .i32⟩) select,
    StableHlo.TRef.reshape (.of main_call4_v4 : StableHlo.TRef sig ⟨S4x64x65536, .i32⟩) (.of main_call4_v5 : StableHlo.TRef sig ⟨S4x64x65536x1, .i32⟩) rfl shapeCasts_S4x64x65536_S4x64x65536x1,
    StableHlo.TRef.nullary (.of main_call4_c_1 : StableHlo.TRef sig ⟨S1, .i32⟩) (constantI S1 32 16383#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S4x64x65536x1, .i32⟩) (broadcastInDim S4x64x65536x1 ![] bcast_S_S4x64x65536x1),
    StableHlo.TRef.binary (.of main_call4_v5 : StableHlo.TRef sig ⟨S4x64x65536x1, .i32⟩) (.of main_call4_v6 : StableHlo.TRef sig ⟨S4x64x65536x1, .i32⟩) (.of main_call4_v7 : StableHlo.TRef sig ⟨S4x64x65536x1, .i1⟩) (cmpi .sge),
    StableHlo.TRef.unary (.of main_call4_c_1 : StableHlo.TRef sig ⟨S1, .i32⟩) (.of main_call4_v8 : StableHlo.TRef sig ⟨S1x1x1x1, .i32⟩) (broadcastInDim S1x1x1x1 ![3] bcast_S1_S1x1x1x1_3),
    StableHlo.TRef.unary (.of main_call4_v8 : StableHlo.TRef sig ⟨S1x1x1x1, .i32⟩) (.of main_call4_v9 : StableHlo.TRef sig ⟨S4x64x65536x1, .i32⟩) (broadcastInDim S4x64x65536x1 ![0, 1, 2, 3] bcast_S1x1x1x1_S4x64x65536x1_0_1_2_3),
    StableHlo.TRef.binary (.of main_call4_v5 : StableHlo.TRef sig ⟨S4x64x65536x1, .i32⟩) (.of main_call4_v9 : StableHlo.TRef sig ⟨S4x64x65536x1, .i32⟩) (.of main_call4_v10 : StableHlo.TRef sig ⟨S4x64x65536x1, .i1⟩) (cmpi .sle),
    StableHlo.TRef.binary (.of main_call4_v7 : StableHlo.TRef sig ⟨S4x64x65536x1, .i1⟩) (.of main_call4_v10 : StableHlo.TRef sig ⟨S4x64x65536x1, .i1⟩) (.of main_call4_v11 : StableHlo.TRef sig ⟨S4x64x65536x1, .i1⟩) andi,
    StableHlo.TRef.nullary (.of main_call4_c_3 : StableHlo.TRef sig ⟨S_, .i1⟩) (constantI S_ 1 1#1),
    StableHlo.TRef.binary (.of main_call4_v11 : StableHlo.TRef sig ⟨S4x64x65536x1, .i1⟩) (.of main_call4_c_3 : StableHlo.TRef sig ⟨S_, .i1⟩) (.of main_call4_v12 : StableHlo.TRef sig ⟨S4x64x65536, .i1⟩) (fun x v => Host.reduce IntOp.andi x v reducesTo_S4x64x65536x1_S4x64x65536_d3 h_S_),
    StableHlo.TRef.binary (.of main_arg2 : StableHlo.TRef sig ⟨S4x64x16384, .f32⟩) (.of main_call4_v5 : StableHlo.TRef sig ⟨S4x64x65536x1, .i32⟩) (.of main_call4_v13 : StableHlo.TRef sig ⟨S4x64x65536, .f32⟩) (fun x i => Host.gather gather_S4x64x16384_S4x64x65536x1_S4x64x65536_n_2_01_01_2_3_111 x i),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v14 : StableHlo.TRef sig ⟨S4x64x65536, .f32⟩) (broadcastInDim S4x64x65536 ![] bcast_S_S4x64x65536) ]

/-- That choice. -/
abbrev kSel64 : List (HloOp τ sig (Elt F)) :=
  [ StableHlo.TRef.ternary (.of main_call4_v12 : StableHlo.TRef sig ⟨S4x64x65536, .i1⟩) (.of main_call4_v13 : StableHlo.TRef sig ⟨S4x64x65536, .f32⟩) (.of main_call4_v14 : StableHlo.TRef sig ⟨S4x64x65536, .f32⟩) (.of main_v20 : StableHlo.TRef sig ⟨S4x64x65536, .f32⟩) select ]

/-- The features per centre and neighbour, joined to the coordinates. -/
abbrev kJoin : List (HloOp τ sig (Elt F)) :=
  [ StableHlo.reshape main_v20 main_v21 rfl shapeCasts_S4x64x65536_S4x64x2048x32,
    StableHlo.binary main_v17 main_v21 main_v22 ((fun a b => concatenate S4x67x2048x32 1 [⟨S4x3x2048x32, a⟩, ⟨S4x64x2048x32, b⟩] concatenates_S4x3x2048x32_S4x64x2048x32_S4x67x2048x32_d1) : (⟨S4x3x2048x32, .f32⟩ : BufTy).Contents (Elt F) → (⟨S4x64x2048x32, .f32⟩ : BufTy).Contents (Elt F) → (⟨S4x67x2048x32, .f32⟩ : BufTy).Contents (Elt F)) ]

set_option maxHeartbeats 4000000 in
/-- The operations after the region are these stretches, in this order. -/
theorem tail_lists : (tailOps (F := F)).flatten = kNear ++ (kSpread3 ++ (kTake3 ++ (kSel3 ++ (kRel ++ (kSpread64 ++ (kTake64 ++ (kSel64 ++ (kJoin)))))))) := rfl

/-- They run stretch by stretch, each from what the earlier ones leave. -/
theorem tail_chain (W : Valuation τ sig (Elt F)) : StableHlo.after (tailOps (F := F)).flatten W = StableHlo.after kJoin (StableHlo.after kSel64 (StableHlo.after kTake64 (StableHlo.after kSpread64 (StableHlo.after kRel (StableHlo.after kSel3 (StableHlo.after kTake3 (StableHlo.after kSpread3 (StableHlo.after kNear (W))))))))) := by
  rw [tail_lists]
  simp only [StableHlo.after_append]

-- the sort, the gather and the fold of `and` enter only as functions applied to equal arguments: nothing about what they compute is used
attribute [local irreducible] Idealize.ShloMosaic.Host.reduce Idealize.ShloMosaic.Host.gather Idealize.ShloMosaic.Host.sort

/-! ## What each stretch leaves -/

open Idealize.ShloMosaic.StableHlo in
set_option maxRecDepth 16384 in
set_option maxHeartbeats 4000000 in
/-- The sort and the selection leave the neighbour indices at `nearest` of the candidate array. -/
theorem near_stage (W : Valuation τ sig (Elt F)) :
    StableHlo.after kNear W (Proc.devRef .tc main_v10) = Cert.BallQuery.nearest (W (Proc.devRef .tc main_v1)) := by
  after_results_simp <;> rfl

open Idealize.ShloMosaic.StableHlo in
set_option maxRecDepth 16384 in
set_option maxHeartbeats 4000000 in
/-- The indices laid flat over 3 channels. -/
theorem spread3_stage (W : Valuation τ sig (Elt F)) :
    StableHlo.after kSpread3 W (Proc.devRef .tc main_v12) = Cert.BallQuery.spread3 (W (Proc.devRef .tc main_v10)) := by
  after_results_simp <;> rfl

open Idealize.ShloMosaic.StableHlo in
set_option maxRecDepth 16384 in
set_option maxHeartbeats 4000000 in
/-- Where the wrapped index is in range. -/
theorem mask3_stage (W : Valuation τ sig (Elt F)) :
    StableHlo.after kTake3 W (Proc.devRef .tc main_call3_v12) = Cert.BallQuery.inRange3 (W (Proc.devRef .tc main_v12)) := by
  after_results_simp <;> rfl

open Idealize.ShloMosaic.StableHlo in
set_option maxRecDepth 16384 in
set_option maxHeartbeats 4000000 in
/-- The gathered coordinates. -/
theorem pick3_stage (W : Valuation τ sig (Elt F)) :
    StableHlo.after kTake3 W (Proc.devRef .tc main_call3_v13) = Cert.BallQuery.picked3 (F := F) (W (Proc.devRef .tc main_arg0)) (W (Proc.devRef .tc main_v12)) := by
  after_results_simp <;> rfl

open Idealize.ShloMosaic.StableHlo in
set_option maxRecDepth 16384 in
set_option maxHeartbeats 4000000 in
/-- The fill word spread. -/
theorem fill3_stage (W : Valuation τ sig (Elt F)) :
    StableHlo.after kTake3 W (Proc.devRef .tc main_call3_v14) = Cert.BallQuery.fill3 (F := F) := by
  after_results_simp <;> rfl

open Idealize.ShloMosaic.StableHlo in
set_option maxRecDepth 16384 in
set_option maxHeartbeats 4000000 in
/-- The gathered coordinates where in range, the fill elsewhere. -/
theorem sel3_stage (W : Valuation τ sig (Elt F)) :
    StableHlo.after kSel3 W (Proc.devRef .tc main_v13) = select (W (Proc.devRef .tc main_call3_v12)) (W (Proc.devRef .tc main_call3_v13)) (W (Proc.devRef .tc main_call3_v14)) := by
  after_results_simp <;> rfl

open Idealize.ShloMosaic.StableHlo in
set_option maxRecDepth 16384 in
set_option maxHeartbeats 4000000 in
/-- Per centre and neighbour, less the centre. -/
theorem rel_stage (W : Valuation τ sig (Elt F)) :
    StableHlo.after kRel W (Proc.devRef .tc main_v17) = Cert.BallQuery.relCoords (F := F) (W (Proc.devRef .tc main_v13)) (W (Proc.devRef .tc main_arg1)) := by
  after_results_simp <;> rfl

open Idealize.ShloMosaic.StableHlo in
set_option maxRecDepth 16384 in
set_option maxHeartbeats 4000000 in
/-- The indices laid flat over 64 channels. -/
theorem spread64_stage (W : Valuation τ sig (Elt F)) :
    StableHlo.after kSpread64 W (Proc.devRef .tc main_v19) = Cert.BallQuery.spread64 (W (Proc.devRef .tc main_v10)) := by
  after_results_simp <;> rfl

open Idealize.ShloMosaic.StableHlo in
set_option maxRecDepth 16384 in
set_option maxHeartbeats 4000000 in
/-- Where the wrapped index is in range. -/
theorem mask64_stage (W : Valuation τ sig (Elt F)) :
    StableHlo.after kTake64 W (Proc.devRef .tc main_call4_v12) = Cert.BallQuery.inRange64 (W (Proc.devRef .tc main_v19)) := by
  after_results_simp <;> rfl

open Idealize.ShloMosaic.StableHlo in
set_option maxRecDepth 16384 in
set_option maxHeartbeats 4000000 in
/-- The gathered features. -/
theorem pick64_stage (W : Valuation τ sig (Elt F)) :
    StableHlo.after kTake64 W (Proc.devRef .tc main_call4_v13) = Cert.BallQuery.picked64 (F := F) (W (Proc.devRef .tc main_arg2)) (W (Proc.devRef .tc main_v19)) := by
  after_results_simp <;> rfl

open Idealize.ShloMosaic.StableHlo in
set_option maxRecDepth 16384 in
set_option maxHeartbeats 4000000 in
/-- The fill word spread. -/
theorem fill64_stage (W : Valuation τ sig (Elt F)) :
    StableHlo.after kTake64 W (Proc.devRef .tc main_call4_v14) = Cert.BallQuery.fill64 (F := F) := by
  after_results_simp <;> rfl

open Idealize.ShloMosaic.StableHlo in
set_option maxRecDepth 16384 in
set_option maxHeartbeats 4000000 in
/-- The gathered features where in range, the fill elsewhere. -/
theorem sel64_stage (W : Valuation τ sig (Elt F)) :
    StableHlo.after kSel64 W (Proc.devRef .tc main_v20) = select (W (Proc.devRef .tc main_call4_v12)) (W (Proc.devRef .tc main_call4_v13)) (W (Proc.devRef .tc main_call4_v14)) := by
  after_results_simp <;> rfl

open Idealize.ShloMosaic.StableHlo in
set_option maxRecDepth 16384 in
set_option maxHeartbeats 4000000 in
/-- The features joined to the relative coordinates. -/
theorem join_stage (W : Valuation τ sig (Elt F)) :
    StableHlo.after kJoin W (Proc.devRef .tc main_v22) = Cert.BallQuery.joinBoth (F := F) (W (Proc.devRef .tc main_v17)) (W (Proc.devRef .tc main_v20)) := by
  read_fold
  rfl

/-! ## What each stretch leaves alone -/

/-- `kNear` writes none of these buffers. -/
theorem keep_kNear (b : Ref sig .tc) (hb : b = main_arg0 ∨ b = main_arg1 ∨ b = main_arg2) (W : Valuation τ sig (Elt F)) :
    StableHlo.after kNear W (Proc.devRef .tc b) = W (Proc.devRef .tc b) := by
  rcases hb with rfl | rfl | rfl
  all_goals
    refine StableHlo.after_of_forall_not_mem _ W (List.forall_iff_forall_mem.mp ?_)
    simp only [kNear, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `kSpread3` writes none of these buffers. -/
theorem keep_kSpread3 (b : Ref sig .tc) (hb : b = main_v10 ∨ b = main_arg0 ∨ b = main_arg1 ∨ b = main_arg2) (W : Valuation τ sig (Elt F)) :
    StableHlo.after kSpread3 W (Proc.devRef .tc b) = W (Proc.devRef .tc b) := by
  rcases hb with rfl | rfl | rfl | rfl
  all_goals
    refine StableHlo.after_of_forall_not_mem _ W (List.forall_iff_forall_mem.mp ?_)
    simp only [kSpread3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `kTake3` writes none of these buffers. -/
theorem keep_kTake3 (b : Ref sig .tc) (hb : b = main_v10 ∨ b = main_arg0 ∨ b = main_arg1 ∨ b = main_arg2) (W : Valuation τ sig (Elt F)) :
    StableHlo.after kTake3 W (Proc.devRef .tc b) = W (Proc.devRef .tc b) := by
  rcases hb with rfl | rfl | rfl | rfl
  all_goals
    refine StableHlo.after_of_forall_not_mem _ W (List.forall_iff_forall_mem.mp ?_)
    simp only [kTake3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `kSel3` writes none of these buffers. -/
theorem keep_kSel3 (b : Ref sig .tc) (hb : b = main_v10 ∨ b = main_arg0 ∨ b = main_arg1 ∨ b = main_arg2) (W : Valuation τ sig (Elt F)) :
    StableHlo.after kSel3 W (Proc.devRef .tc b) = W (Proc.devRef .tc b) := by
  rcases hb with rfl | rfl | rfl | rfl
  all_goals
    refine StableHlo.after_of_forall_not_mem _ W (List.forall_iff_forall_mem.mp ?_)
    simp only [kSel3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `kRel` writes none of these buffers. -/
theorem keep_kRel (b : Ref sig .tc) (hb : b = main_v10 ∨ b = main_arg0 ∨ b = main_arg1 ∨ b = main_arg2) (W : Valuation τ sig (Elt F)) :
    StableHlo.after kRel W (Proc.devRef .tc b) = W (Proc.devRef .tc b) := by
  rcases hb with rfl | rfl | rfl | rfl
  all_goals
    refine StableHlo.after_of_forall_not_mem _ W (List.forall_iff_forall_mem.mp ?_)
    simp only [kRel, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `kSpread64` writes none of these buffers. -/
theorem keep_kSpread64 (b : Ref sig .tc) (hb : b = main_v17 ∨ b = main_arg0 ∨ b = main_arg1 ∨ b = main_arg2) (W : Valuation τ sig (Elt F)) :
    StableHlo.after kSpread64 W (Proc.devRef .tc b) = W (Proc.devRef .tc b) := by
  rcases hb with rfl | rfl | rfl | rfl
  all_goals
    refine StableHlo.after_of_forall_not_mem _ W (List.forall_iff_forall_mem.mp ?_)
    simp only [kSpread64, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `kTake64` writes none of these buffers. -/
theorem keep_kTake64 (b : Ref sig .tc) (hb : b = main_v17 ∨ b = main_arg0 ∨ b = main_arg1 ∨ b = main_arg2) (W : Valuation τ sig (Elt F)) :
    StableHlo.after kTake64 W (Proc.devRef .tc b) = W (Proc.devRef .tc b) := by
  rcases hb with rfl | rfl | rfl | rfl
  all_goals
    refine StableHlo.after_of_forall_not_mem _ W (List.forall_iff_forall_mem.mp ?_)
    simp only [kTake64, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `kSel64` writes none of these buffers. -/
theorem keep_kSel64 (b : Ref sig .tc) (hb : b = main_v17 ∨ b = main_arg0 ∨ b = main_arg1 ∨ b = main_arg2) (W : Valuation τ sig (Elt F)) :
    StableHlo.after kSel64 W (Proc.devRef .tc b) = W (Proc.devRef .tc b) := by
  rcases hb with rfl | rfl | rfl | rfl
  all_goals
    refine StableHlo.after_of_forall_not_mem _ W (List.forall_iff_forall_mem.mp ?_)
    simp only [kSel64, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `kJoin` writes none of these buffers. -/
theorem keep_kJoin (b : Ref sig .tc) (hb : b = main_arg0 ∨ b = main_arg1 ∨ b = main_arg2) (W : Valuation τ sig (Elt F)) :
    StableHlo.after kJoin W (Proc.devRef .tc b) = W (Proc.devRef .tc b) := by
  rcases hb with rfl | rfl | rfl
  all_goals
    refine StableHlo.after_of_forall_not_mem _ W (List.forall_iff_forall_mem.mp ?_)
    simp only [kJoin, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-! ## The result -/

/-- The operations after the region, read from any buffer contents: the result is `grouped` of the candidate array and
    the three argument arrays. -/
theorem tail_result (W : Valuation τ sig (Elt F)) :
    StableHlo.after (tailOps (F := F)).flatten W (Proc.devRef .tc main_v22)
      = Cert.BallQuery.grouped (F := F) (W (Proc.devRef .tc main_v1)) (W (Proc.devRef .tc main_arg0)) (W (Proc.devRef .tc main_arg1))
          (W (Proc.devRef .tc main_arg2)) := by
  rw [tail_chain, join_stage, sel64_stage, keep_kSel64 main_v17 (by simp), mask64_stage, pick64_stage]
  rw [fill64_stage, keep_kTake64 main_v17 (by simp), spread64_stage, keep_kSpread64 main_arg2 (by simp), keep_kSpread64 main_v17 (by simp), rel_stage]
  rw [keep_kRel main_v10 (by simp), keep_kRel main_arg2 (by simp), sel3_stage, keep_kSel3 main_v10 (by simp), keep_kSel3 main_arg1 (by simp), keep_kSel3 main_arg2 (by simp)]
  rw [mask3_stage, pick3_stage, fill3_stage, keep_kTake3 main_v10 (by simp), keep_kTake3 main_arg1 (by simp), keep_kTake3 main_arg2 (by simp)]
  rw [spread3_stage, keep_kSpread3 main_v10 (by simp), keep_kSpread3 main_arg0 (by simp), keep_kSpread3 main_arg1 (by simp), keep_kSpread3 main_arg2 (by simp), near_stage]
  rw [keep_kNear main_arg0 (by simp), keep_kNear main_arg1 (by simp), keep_kNear main_arg2 (by simp)]
  rfl
/-- The kernel program's result: `grouped` of the candidates of the two coordinate arrays, and of the three arguments. -/
theorem kernel_result (m : (ℓ : Loc nD τ sig) → Buf (Elt Ideal) ℓ) (c : Dev nD) :
    Pipeline.afterTail₀ cfgs (dats m) 0 (V0 m) tailOps c main_v22
      = Cert.BallQuery.grouped (F := Ideal)
          (Cert.BallQuery.candOf (m ((c : Thread nD τ).loc main_arg0)) (m ((c : Thread nD τ).loc main_arg1)))
          (m ((c : Thread nD τ).loc main_arg0)) (m ((c : Thread nD τ).loc main_arg1)) (m ((c : Thread nD τ).loc main_arg2)) := by
  unfold Pipeline.afterTail₀
  rw [tail_result]
  refine congr (congr (congr (congrArg (Cert.BallQuery.grouped (F := Ideal)) ?_) ?_) ?_) ?_
  · exact (Pipeline.withArrays_arr _ launch0.win.arr_inj c _ _ 2).trans (Cand.final_cand m c)
  · exact (Pipeline.withArrays_arr _ launch0.win.arr_inj c _ _ 1).trans
      (((dats m 0 c).arrAt_in 1 rfl _).trans ((A_eq m c 1).trans (V_arg m c main_arg0 (by simp))))
  · exact (Pipeline.withArrays_of_ne _ c _ _ main_arg1 (by decide)).trans (V_arg m c main_arg1 (by simp))
  · exact (Pipeline.withArrays_of_ne _ c _ _ main_arg2 (by decide)).trans (V_arg m c main_arg2 (by simp))

/-- Every weakly fair execution of the idealized kernel program terminates with its result at `grouped` of the candidates
    of the coordinate arrays, and the three arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
        = Cert.BallQuery.grouped (F := Ideal)
            (Cert.BallQuery.candOf (m ((c.tc : Thread nD τ).loc main_arg0)) (m ((c.tc : Thread nD τ).loc main_arg1)))
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v22 (Pipeline.mem_restRefs_of main_v22 (by decide) (by decide))).trans (kernel_result m c),
     ((h c).1 1).trans ((((dats m) 0 c).arrAt_in 1 rfl _).trans ((A_eq m c 1).trans (V_arg m c main_arg0 (by simp)))),
     ((h c).2 main_arg1 (Pipeline.mem_restRefs_of main_arg1 (by decide) (by decide))).trans (W_arg m (dats m) c main_arg1 (by simp)),
     ((h c).2 main_arg2 (Pipeline.mem_restRefs_of main_arg2 (by decide) (by decide))).trans (W_arg m (dats m) c main_arg2 (by simp))⟩)
    (run_main m ρ)

end Cert.KernelIdeal.Tail

end
-- ==== Proof.RefRun.lean ====
/-
  The reference's run: its program is a straight line of 95 host operations, cut here into ten stretches.

  The first computes the candidate array from the two coordinate arrays; the second sorts it and selects the 32 neighbour
  indices of each centre; the others lay the indices flat over 3 (then 64) channels, gather the neighbours' coordinates
  (then features) — the in-range mask, the gathered values and the fill, then the choice between them —, subtract the
  centres, and join.  Every weakly fair execution runs them in turn, each stretch from what the earlier ones leave; each
  buffer is written by one operation only, so what a stretch reads is what the stretch that wrote it left there, and no
  operation writes an argument array.
-/
import proofs.«178756_j43714177139075_1_alg».proof.Proof.Gen.ReferenceIdeal
import proofs.«178756_j43714177139075_1_alg».proof.Proof.Grouping
import proofs.«178756_j43714177139075_1_alg».proof.Proof.LibJoinedPair
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The operations up to the candidate array, in order (a called function's operations stand in its call's place). -/
abbrev opsCand : List (HloOp τ sig (Elt F)) :=
  [ StableHlo.binary main_arg0 main_arg0 main_v0 (mulf : (⟨S4x3x16384, .f32⟩ : BufTy).Contents (Elt F) → (⟨S4x3x16384, .f32⟩ : BufTy).Contents (Elt F) → (⟨S4x3x16384, .f32⟩ : BufTy).Contents (Elt F)),
    StableHlo.nullary main_cst (constant S_ .f32 0x00000000#32),
    StableHlo.binary main_v0 main_cst main_v1 ((fun x v => Host.reduceAdd x v reducesTo_S4x3x16384_S4x16384_d1 h_S_) : (⟨S4x3x16384, .f32⟩ : BufTy).Contents (Elt F) → (⟨S_, .f32⟩ : BufTy).Contents (Elt F) → (⟨S4x16384, .f32⟩ : BufTy).Contents (Elt F)),
    StableHlo.binary main_arg1 main_arg1 main_v2 (mulf : (⟨S4x3x2048, .f32⟩ : BufTy).Contents (Elt F) → (⟨S4x3x2048, .f32⟩ : BufTy).Contents (Elt F) → (⟨S4x3x2048, .f32⟩ : BufTy).Contents (Elt F)),
    StableHlo.nullary main_cst_0 (constant S_ .f32 0x00000000#32),
    StableHlo.binary main_v2 main_cst_0 main_v3 ((fun x v => Host.reduceAdd x v reducesTo_S4x3x2048_S4x2048_d1 h_S_) : (⟨S4x3x2048, .f32⟩ : BufTy).Contents (Elt F) → (⟨S_, .f32⟩ : BufTy).Contents (Elt F) → (⟨S4x2048, .f32⟩ : BufTy).Contents (Elt F)),
    StableHlo.binary main_arg1 main_arg0 main_v4 ((fun l r => Host.dotGeneral dot_S4x3x2048_S4x3x16384_S4x2048x16384_1_1_2_2_0_0 none l r) : (⟨S4x3x2048, .f32⟩ : BufTy).Contents (Elt F) → (⟨S4x3x16384, .f32⟩ : BufTy).Contents (Elt F) → (⟨S4x2048x16384, .f32⟩ : BufTy).Contents (Elt F)),
    StableHlo.unary main_v3 main_v5 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v1 main_v6 (broadcastInDim S4x1x16384 ![0, 2] bcast_S4x16384_S4x1x16384_0_2 : (⟨S4x16384, .f32⟩ : BufTy).Contents (Elt F) → (⟨S4x1x16384, .f32⟩ : BufTy).Contents (Elt F)),
    StableHlo.unary main_v5 main_v7 (broadcastInDim S4x2048x16384 ![0, 1, 2] bcast_S4x2048x1_S4x2048x16384_0_1_2 : (⟨S4x2048x1, .f32⟩ : BufTy).Contents (Elt F) → (⟨S4x2048x16384, .f32⟩ : BufTy).Contents (Elt F)),
    StableHlo.unary main_v6 main_v8 (broadcastInDim S4x2048x16384 ![0, 1, 2] bcast_S4x1x16384_S4x2048x16384_0_1_2 : (⟨S4x1x16384, .f32⟩ : BufTy).Contents (Elt F) → (⟨S4x2048x16384, .f32⟩ : BufTy).Contents (Elt F)),
    StableHlo.binary main_v7 main_v8 main_v9 (addf : (⟨S4x2048x16384, .f32⟩ : BufTy).Contents (Elt F) → (⟨S4x2048x16384, .f32⟩ : BufTy).Contents (Elt F) → (⟨S4x2048x16384, .f32⟩ : BufTy).Contents (Elt F)),
    StableHlo.nullary main_cst_1 (constant S_ .f32 0x40000000#32),
    StableHlo.unary main_cst_1 main_v10 (broadcastInDim S4x2048x16384 ![] bcast_S_S4x2048x16384 : (⟨S_, .f32⟩ : BufTy).Contents (Elt F) → (⟨S4x2048x16384, .f32⟩ : BufTy).Contents (Elt F)),
    StableHlo.binary main_v10 main_v4 main_v11 (mulf : (⟨S4x2048x16384, .f32⟩ : BufTy).Contents (Elt F) → (⟨S4x2048x16384, .f32⟩ : BufTy).Contents (Elt F) → (⟨S4x2048x16384, .f32⟩ : BufTy).Contents (Elt F)),
    StableHlo.binary main_v9 main_v11 main_v12 (subf : (⟨S4x2048x16384, .f32⟩ : BufTy).Contents (Elt F) → (⟨S4x2048x16384, .f32⟩ : BufTy).Contents (Elt F) → (⟨S4x2048x16384, .f32⟩ : BufTy).Contents (Elt F)),
    StableHlo.nullary main_cst_2 (constant S_ .f32 0x3C23D70A#32),
    StableHlo.unary main_cst_2 main_v13 (broadcastInDim S4x2048x16384 ![] bcast_S_S4x2048x16384 : (⟨S_, .f32⟩ : BufTy).Contents (Elt F) → (⟨S4x2048x16384, .f32⟩ : BufTy).Contents (Elt F)),
    StableHlo.binary main_v12 main_v13 main_v14 (cmpf .olt : (⟨S4x2048x16384, .f32⟩ : BufTy).Contents (Elt F) → (⟨S4x2048x16384, .f32⟩ : BufTy).Contents (Elt F) → (⟨S4x2048x16384, .i1⟩ : BufTy).Contents (Elt F)),
    StableHlo.nullary main_v15 (iotaInDim S16384 32 0),
    StableHlo.unary main_v15 main_v16 (broadcastInDim S1x1x16384 ![2] bcast_S16384_S1x1x16384_2 : (⟨S16384, .i32⟩ : BufTy).Contents (Elt F) → (⟨S1x1x16384, .i32⟩ : BufTy).Contents (Elt F)),
    StableHlo.nullary main_c (constantI S_ 32 16384#32),
    StableHlo.TRef.unary (.of main_c : StableHlo.TRef sig ⟨S_, .i32⟩) (.of main_call0_v0 : StableHlo.TRef sig ⟨S_, .i32⟩) id,
    StableHlo.TRef.unary (.of main_v16 : StableHlo.TRef sig ⟨S1x1x16384, .i32⟩) (.of main_call0_v1 : StableHlo.TRef sig ⟨S4x2048x16384, .i32⟩) (broadcastInDim S4x2048x16384 ![0, 1, 2] bcast_S1x1x16384_S4x2048x16384_0_1_2),
    StableHlo.TRef.unary (.of main_call0_v0 : StableHlo.TRef sig ⟨S_, .i32⟩) (.of main_call0_v2 : StableHlo.TRef sig ⟨S4x2048x16384, .i32⟩) (broadcastInDim S4x2048x16384 ![] bcast_S_S4x2048x16384),
    StableHlo.TRef.ternary (.of main_v14 : StableHlo.TRef sig ⟨S4x2048x16384, .i1⟩) (.of main_call0_v1 : StableHlo.TRef sig ⟨S4x2048x16384, .i32⟩) (.of main_call0_v2 : StableHlo.TRef sig ⟨S4x2048x16384, .i32⟩) (.of main_v17 : StableHlo.TRef sig ⟨S4x2048x16384, .i32⟩) select ]
theorem opsCand_sub : (opsCand : List (HloOp τ sig (Elt F))).Forall fun op => op.bufs ⊆ StableHlo.tcRefs τ sig :=
  ⟨StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.ternary_bufs_sub ..⟩
theorem opsCand_fresh : (opsCand : List (HloOp τ sig (Elt F))).Forall fun op => op.fresh = ∅ := by
  simp only [List.Forall]; repeat' constructor

/-- The sort and the selection of the 32 neighbour indices. -/
abbrev opsNear : List (HloOp τ sig (Elt F)) :=
  [ StableHlo.TRef.unary (.of main_v17 : StableHlo.TRef sig ⟨S4x2048x16384, .i32⟩) (.of main_v18 : StableHlo.TRef sig ⟨S4x2048x16384, .i32⟩) (fun x => Host.sort S4x2048x16384 2 comparator_i32_d2 x),
    StableHlo.unary main_v18 main_v19 ((extractStridedSlice S4x2048x32 ![0, 0, 0] · slices_S4x2048x16384_S4x2048x32_0_0_0) : (⟨S4x2048x16384, .i32⟩ : BufTy).Contents (Elt F) → (⟨S4x2048x32, .i32⟩ : BufTy).Contents (Elt F)),
    StableHlo.unary main_v19 main_v20 ((extractStridedSlice S4x2048x1 ![0, 0, 0] · slices_S4x2048x32_S4x2048x1_0_0_0) : (⟨S4x2048x32, .i32⟩ : BufTy).Contents (Elt F) → (⟨S4x2048x1, .i32⟩ : BufTy).Contents (Elt F)),
    StableHlo.nullary main_c_3 (constantI S_ 32 16384#32),
    StableHlo.unary main_c_3 main_v21 (broadcastInDim S4x2048x1 ![] bcast_S_S4x2048x1 : (⟨S_, .i32⟩ : BufTy).Contents (Elt F) → (⟨S4x2048x1, .i32⟩ : BufTy).Contents (Elt F)),
    StableHlo.binary main_v20 main_v21 main_v22 (cmpi .eq : (⟨S4x2048x1, .i32⟩ : BufTy).Contents (Elt F) → (⟨S4x2048x1, .i32⟩ : BufTy).Contents (Elt F) → (⟨S4x2048x1, .i1⟩ : BufTy).Contents (Elt F)),
    StableHlo.nullary main_c_4 (constantI S_ 32 0#32),
    StableHlo.TRef.unary (.of main_c_4 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S4x2048x1, .i32⟩) (broadcastInDim S4x2048x1 ![] bcast_S_S4x2048x1),
    StableHlo.TRef.ternary (.of main_v22 : StableHlo.TRef sig ⟨S4x2048x1, .i1⟩) (.of main_call2_v1 : StableHlo.TRef sig ⟨S4x2048x1, .i32⟩) (.of main_v20 : StableHlo.TRef sig ⟨S4x2048x1, .i32⟩) (.of main_v23 : StableHlo.TRef sig ⟨S4x2048x1, .i32⟩) select,
    StableHlo.nullary main_c_5 (constantI S_ 32 16384#32),
    StableHlo.unary main_c_5 main_v24 (broadcastInDim S4x2048x32 ![] bcast_S_S4x2048x32 : (⟨S_, .i32⟩ : BufTy).Contents (Elt F) → (⟨S4x2048x32, .i32⟩ : BufTy).Contents (Elt F)),
    StableHlo.binary main_v19 main_v24 main_v25 (cmpi .eq : (⟨S4x2048x32, .i32⟩ : BufTy).Contents (Elt F) → (⟨S4x2048x32, .i32⟩ : BufTy).Contents (Elt F) → (⟨S4x2048x32, .i1⟩ : BufTy).Contents (Elt F)),
    StableHlo.TRef.unary (.of main_v23 : StableHlo.TRef sig ⟨S4x2048x1, .i32⟩) (.of main_call3_v0 : StableHlo.TRef sig ⟨S4x2048x32, .i32⟩) (broadcastInDim S4x2048x32 ![0, 1, 2] bcast_S4x2048x1_S4x2048x32_0_1_2),
    StableHlo.TRef.ternary (.of main_v25 : StableHlo.TRef sig ⟨S4x2048x32, .i1⟩) (.of main_call3_v0 : StableHlo.TRef sig ⟨S4x2048x32, .i32⟩) (.of main_v19 : StableHlo.TRef sig ⟨S4x2048x32, .i32⟩) (.of main_v26 : StableHlo.TRef sig ⟨S4x2048x32, .i32⟩) select ]
theorem opsNear_sub : (opsNear : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.ternary_bufs_sub ..⟩
theorem opsNear_fresh : (opsNear : List (HloOp τ sig (Elt F))).Forall fun op => op.fresh = ∅ := by
  simp only [List.Forall]; repeat' constructor

/-- The neighbour indices laid flat and repeated over 3 channels. -/
abbrev opsSpread3 : List (HloOp τ sig (Elt F)) :=
  [ StableHlo.reshape main_v26 main_v27 rfl shapeCasts_S4x2048x32_S4x1x65536,
    StableHlo.unary main_v27 main_v28 (broadcastInDim S4x3x65536 ![0, 1, 2] bcast_S4x1x65536_S4x3x65536_0_1_2 : (⟨S4x1x65536, .i32⟩ : BufTy).Contents (Elt F) → (⟨S4x3x65536, .i32⟩ : BufTy).Contents (Elt F)) ]
theorem opsSpread3_sub : (opsSpread3 : List (HloOp τ sig (Elt F))).Forall fun op => op.bufs ⊆ StableHlo.tcRefs τ sig :=
  ⟨StableHlo.reshape_bufs_sub .., StableHlo.unary_bufs_sub ..⟩
theorem opsSpread3_fresh : (opsSpread3 : List (HloOp τ sig (Elt F))).Forall fun op => op.fresh = ∅ := by
  simp only [List.Forall]; repeat' constructor

/-- The gather of the neighbours' coordinates, up to the choice between gathered value and fill. -/
abbrev opsTake3 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S4x3x65536, .i32⟩) (broadcastInDim S4x3x65536 ![] bcast_S_S4x3x65536),
    StableHlo.TRef.binary (.of main_v28 : StableHlo.TRef sig ⟨S4x3x65536, .i32⟩) (.of main_call4_v0 : StableHlo.TRef sig ⟨S4x3x65536, .i32⟩) (.of main_call4_v1 : StableHlo.TRef sig ⟨S4x3x65536, .i1⟩) (cmpi .slt),
    StableHlo.TRef.nullary (.of main_call4_c_0 : StableHlo.TRef sig ⟨S_, .i32⟩) (constantI S_ 32 16384#32),
    StableHlo.TRef.unary (.of main_call4_c_0 : StableHlo.TRef sig ⟨S_, .i32⟩) (.of main_call4_v2 : StableHlo.TRef sig ⟨S4x3x65536, .i32⟩) (broadcastInDim S4x3x65536 ![] bcast_S_S4x3x65536),
    StableHlo.TRef.binary (.of main_v28 : StableHlo.TRef sig ⟨S4x3x65536, .i32⟩) (.of main_call4_v2 : StableHlo.TRef sig ⟨S4x3x65536, .i32⟩) (.of main_call4_v3 : StableHlo.TRef sig ⟨S4x3x65536, .i32⟩) addi,
    StableHlo.TRef.ternary (.of main_call4_v1 : StableHlo.TRef sig ⟨S4x3x65536, .i1⟩) (.of main_call4_v3 : StableHlo.TRef sig ⟨S4x3x65536, .i32⟩) (.of main_v28 : StableHlo.TRef sig ⟨S4x3x65536, .i32⟩) (.of main_call4_v4 : StableHlo.TRef sig ⟨S4x3x65536, .i32⟩) select,
    StableHlo.TRef.reshape (.of main_call4_v4 : StableHlo.TRef sig ⟨S4x3x65536, .i32⟩) (.of main_call4_v5 : StableHlo.TRef sig ⟨S4x3x65536x1, .i32⟩) rfl shapeCasts_S4x3x65536_S4x3x65536x1,
    StableHlo.TRef.nullary (.of main_call4_c_1 : StableHlo.TRef sig ⟨S1, .i32⟩) (constantI S1 32 16383#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S4x3x65536x1, .i32⟩) (broadcastInDim S4x3x65536x1 ![] bcast_S_S4x3x65536x1),
    StableHlo.TRef.binary (.of main_call4_v5 : StableHlo.TRef sig ⟨S4x3x65536x1, .i32⟩) (.of main_call4_v6 : StableHlo.TRef sig ⟨S4x3x65536x1, .i32⟩) (.of main_call4_v7 : StableHlo.TRef sig ⟨S4x3x65536x1, .i1⟩) (cmpi .sge),
    StableHlo.TRef.unary (.of main_call4_c_1 : StableHlo.TRef sig ⟨S1, .i32⟩) (.of main_call4_v8 : StableHlo.TRef sig ⟨S1x1x1x1, .i32⟩) (broadcastInDim S1x1x1x1 ![3] bcast_S1_S1x1x1x1_3),
    StableHlo.TRef.unary (.of main_call4_v8 : StableHlo.TRef sig ⟨S1x1x1x1, .i32⟩) (.of main_call4_v9 : StableHlo.TRef sig ⟨S4x3x65536x1, .i32⟩) (broadcastInDim S4x3x65536x1 ![0, 1, 2, 3] bcast_S1x1x1x1_S4x3x65536x1_0_1_2_3),
    StableHlo.TRef.binary (.of main_call4_v5 : StableHlo.TRef sig ⟨S4x3x65536x1, .i32⟩) (.of main_call4_v9 : StableHlo.TRef sig ⟨S4x3x65536x1, .i32⟩) (.of main_call4_v10 : StableHlo.TRef sig ⟨S4x3x65536x1, .i1⟩) (cmpi .sle),
    StableHlo.TRef.binary (.of main_call4_v7 : StableHlo.TRef sig ⟨S4x3x65536x1, .i1⟩) (.of main_call4_v10 : StableHlo.TRef sig ⟨S4x3x65536x1, .i1⟩) (.of main_call4_v11 : StableHlo.TRef sig ⟨S4x3x65536x1, .i1⟩) andi,
    StableHlo.TRef.nullary (.of main_call4_c_3 : StableHlo.TRef sig ⟨S_, .i1⟩) (constantI S_ 1 1#1),
    StableHlo.TRef.binary (.of main_call4_v11 : StableHlo.TRef sig ⟨S4x3x65536x1, .i1⟩) (.of main_call4_c_3 : StableHlo.TRef sig ⟨S_, .i1⟩) (.of main_call4_v12 : StableHlo.TRef sig ⟨S4x3x65536, .i1⟩) (fun x v => Host.reduce IntOp.andi x v reducesTo_S4x3x65536x1_S4x3x65536_d3 h_S_),
    StableHlo.TRef.binary (.of main_arg0 : StableHlo.TRef sig ⟨S4x3x16384, .f32⟩) (.of main_call4_v5 : StableHlo.TRef sig ⟨S4x3x65536x1, .i32⟩) (.of main_call4_v13 : StableHlo.TRef sig ⟨S4x3x65536, .f32⟩) (fun x i => Host.gather gather_S4x3x16384_S4x3x65536x1_S4x3x65536_n_2_01_01_2_3_111 x i),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v14 : StableHlo.TRef sig ⟨S4x3x65536, .f32⟩) (broadcastInDim S4x3x65536 ![] bcast_S_S4x3x65536) ]
theorem opsTake3_sub : (opsTake3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub ..⟩
theorem opsTake3_fresh : (opsTake3 : List (HloOp τ sig (Elt F))).Forall fun op => op.fresh = ∅ := by
  simp only [List.Forall]; repeat' constructor

/-- That choice. -/
abbrev opsSel3 : List (HloOp τ sig (Elt F)) :=
  [ StableHlo.TRef.ternary (.of main_call4_v12 : StableHlo.TRef sig ⟨S4x3x65536, .i1⟩) (.of main_call4_v13 : StableHlo.TRef sig ⟨S4x3x65536, .f32⟩) (.of main_call4_v14 : StableHlo.TRef sig ⟨S4x3x65536, .f32⟩) (.of main_v29 : StableHlo.TRef sig ⟨S4x3x65536, .f32⟩) select ]
theorem opsSel3_sub : (opsSel3 : List (HloOp τ sig (Elt F))).Forall fun op => op.bufs ⊆ StableHlo.tcRefs τ sig :=
  StableHlo.ternary_bufs_sub ..
theorem opsSel3_fresh : (opsSel3 : List (HloOp τ sig (Elt F))).Forall fun op => op.fresh = ∅ := by
  simp only [List.Forall]; repeat' constructor

/-- The gathered coordinates per centre and neighbour, less the centre. -/
abbrev opsRel : List (HloOp τ sig (Elt F)) :=
  [ StableHlo.reshape main_v29 main_v30 rfl shapeCasts_S4x3x65536_S4x3x2048x32,
    StableHlo.unary main_arg1 main_v31 (broadcastInDim S4x3x2048x1 ![0, 1, 2] bcast_S4x3x2048_S4x3x2048x1_0_1_2 : (⟨S4x3x2048, .f32⟩ : BufTy).Contents (Elt F) → (⟨S4x3x2048x1, .f32⟩ : BufTy).Contents (Elt F)),
    StableHlo.unary main_v31 main_v32 (broadcastInDim S4x3x2048x32 ![0, 1, 2, 3] bcast_S4x3x2048x1_S4x3x2048x32_0_1_2_3 : (⟨S4x3x2048x1, .f32⟩ : BufTy).Contents (Elt F) → (⟨S4x3x2048x32, .f32⟩ : BufTy).Contents (Elt F)),
    StableHlo.binary main_v30 main_v32 main_v33 (subf : (⟨S4x3x2048x32, .f32⟩ : BufTy).Contents (Elt F) → (⟨S4x3x2048x32, .f32⟩ : BufTy).Contents (Elt F) → (⟨S4x3x2048x32, .f32⟩ : BufTy).Contents (Elt F)) ]
theorem opsRel_sub : (opsRel : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub ..⟩
theorem opsRel_fresh : (opsRel : List (HloOp τ sig (Elt F))).Forall fun op => op.fresh = ∅ := by
  simp only [List.Forall]; repeat' constructor

/-- The neighbour indices laid flat and repeated over 64 channels. -/
abbrev opsSpread64 : List (HloOp τ sig (Elt F)) :=
  [ StableHlo.reshape main_v26 main_v34 rfl shapeCasts_S4x2048x32_S4x1x65536,
    StableHlo.unary main_v34 main_v35 (broadcastInDim S4x64x65536 ![0, 1, 2] bcast_S4x1x65536_S4x64x65536_0_1_2 : (⟨S4x1x65536, .i32⟩ : BufTy).Contents (Elt F) → (⟨S4x64x65536, .i32⟩ : BufTy).Contents (Elt F)) ]
theorem opsSpread64_sub : (opsSpread64 : List (HloOp τ sig (Elt F))).Forall fun op => op.bufs ⊆ StableHlo.tcRefs τ sig :=
  ⟨StableHlo.reshape_bufs_sub .., StableHlo.unary_bufs_sub ..⟩
theorem opsSpread64_fresh : (opsSpread64 : List (HloOp τ sig (Elt F))).Forall fun op => op.fresh = ∅ := by
  simp only [List.Forall]; repeat' constructor

/-- The gather of the neighbours' features, up to the choice between gathered value and fill. -/
abbrev opsTake64 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S4x64x65536, .i32⟩) (broadcastInDim S4x64x65536 ![] bcast_S_S4x64x65536),
    StableHlo.TRef.binary (.of main_v35 : StableHlo.TRef sig ⟨S4x64x65536, .i32⟩) (.of main_call5_v0 : StableHlo.TRef sig ⟨S4x64x65536, .i32⟩) (.of main_call5_v1 : StableHlo.TRef sig ⟨S4x64x65536, .i1⟩) (cmpi .slt),
    StableHlo.TRef.nullary (.of main_call5_c_0 : StableHlo.TRef sig ⟨S_, .i32⟩) (constantI S_ 32 16384#32),
    StableHlo.TRef.unary (.of main_call5_c_0 : StableHlo.TRef sig ⟨S_, .i32⟩) (.of main_call5_v2 : StableHlo.TRef sig ⟨S4x64x65536, .i32⟩) (broadcastInDim S4x64x65536 ![] bcast_S_S4x64x65536),
    StableHlo.TRef.binary (.of main_v35 : StableHlo.TRef sig ⟨S4x64x65536, .i32⟩) (.of main_call5_v2 : StableHlo.TRef sig ⟨S4x64x65536, .i32⟩) (.of main_call5_v3 : StableHlo.TRef sig ⟨S4x64x65536, .i32⟩) addi,
    StableHlo.TRef.ternary (.of main_call5_v1 : StableHlo.TRef sig ⟨S4x64x65536, .i1⟩) (.of main_call5_v3 : StableHlo.TRef sig ⟨S4x64x65536, .i32⟩) (.of main_v35 : StableHlo.TRef sig ⟨S4x64x65536, .i32⟩) (.of main_call5_v4 : StableHlo.TRef sig ⟨S4x64x65536, .i32⟩) select,
    StableHlo.TRef.reshape (.of main_call5_v4 : StableHlo.TRef sig ⟨S4x64x65536, .i32⟩) (.of main_call5_v5 : StableHlo.TRef sig ⟨S4x64x65536x1, .i32⟩) rfl shapeCasts_S4x64x65536_S4x64x65536x1,
    StableHlo.TRef.nullary (.of main_call5_c_1 : StableHlo.TRef sig ⟨S1, .i32⟩) (constantI S1 32 16383#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S4x64x65536x1, .i32⟩) (broadcastInDim S4x64x65536x1 ![] bcast_S_S4x64x65536x1),
    StableHlo.TRef.binary (.of main_call5_v5 : StableHlo.TRef sig ⟨S4x64x65536x1, .i32⟩) (.of main_call5_v6 : StableHlo.TRef sig ⟨S4x64x65536x1, .i32⟩) (.of main_call5_v7 : StableHlo.TRef sig ⟨S4x64x65536x1, .i1⟩) (cmpi .sge),
    StableHlo.TRef.unary (.of main_call5_c_1 : StableHlo.TRef sig ⟨S1, .i32⟩) (.of main_call5_v8 : StableHlo.TRef sig ⟨S1x1x1x1, .i32⟩) (broadcastInDim S1x1x1x1 ![3] bcast_S1_S1x1x1x1_3),
    StableHlo.TRef.unary (.of main_call5_v8 : StableHlo.TRef sig ⟨S1x1x1x1, .i32⟩) (.of main_call5_v9 : StableHlo.TRef sig ⟨S4x64x65536x1, .i32⟩) (broadcastInDim S4x64x65536x1 ![0, 1, 2, 3] bcast_S1x1x1x1_S4x64x65536x1_0_1_2_3),
    StableHlo.TRef.binary (.of main_call5_v5 : StableHlo.TRef sig ⟨S4x64x65536x1, .i32⟩) (.of main_call5_v9 : StableHlo.TRef sig ⟨S4x64x65536x1, .i32⟩) (.of main_call5_v10 : StableHlo.TRef sig ⟨S4x64x65536x1, .i1⟩) (cmpi .sle),
    StableHlo.TRef.binary (.of main_call5_v7 : StableHlo.TRef sig ⟨S4x64x65536x1, .i1⟩) (.of main_call5_v10 : StableHlo.TRef sig ⟨S4x64x65536x1, .i1⟩) (.of main_call5_v11 : StableHlo.TRef sig ⟨S4x64x65536x1, .i1⟩) andi,
    StableHlo.TRef.nullary (.of main_call5_c_3 : StableHlo.TRef sig ⟨S_, .i1⟩) (constantI S_ 1 1#1),
    StableHlo.TRef.binary (.of main_call5_v11 : StableHlo.TRef sig ⟨S4x64x65536x1, .i1⟩) (.of main_call5_c_3 : StableHlo.TRef sig ⟨S_, .i1⟩) (.of main_call5_v12 : StableHlo.TRef sig ⟨S4x64x65536, .i1⟩) (fun x v => Host.reduce IntOp.andi x v reducesTo_S4x64x65536x1_S4x64x65536_d3 h_S_),
    StableHlo.TRef.binary (.of main_arg2 : StableHlo.TRef sig ⟨S4x64x16384, .f32⟩) (.of main_call5_v5 : StableHlo.TRef sig ⟨S4x64x65536x1, .i32⟩) (.of main_call5_v13 : StableHlo.TRef sig ⟨S4x64x65536, .f32⟩) (fun x i => Host.gather gather_S4x64x16384_S4x64x65536x1_S4x64x65536_n_2_01_01_2_3_111 x i),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v14 : StableHlo.TRef sig ⟨S4x64x65536, .f32⟩) (broadcastInDim S4x64x65536 ![] bcast_S_S4x64x65536) ]
theorem opsTake64_sub : (opsTake64 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub ..⟩
theorem opsTake64_fresh : (opsTake64 : List (HloOp τ sig (Elt F))).Forall fun op => op.fresh = ∅ := by
  simp only [List.Forall]; repeat' constructor

/-- That choice. -/
abbrev opsSel64 : List (HloOp τ sig (Elt F)) :=
  [ StableHlo.TRef.ternary (.of main_call5_v12 : StableHlo.TRef sig ⟨S4x64x65536, .i1⟩) (.of main_call5_v13 : StableHlo.TRef sig ⟨S4x64x65536, .f32⟩) (.of main_call5_v14 : StableHlo.TRef sig ⟨S4x64x65536, .f32⟩) (.of main_v36 : StableHlo.TRef sig ⟨S4x64x65536, .f32⟩) select ]
theorem opsSel64_sub : (opsSel64 : List (HloOp τ sig (Elt F))).Forall fun op => op.bufs ⊆ StableHlo.tcRefs τ sig :=
  StableHlo.ternary_bufs_sub ..
theorem opsSel64_fresh : (opsSel64 : List (HloOp τ sig (Elt F))).Forall fun op => op.fresh = ∅ := by
  simp only [List.Forall]; repeat' constructor

/-- The features per centre and neighbour, joined to the coordinates. -/
abbrev opsJoin : List (HloOp τ sig (Elt F)) :=
  [ StableHlo.reshape main_v36 main_v37 rfl shapeCasts_S4x64x65536_S4x64x2048x32,
    StableHlo.binary main_v33 main_v37 main_v38 ((fun a b => concatenate S4x67x2048x32 1 [⟨S4x3x2048x32, a⟩, ⟨S4x64x2048x32, b⟩] concatenates_S4x3x2048x32_S4x64x2048x32_S4x67x2048x32_d1) : (⟨S4x3x2048x32, .f32⟩ : BufTy).Contents (Elt F) → (⟨S4x64x2048x32, .f32⟩ : BufTy).Contents (Elt F) → (⟨S4x67x2048x32, .f32⟩ : BufTy).Contents (Elt F)) ]
theorem opsJoin_sub : (opsJoin : List (HloOp τ sig (Elt F))).Forall fun op => op.bufs ⊆ StableHlo.tcRefs τ sig :=
  ⟨StableHlo.reshape_bufs_sub .., StableHlo.binary_bufs_sub ..⟩
theorem opsJoin_fresh : (opsJoin : List (HloOp τ sig (Elt F))).Forall fun op => op.fresh = ∅ := by
  simp only [List.Forall]; repeat' constructor

/-- The whole line. -/
abbrev opsAll : List (HloOp τ sig (Elt F)) := opsCand ++ (opsNear ++ (opsSpread3 ++ (opsTake3 ++ (opsSel3 ++ (opsRel ++ (opsSpread64 ++ (opsTake64 ++ (opsSel64 ++ (opsJoin)))))))))

set_option maxRecDepth 16384 in
set_option maxHeartbeats 4000000 in
/-- The program is the ten stretches in turn. -/
theorem main_eq (c : Dev nD) : main (F := F) c = StableHlo.seq opsAll := rfl
theorem scopedRefs_eq : (Finset.univ.filter fun b : Ref sig .tc => b.isScoped) = ∅ := by decide
theorem scopedSems_eq : (Finset.univ.filter fun sm : SemLoc sig => sm.isScoped .tc) = ∅ := by decide

theorem forall_app {P : HloOp τ sig (Elt F) → Prop} {a b : List (HloOp τ sig (Elt F))}
    (ha : a.Forall P) (hb : ∀ op ∈ b, P op) : ∀ op ∈ a ++ b, P op := by
  intro op hop
  rcases List.mem_append.mp hop with h | h
  · exact List.forall_iff_forall_mem.mp ha op h
  · exact hb op h

theorem opsAll_sub : ∀ op ∈ (opsAll (F := F)), op.bufs ⊆ StableHlo.tcRefs τ sig :=
  forall_app opsCand_sub (forall_app opsNear_sub (forall_app opsSpread3_sub (forall_app opsTake3_sub (forall_app opsSel3_sub (forall_app opsRel_sub (forall_app opsSpread64_sub (forall_app opsTake64_sub (forall_app opsSel64_sub (List.forall_iff_forall_mem.mp opsJoin_sub)))))))))
theorem opsAll_fresh : ∀ op ∈ (opsAll (F := F)), op.fresh = ∅ :=
  forall_app opsCand_fresh (forall_app opsNear_fresh (forall_app opsSpread3_fresh (forall_app opsTake3_fresh (forall_app opsSel3_fresh (forall_app opsRel_fresh (forall_app opsSpread64_fresh (forall_app opsTake64_fresh (forall_app opsSel64_fresh (List.forall_iff_forall_mem.mp opsJoin_fresh)))))))))

/-- Two lines run one after the other: the second from what the first leaves. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- The whole line is the stretches one after the other. -/
theorem after_all (W : Valuation τ sig (Elt F)) : StableHlo.after opsAll W = StableHlo.after opsJoin (StableHlo.after opsSel64 (StableHlo.after opsTake64 (StableHlo.after opsSpread64 (StableHlo.after opsRel (StableHlo.after opsSel3 (StableHlo.after opsTake3 (StableHlo.after opsSpread3 (StableHlo.after opsNear (StableHlo.after opsCand (W)))))))))) := by
  simp only [opsAll, after_app]

-- the sort, the gather and the fold of `and` enter only as functions applied to equal arguments: nothing about what they compute is used
attribute [local irreducible] Idealize.ShloMosaic.Host.reduce Idealize.ShloMosaic.Host.gather Idealize.ShloMosaic.Host.sort

/-! ## What each stretch leaves -/

open Idealize.ShloMosaic.StableHlo in
set_option maxRecDepth 16384 in
set_option maxHeartbeats 4000000 in
/-- The first stretch leaves the candidate array at `candRef` of the two coordinate arrays. -/
theorem cand_stage (W : Valuation τ sig (Elt F)) :
    StableHlo.after opsCand W (Proc.devRef .tc main_v17) = Cert.BallQuery.candRef (F := F) (W (Proc.devRef .tc main_arg0)) (W (Proc.devRef .tc main_arg1)) := by
  after_results_simp <;> rfl

open Idealize.ShloMosaic.StableHlo in
set_option maxRecDepth 16384 in
set_option maxHeartbeats 4000000 in
/-- The sort and the selection leave the neighbour indices at `nearest` of the candidate array. -/
theorem near_stage (W : Valuation τ sig (Elt F)) :
    StableHlo.after opsNear W (Proc.devRef .tc main_v26) = Cert.BallQuery.nearest (W (Proc.devRef .tc main_v17)) := by
  after_results_simp <;> rfl

open Idealize.ShloMosaic.StableHlo in
set_option maxRecDepth 16384 in
set_option maxHeartbeats 4000000 in
/-- The indices laid flat over 3 channels. -/
theorem spread3_stage (W : Valuation τ sig (Elt F)) :
    StableHlo.after opsSpread3 W (Proc.devRef .tc main_v28) = Cert.BallQuery.spread3 (W (Proc.devRef .tc main_v26)) := by
  after_results_simp <;> rfl

open Idealize.ShloMosaic.StableHlo in
set_option maxRecDepth 16384 in
set_option maxHeartbeats 4000000 in
/-- Where the wrapped index is in range. -/
theorem mask3_stage (W : Valuation τ sig (Elt F)) :
    StableHlo.after opsTake3 W (Proc.devRef .tc main_call4_v12) = Cert.BallQuery.inRange3 (W (Proc.devRef .tc main_v28)) := by
  after_results_simp <;> rfl

open Idealize.ShloMosaic.StableHlo in
set_option maxRecDepth 16384 in
set_option maxHeartbeats 4000000 in
/-- The gathered coordinates. -/
theorem pick3_stage (W : Valuation τ sig (Elt F)) :
    StableHlo.after opsTake3 W (Proc.devRef .tc main_call4_v13) = Cert.BallQuery.picked3 (F := F) (W (Proc.devRef .tc main_arg0)) (W (Proc.devRef .tc main_v28)) := by
  after_results_simp <;> rfl

open Idealize.ShloMosaic.StableHlo in
set_option maxRecDepth 16384 in
set_option maxHeartbeats 4000000 in
/-- The fill word spread. -/
theorem fill3_stage (W : Valuation τ sig (Elt F)) :
    StableHlo.after opsTake3 W (Proc.devRef .tc main_call4_v14) = Cert.BallQuery.fill3 (F := F) := by
  after_results_simp <;> rfl

open Idealize.ShloMosaic.StableHlo in
set_option maxRecDepth 16384 in
set_option maxHeartbeats 4000000 in
/-- The gathered coordinates where in range, the fill elsewhere. -/
theorem sel3_stage (W : Valuation τ sig (Elt F)) :
    StableHlo.after opsSel3 W (Proc.devRef .tc main_v29) = select (W (Proc.devRef .tc main_call4_v12)) (W (Proc.devRef .tc main_call4_v13)) (W (Proc.devRef .tc main_call4_v14)) := by
  after_results_simp <;> rfl

open Idealize.ShloMosaic.StableHlo in
set_option maxRecDepth 16384 in
set_option maxHeartbeats 4000000 in
/-- Per centre and neighbour, less the centre. -/
theorem rel_stage (W : Valuation τ sig (Elt F)) :
    StableHlo.after opsRel W (Proc.devRef .tc main_v33) = Cert.BallQuery.relCoords (F := F) (W (Proc.devRef .tc main_v29)) (W (Proc.devRef .tc main_arg1)) := by
  after_results_simp <;> rfl

open Idealize.ShloMosaic.StableHlo in
set_option maxRecDepth 16384 in
set_option maxHeartbeats 4000000 in
/-- The indices laid flat over 64 channels. -/
theorem spread64_stage (W : Valuation τ sig (Elt F)) :
    StableHlo.after opsSpread64 W (Proc.devRef .tc main_v35) = Cert.BallQuery.spread64 (W (Proc.devRef .tc main_v26)) := by
  after_results_simp <;> rfl

open Idealize.ShloMosaic.StableHlo in
set_option maxRecDepth 16384 in
set_option maxHeartbeats 4000000 in
/-- Where the wrapped index is in range. -/
theorem mask64_stage (W : Valuation τ sig (Elt F)) :
    StableHlo.after opsTake64 W (Proc.devRef .tc main_call5_v12) = Cert.BallQuery.inRange64 (W (Proc.devRef .tc main_v35)) := by
  after_results_simp <;> rfl

open Idealize.ShloMosaic.StableHlo in
set_option maxRecDepth 16384 in
set_option maxHeartbeats 4000000 in
/-- The gathered features. -/
theorem pick64_stage (W : Valuation τ sig (Elt F)) :
    StableHlo.after opsTake64 W (Proc.devRef .tc main_call5_v13) = Cert.BallQuery.picked64 (F := F) (W (Proc.devRef .tc main_arg2)) (W (Proc.devRef .tc main_v35)) := by
  after_results_simp <;> rfl

open Idealize.ShloMosaic.StableHlo in
set_option maxRecDepth 16384 in
set_option maxHeartbeats 4000000 in
/-- The fill word spread. -/
theorem fill64_stage (W : Valuation τ sig (Elt F)) :
    StableHlo.after opsTake64 W (Proc.devRef .tc main_call5_v14) = Cert.BallQuery.fill64 (F := F) := by
  after_results_simp <;> rfl

open Idealize.ShloMosaic.StableHlo in
set_option maxRecDepth 16384 in
set_option maxHeartbeats 4000000 in
/-- The gathered features where in range, the fill elsewhere. -/
theorem sel64_stage (W : Valuation τ sig (Elt F)) :
    StableHlo.after opsSel64 W (Proc.devRef .tc main_v36) = select (W (Proc.devRef .tc main_call5_v12)) (W (Proc.devRef .tc main_call5_v13)) (W (Proc.devRef .tc main_call5_v14)) := by
  after_results_simp <;> rfl

open Idealize.ShloMosaic.StableHlo in
set_option maxRecDepth 16384 in
set_option maxHeartbeats 4000000 in
/-- The features joined to the relative coordinates. -/
theorem join_stage (W : Valuation τ sig (Elt F)) :
    StableHlo.after opsJoin W (Proc.devRef .tc main_v38) = Cert.BallQuery.joinBoth (F := F) (W (Proc.devRef .tc main_v33)) (W (Proc.devRef .tc main_v36)) := by
  read_fold
  rfl

/-! ## What each stretch leaves alone -/

/-- `opsCand` writes none of these buffers. -/
theorem keep_opsCand (b : Ref sig .tc) (hb : b = main_arg0 ∨ b = main_arg1 ∨ b = main_arg2) (W : Valuation τ sig (Elt F)) :
    StableHlo.after opsCand W (Proc.devRef .tc b) = W (Proc.devRef .tc b) := by
  rcases hb with rfl | rfl | rfl
  all_goals
    refine StableHlo.after_of_forall_not_mem _ W (List.forall_iff_forall_mem.mp ?_)
    simp only [opsCand, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `opsNear` writes none of these buffers. -/
theorem keep_opsNear (b : Ref sig .tc) (hb : b = main_arg0 ∨ b = main_arg1 ∨ b = main_arg2) (W : Valuation τ sig (Elt F)) :
    StableHlo.after opsNear W (Proc.devRef .tc b) = W (Proc.devRef .tc b) := by
  rcases hb with rfl | rfl | rfl
  all_goals
    refine StableHlo.after_of_forall_not_mem _ W (List.forall_iff_forall_mem.mp ?_)
    simp only [opsNear, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `opsSpread3` writes none of these buffers. -/
theorem keep_opsSpread3 (b : Ref sig .tc) (hb : b = main_v26 ∨ b = main_arg0 ∨ b = main_arg1 ∨ b = main_arg2) (W : Valuation τ sig (Elt F)) :
    StableHlo.after opsSpread3 W (Proc.devRef .tc b) = W (Proc.devRef .tc b) := by
  rcases hb with rfl | rfl | rfl | rfl
  all_goals
    refine StableHlo.after_of_forall_not_mem _ W (List.forall_iff_forall_mem.mp ?_)
    simp only [opsSpread3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `opsTake3` writes none of these buffers. -/
theorem keep_opsTake3 (b : Ref sig .tc) (hb : b = main_v26 ∨ b = main_arg0 ∨ b = main_arg1 ∨ b = main_arg2) (W : Valuation τ sig (Elt F)) :
    StableHlo.after opsTake3 W (Proc.devRef .tc b) = W (Proc.devRef .tc b) := by
  rcases hb with rfl | rfl | rfl | rfl
  all_goals
    refine StableHlo.after_of_forall_not_mem _ W (List.forall_iff_forall_mem.mp ?_)
    simp only [opsTake3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `opsSel3` writes none of these buffers. -/
theorem keep_opsSel3 (b : Ref sig .tc) (hb : b = main_v26 ∨ b = main_arg0 ∨ b = main_arg1 ∨ b = main_arg2) (W : Valuation τ sig (Elt F)) :
    StableHlo.after opsSel3 W (Proc.devRef .tc b) = W (Proc.devRef .tc b) := by
  rcases hb with rfl | rfl | rfl | rfl
  all_goals
    refine StableHlo.after_of_forall_not_mem _ W (List.forall_iff_forall_mem.mp ?_)
    simp only [opsSel3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `opsRel` writes none of these buffers. -/
theorem keep_opsRel (b : Ref sig .tc) (hb : b = main_v26 ∨ b = main_arg0 ∨ b = main_arg1 ∨ b = main_arg2) (W : Valuation τ sig (Elt F)) :
    StableHlo.after opsRel W (Proc.devRef .tc b) = W (Proc.devRef .tc b) := by
  rcases hb with rfl | rfl | rfl | rfl
  all_goals
    refine StableHlo.after_of_forall_not_mem _ W (List.forall_iff_forall_mem.mp ?_)
    simp only [opsRel, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `opsSpread64` writes none of these buffers. -/
theorem keep_opsSpread64 (b : Ref sig .tc) (hb : b = main_v33 ∨ b = main_arg0 ∨ b = main_arg1 ∨ b = main_arg2) (W : Valuation τ sig (Elt F)) :
    StableHlo.after opsSpread64 W (Proc.devRef .tc b) = W (Proc.devRef .tc b) := by
  rcases hb with rfl | rfl | rfl | rfl
  all_goals
    refine StableHlo.after_of_forall_not_mem _ W (List.forall_iff_forall_mem.mp ?_)
    simp only [opsSpread64, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `opsTake64` writes none of these buffers. -/
theorem keep_opsTake64 (b : Ref sig .tc) (hb : b = main_v33 ∨ b = main_arg0 ∨ b = main_arg1 ∨ b = main_arg2) (W : Valuation τ sig (Elt F)) :
    StableHlo.after opsTake64 W (Proc.devRef .tc b) = W (Proc.devRef .tc b) := by
  rcases hb with rfl | rfl | rfl | rfl
  all_goals
    refine StableHlo.after_of_forall_not_mem _ W (List.forall_iff_forall_mem.mp ?_)
    simp only [opsTake64, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `opsSel64` writes none of these buffers. -/
theorem keep_opsSel64 (b : Ref sig .tc) (hb : b = main_v33 ∨ b = main_arg0 ∨ b = main_arg1 ∨ b = main_arg2) (W : Valuation τ sig (Elt F)) :
    StableHlo.after opsSel64 W (Proc.devRef .tc b) = W (Proc.devRef .tc b) := by
  rcases hb with rfl | rfl | rfl | rfl
  all_goals
    refine StableHlo.after_of_forall_not_mem _ W (List.forall_iff_forall_mem.mp ?_)
    simp only [opsSel64, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- `opsJoin` writes none of these buffers. -/
theorem keep_opsJoin (b : Ref sig .tc) (hb : b = main_arg0 ∨ b = main_arg1 ∨ b = main_arg2) (W : Valuation τ sig (Elt F)) :
    StableHlo.after opsJoin W (Proc.devRef .tc b) = W (Proc.devRef .tc b) := by
  rcases hb with rfl | rfl | rfl
  all_goals
    refine StableHlo.after_of_forall_not_mem _ W (List.forall_iff_forall_mem.mp ?_)
    simp only [opsJoin, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-! ## The whole line -/

/-- The result is `grouped` of the candidates of the coordinate arrays. -/
theorem result_eq (W : Valuation τ sig (Elt F)) :
    StableHlo.after opsAll W (Proc.devRef .tc main_v38)
      = Cert.BallQuery.grouped (F := F) (Cert.BallQuery.candRef (F := F) (W (Proc.devRef .tc main_arg0)) (W (Proc.devRef .tc main_arg1)))
          (W (Proc.devRef .tc main_arg0)) (W (Proc.devRef .tc main_arg1)) (W (Proc.devRef .tc main_arg2)) := by
  rw [after_all, join_stage, sel64_stage, keep_opsSel64 main_v33 (by simp), mask64_stage, pick64_stage]
  rw [fill64_stage, keep_opsTake64 main_v33 (by simp), spread64_stage, keep_opsSpread64 main_arg2 (by simp), keep_opsSpread64 main_v33 (by simp), rel_stage]
  rw [keep_opsRel main_v26 (by simp), keep_opsRel main_arg2 (by simp), sel3_stage, keep_opsSel3 main_v26 (by simp), keep_opsSel3 main_arg1 (by simp), keep_opsSel3 main_arg2 (by simp)]
  rw [mask3_stage, pick3_stage, fill3_stage, keep_opsTake3 main_v26 (by simp), keep_opsTake3 main_arg1 (by simp), keep_opsTake3 main_arg2 (by simp)]
  rw [spread3_stage, keep_opsSpread3 main_v26 (by simp), keep_opsSpread3 main_arg0 (by simp), keep_opsSpread3 main_arg1 (by simp), keep_opsSpread3 main_arg2 (by simp), near_stage]
  rw [keep_opsNear main_arg0 (by simp), keep_opsNear main_arg1 (by simp), keep_opsNear main_arg2 (by simp), cand_stage, keep_opsCand main_arg0 (by simp), keep_opsCand main_arg1 (by simp)]
  rw [keep_opsCand main_arg2 (by simp)]
  rfl

/-- An argument array is left alone by every stretch. -/
theorem arg_eq (b : Ref sig .tc) (hb : b = main_arg0 ∨ b = main_arg1 ∨ b = main_arg2) (W : Valuation τ sig (Elt F)) :
    StableHlo.after opsAll W (Proc.devRef .tc b) = W (Proc.devRef .tc b) := by
  rw [after_all]
  rcases hb with rfl | rfl | rfl
  all_goals
    rw [keep_opsJoin _ (by simp), keep_opsSel64 _ (by simp), keep_opsTake64 _ (by simp), keep_opsSpread64 _ (by simp), keep_opsRel _ (by simp), keep_opsSel3 _ (by simp), keep_opsTake3 _ (by simp), keep_opsSpread3 _ (by simp), keep_opsNear _ (by simp), keep_opsCand _ (by simp)]

/-- Every weakly fair execution of the reference terminates with its result at `grouped` of the candidates of the
    coordinate arrays, and the three arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = Cert.BallQuery.grouped (F := F) (Cert.BallQuery.candRef (F := F) (m ((c.tc : Thread nD τ).loc main_arg0)) (m ((c.tc : Thread nD τ).loc main_arg1)))
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v38).trans (result_eq _),
      (h c main_arg0).trans (arg_eq main_arg0 (by simp) _),
      (h c main_arg1).trans (arg_eq main_arg1 (by simp) _),
      (h c main_arg2).trans (arg_eq main_arg2 (by simp) _)⟩)
    (StableHlo.run_seq scopedRefs_eq scopedSems_eq defs main (fun _ => opsAll) main_eq
      (fun _ => List.forall_iff_forall_mem.mpr opsAll_sub) m ρ (hfresh := fun _ => opsAll_fresh))

end Cert.ReferenceIdeal.Hand

end
-- ==== Proof.lean ====
/-
  Ball query: for each of 4 × 2048 centres, the first 32 points (in index order) within radius 0.1, with the first one
  repeated when there are fewer (and index 0 when there are none); the output groups, per centre and neighbour, the
  neighbour's coordinates relative to the centre and the neighbour's 64 features.

  The kernel computes in a Pallas region only the quadratic part — for every (centre, point) pair the candidate word: the
  point's index if |c|² + |p|² − 2⟨c, p⟩ is below the radius word, the sentinel 16384 if not — tile by tile over a
  4 × 8 × 8 grid, from the transposed centres; the sort, the selection and the gathers follow as host operations, the same
  ones the reference ends with.  The reference computes the same candidate words with two sums of squares and one
  contraction over the three channels.

  Over the extended reals both candidate arrays are ONE function of the two coordinate arrays (`candOf`): the kernel's
  three-term sums accumulated from zero and the reference's sums over the channel axis started from the zero word are the
  same three-term sums, and the iota along a tile plus the tile's offset is the global iota.  No law that could fail at an
  infinity is used, so the precondition is never opened.  Everything after the candidates is the same function of them on
  both sides (`grouped`), so the results agree.  Each program runs to the end, faults nowhere and writes no argument array.
  The idealization rewrote nothing, so the preservation claim is empty.
-/
import proofs.«178756_j43714177139075_1_alg».proof.Defs
import proofs.«178756_j43714177139075_1_alg».proof.Proof.Gen.Kernel
import proofs.«178756_j43714177139075_1_alg».proof.Proof.Gen.KernelIdeal
import proofs.«178756_j43714177139075_1_alg».proof.Proof.Gen.ReferenceIdeal
import proofs.«178756_j43714177139075_1_alg».proof.Proof.Gen.Pre_finite_inputs
import proofs.«178756_j43714177139075_1_alg».proof.Proof.AroundBits
import proofs.«178756_j43714177139075_1_alg».proof.Proof.AroundIdeal
import proofs.«178756_j43714177139075_1_alg».proof.Proof.KernelTail
import proofs.«178756_j43714177139075_1_alg».proof.Proof.RefRun
import proofs.«178756_j43714177139075_1_alg».proof.Proof.Candidates
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Around.frame m ρ

/-- So does its idealization. -/
theorem frame_ki : Cert.frame_KernelIdeal := fun m ρ _ => Cert.KernelIdeal.Around.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- From memories agreeing on the arguments both programs end with `grouped` of `candOf` of the coordinate arrays. -/
theorem algebraic : Cert.algebraic_KernelIdeal_ReferenceIdeal := by
  intro m ρ m' ρ' _ hagree
  refine ⟨fun c => Cert.BallQuery.grouped (F := Ideal)
      (Cert.BallQuery.candOf (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Tail.run m ρ, ?_⟩
  refine (θ_run Cert.ReferenceIdeal.defs _ _).mono (fun _ h c => ⟨?_, (h c).2⟩) (Cert.ReferenceIdeal.Hand.run (F := Ideal) m' ρ')
  rw [(h c).1, Cert.BallQuery.candRef_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
